-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v54_1)) (v1 : (c : Dev Cert.KernelIdeal.nD) → Buf (Elt Ideal) ((c.tc : Thread Cert.KernelIdeal.nD Cert.KernelIdeal.τ).loc Cert.KernelIdeal.main_v54_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_1) = v0 c
          ∧ r.2.mem ((c.tc : Thread Cert.KernelIdeal.nD Cert.KernelIdeal.τ).loc Cert.KernelIdeal.main_v54_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S64x128 : Shape := ⟨2, ![64, 128]⟩
abbrev S64 : Shape := ⟨1, ![64]⟩
abbrev S16x64 : Shape := ⟨2, ![16, 64]⟩
abbrev S16 : Shape := ⟨1, ![16]⟩
abbrev S2x16 : Shape := ⟨2, ![2, 16]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S2x16 : S_.BroadcastsInDim S2x16 (![] : Fin 0 → Fin S2x16.rank)
  reducesTo_S2x16_S_d0_1 : S2x16.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg9 : FVec F S16 .f32) (main_arg10 : FVec F S16x64 .f32) (main_arg11 : FVec F S2x16 .f32) (main_arg12 : FVec F S2 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x64 .f32 := Host.absf main_arg10
  let main_cst_14 : FVec F S_ .f32 := constant S_ .f32 0x7F800000#32
  let main_v40 : FVec F S16x64 .f32 := broadcastInDim S16x64 ![] bcast_S_S16x64 main_cst_14
  let main_v41 : IVec S16x64 1 := cmpf .olt main_v39 main_v40
  let main_c_15 : IVec S_ 1 := constantI S_ 1 1#1
  let main_v42 : IVec S_ 1 := (fun x v => Host.reduce IntOp.andi x v reducesTo_S16x64_S_d0_1 h_S_) main_v41 main_c_15
  let main_v43 : IVec S_ 1 := andi main_v38 main_v42
  let main_v44 : FVec F S2x16 .f32 := Host.absf main_arg11
  let main_cst_16 : FVec F S_ .f32 := constant S_ .f32 0x7F800000#32
  let main_v45 : FVec F S2x16 .f32 := broadcastInDim S2x16 ![] bcast_S_S2x16 main_cst_16
  let main_v46 : IVec S2x16 1 := cmpf .olt main_v44 main_v45
  let main_c_17 : IVec S_ 1 := constantI S_ 1 1#1
  let main_v47 : IVec S_ 1 := (fun x v => Host.reduce IntOp.andi x v reducesTo_S2x16_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg6 : FVec F S64 .f32) (main_arg7 : FVec F S64 .f32) (main_arg8 : FVec F S16x64 .f32) (main_arg9 : FVec F S16 .f32) (main_arg10 : FVec F S16x64 .f32) (main_arg11 : FVec F S2x16 .f32) (main_arg12 : FVec F S2 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S16x64 .f32 := Host.absf main_arg8
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S1600000 32) (main_arg2 : IVec S1600000 32) (main_arg3 : FVec F S64x128 .f32) (main_arg4 : FVec F S64 .f32) (main_arg5 : FVec F S64x128 .f32) (main_arg6 : FVec F S64 .f32) (main_arg7 : FVec F S64 .f32) (main_arg8 : FVec F S16x64 .f32) (main_arg9 : FVec F S16 .f32) (main_arg10 : FVec F S16x64 .f32) (main_arg11 : FVec F S2x16 .f32) (main_arg12 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S1600000 : Shape := ⟨1, ![1600000]⟩
abbrev S64x128 : Shape := ⟨2, ![64, 128]⟩
abbrev S64 : Shape := ⟨1, ![64]⟩
abbrev S16x64 : Shape := ⟨2, ![16, 64]⟩
abbrev S16 : Shape := ⟨1, ![16]⟩
abbrev S2x16 : Shape := ⟨2, ![2, 16]⟩
abbrev S2 : Shape := ⟨1, ![2]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S128x64 : Shape := ⟨2, ![128, 64]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S64x16 : Shape := ⟨2, ![64, 16]⟩
abbrev S16x2 : Shape := ⟨2, ![16, 2]⟩
abbrev S1x16 : Shape := ⟨2, ![1, 16]⟩
abbrev S1x2 : Shape := ⟨2, ![1, 2]⟩
abbrev S100000x16 : Shape := ⟨2, ![100000, 16]⟩
abbrev S100000x2 : Shape := ⟨2, ![100000, 2]⟩
abbrev S5000x16 : Shape := ⟨2, ![5000, 16]⟩
abbrev S5000x2 : Shape := ⟨2, ![5000, 2]⟩

abbrev nBuf : Space → Nat
  | .hbm => 83
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S64x128, .f32⟩
  | .hbm, ⟨4, _⟩ => ⟨S64, .f32⟩
  | .hbm, ⟨5, _⟩ => ⟨S64x128, .f32⟩
  | .hbm, ⟨6, _⟩ => ⟨S64, .f32⟩
  | .hbm, ⟨7, _⟩ => ⟨S64, .f32⟩
  | .hbm, ⟨8, _⟩ => ⟨S16x64, .f32⟩
  | .hbm, ⟨9, _⟩ => ⟨S16, .f32⟩
  | .hbm, ⟨10, _⟩ => ⟨S16x64, .f32⟩
  | .hbm, ⟨11, _⟩ => ⟨S2x16, .f32⟩
  | .hbm, ⟨12, _⟩ => ⟨S2, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S128x64, .f32⟩
  | .hbm, ⟨42, _⟩ => ⟨S128x64, .f32⟩
  | .hbm, ⟨43, _⟩ => ⟨S1x64, .f32⟩
  | .hbm, ⟨44, _⟩ => ⟨S100000x64, .f32⟩
  | .hbm, ⟨45, _⟩ => ⟨S1x64, .f32⟩
  | .hbm, ⟨46, _⟩ => ⟨S1x64, .f32⟩
  | .hbm, ⟨47, _⟩ => ⟨S_, .f32⟩
  | .hbm, ⟨48, _⟩ => ⟨S1x64, .f32⟩
  | .hbm, ⟨49, _⟩ => ⟨S1x64, .f32⟩
  | .hbm, ⟨50, _⟩ => ⟨S_, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S_, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S1x64, .f32⟩
  | .hbm, ⟨60, _⟩ => ⟨S100000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .f32⟩
  | .hbm, ⟨70, _⟩ => ⟨S_, .f32⟩
  | .hbm, ⟨71, _⟩ => ⟨S100000x64, .f32⟩
  | .hbm, ⟨72, _⟩ => ⟨S1600000x1, .i32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S64x16, .f32⟩
  | .hbm, ⟨77, _⟩ => ⟨S64x16, .f32⟩
  | .hbm, ⟨78, _⟩ => ⟨S16x2, .f32⟩
  | .hbm, ⟨79, _⟩ => ⟨S1x16, .f32⟩
  | .hbm, ⟨80, _⟩ => ⟨S1x2, .f32⟩
  | .hbm, ⟨81, _⟩ => ⟨S100000x16, .f32⟩
  | .hbm, ⟨82, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S1x64, .f32⟩
  | .local _ .vmem, ⟨6, _⟩ => ⟨S128x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S64x16, .f32⟩
  | .local _ .vmem, ⟨28, _⟩ => ⟨S1x16, .f32⟩
  | .local _ .vmem, ⟨29, _⟩ => ⟨S64x16, .f32⟩
  | .local _ .vmem, ⟨30, _⟩ => ⟨S16x2, .f32⟩
  | .local _ .vmem, ⟨31, _⟩ => ⟨S1x2, .f32⟩
  | .local _ .vmem, ⟨32, _⟩ => ⟨S5000x16, .f32⟩
  | .local _ .vmem, ⟨33, _⟩ => ⟨S5000x16, .f32⟩
  | .local _ .vmem, ⟨34, _⟩ => ⟨S5000x2, .f32⟩
  | .local _ .vmem, ⟨35, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_3 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25_0 : Ref sig .tc := ⟨.hbm, 45, rfl⟩
abbrev main_v25_1 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_cst_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54_0 : Ref sig .tc := ⟨.hbm, 81, rfl⟩
abbrev main_v54_1 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_scratch0 : Ref sig .tc := ⟨.vmem, 13, rfl⟩
abbrev cc1_scratch1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg7_1 : Ref sig .tc := ⟨.vmem, 33, rfl⟩
abbrev cc3_stg8_0 : Ref sig .tc := ⟨.vmem, 34, rfl⟩
abbrev cc3_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem7_1 : DmaSem sig := 31
abbrev cc3_sem8_0 : DmaSem sig := 32
abbrev cc3_sem8_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x16 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S5000x2 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S64x128_S128x64_1_0 : S64x128.Transposes [1, 0] S128x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S64 : S5000x64.Reduces [0] S64
  bcast_S_S1x64 : S_.BroadcastsInDim S1x64 (![] : Fin 0 → Fin S1x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S16x64_S64x16_1_0 : S16x64.Transposes [1, 0] S64x16
  transposes_S2x16_S16x2_1_0 : S2x16.Transposes [1, 0] S16x2
  shapeCasts_S16_S1x16 : S16.ShapeCasts S1x16
  shapeCasts_S2_S1x2 : S2.ShapeCasts S1x2
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  inb_S16x2_S16x2_0_0 : ∀ a, (![0, 0] : Fin 2 → Nat) a + S16x2.size a ≤ S16x2.size a
  h_S16x2 : 0 < S16x2.numel
  shapeCasts_S16x2_S16x2 : S16x2.ShapeCasts S16x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x16_S5000x16_1_0_0_1_n_n_wf : DotDims.WF S5000x64 S64x16 S5000x16 [1] [0] [0] [1] [] []
  dot_S5000x16_S16x2_S5000x2_1_0_0_1_n_n_wf : DotDims.WF S5000x16 S16x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x16.size a ≤ S64x16.size a
  hwx3_2 : ∀ i : grid3.Coords, EltTy.bits .f32 = 32 ∨ (Rect.block (s := S64x16) S64x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x16.size a ≤ S64x16.size a
  hwx3_4 : ∀ i : grid3.Coords, EltTy.bits .f32 = 32 ∨ (Rect.block (s := S64x16) S64x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16x2.size a ≤ S16x2.size a
  hwx3_5 : ∀ i : grid3.Coords, EltTy.bits .f32 = 32 ∨ (Rect.block (s := S16x2) S16x2.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x2.size a ≤ S1x2.size a
  hwx3_6 : ∀ i : grid3.Coords, EltTy.bits .f32 = 32 ∨ (Rect.block (s := S1x2) S1x2.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x16.size a ≤ S100000x16.size a
  hwx3_7 : ∀ i : grid3.Coords, EltTy.bits .f32 = 32 ∨ (Rect.block (s := S100000x16) S5000x16.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x2.size a ≤ S100000x2.size a
  hwx3_8 : ∀ i : grid3.Coords, EltTy.bits .f32 = 32 ∨ (Rect.block (s := S100000x2) S5000x2.size (cc3_transform_8 i) (hinb3_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf

abbrev win0_0 : Pipeline.Window sig grid0 :=
  Pipeline.Window.ofSpec (Memref.whole main_v20) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v24) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v48) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S64x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S64x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S16x2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v53) S1x2.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v54_0) S5000x16.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v54_1) S5000x2.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S64x128 : Shape := ⟨2, ![64, 128]⟩
abbrev S64 : Shape := ⟨1, ![64]⟩
abbrev S16x64 : Shape := ⟨2, ![16, 64]⟩
abbrev S16 : Shape := ⟨1, ![16]⟩
abbrev S2x16 : Shape := ⟨2, ![2, 16]⟩
abbrev S2 : Shape := ⟨1, ![2]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S128x64 : Shape := ⟨2, ![128, 64]⟩
abbrev S100000x64 : Shape := ⟨2, ![100000, 64]⟩
abbrev S1x64 : Shape := ⟨2, ![1, 64]⟩
abbrev S1600000x64 : Shape := ⟨2, ![1600000, 64]⟩
abbrev S64x16 : Shape := ⟨2, ![64, 16]⟩
abbrev S100000x16 : Shape := ⟨2, ![100000, 16]⟩
abbrev S1x16 : Shape := ⟨2, ![1, 16]⟩
abbrev S16x2 : Shape := ⟨2, ![16, 2]⟩
abbrev S100000x2 : Shape := ⟨2, ![100000, 2]⟩
abbrev S1x2 : Shape := ⟨2, ![1, 2]⟩

abbrev nBuf : Space → Nat
  | .hbm => 110
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S64x128, .f32⟩
  | .hbm, ⟨4, _⟩ => ⟨S64, .f32⟩
  | .hbm, ⟨5, _⟩ => ⟨S64x128, .f32⟩
  | .hbm, ⟨6, _⟩ => ⟨S64, .f32⟩
  | .hbm, ⟨7, _⟩ => ⟨S64, .f32⟩
  | .hbm, ⟨8, _⟩ => ⟨S16x64, .f32⟩
  | .hbm, ⟨9, _⟩ => ⟨S16, .f32⟩
  | .hbm, ⟨10, _⟩ => ⟨S16x64, .f32⟩
  | .hbm, ⟨11, _⟩ => ⟨S2x16, .f32⟩
  | .hbm, ⟨12, _⟩ => ⟨S2, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S128x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S128x64, .f32⟩
  | .hbm, ⟨47, _⟩ => ⟨S100000x64, .f32⟩
  | .hbm, ⟨48, _⟩ => ⟨S100000x64, .f32⟩
  | .hbm, ⟨49, _⟩ => ⟨S_, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S100000x64, .f32⟩
  | .hbm, ⟨81, _⟩ => ⟨S100000x64, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x64, .f32⟩
  | .hbm, ⟨91, _⟩ => ⟨S_, .f32⟩
  | .hbm, ⟨92, _⟩ => ⟨S100000x64, .f32⟩
  | .hbm, ⟨93, _⟩ => ⟨S1600000x1, .i32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S64x16, .f32⟩
  | .hbm, ⟨98, _⟩ => ⟨S100000x16, .f32⟩
  | .hbm, ⟨99, _⟩ => ⟨S1x16, .f32⟩
  | .hbm, ⟨100, _⟩ => ⟨S100000x16, .f32⟩
  | .hbm, ⟨101, _⟩ => ⟨S100000x16, .f32⟩
  | .hbm, ⟨102, _⟩ => ⟨S64x16, .f32⟩
  | .hbm, ⟨103, _⟩ => ⟨S100000x16, .f32⟩
  | .hbm, ⟨104, _⟩ => ⟨S100000x16, .f32⟩
  | .hbm, ⟨105, _⟩ => ⟨S16x2, .f32⟩
  | .hbm, ⟨106, _⟩ => ⟨S100000x2, .f32⟩
  | .hbm, ⟨107, _⟩ => ⟨S1x2, .f32⟩
  | .hbm, ⟨108, _⟩ => ⟨S100000x2, .f32⟩
  | .hbm, ⟨109, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_3 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call0_cst : Ref sig .tc := ⟨.hbm, 79, rfl⟩
abbrev main_call0_v0 : Ref sig .tc := ⟨.hbm, 80, rfl⟩
abbrev main_v54 : Ref sig .tc := ⟨.hbm, 81, rfl⟩
abbrev main_c_10 : Ref sig .tc := ⟨.hbm, 82, rfl⟩
abbrev main_v55 : Ref sig .tc := ⟨.hbm, 83, rfl⟩
abbrev main_v56 : Ref sig .tc := ⟨.hbm, 84, rfl⟩
abbrev main_c_11 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_12 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S16x64_S64x16_1_0 : S16x64.Transposes [1, 0] S64x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  transposes_S2x16_S16x2_1_0 : S2x16.Transposes [1, 0] S16x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []
  dot_S100000x16_S16x2_S100000x2_1_0_0_1_n_n_wf : DotDims.WF S100000x16 S16x2 S100000x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf

class Facts : Prop extends Facts₀ where

variable [Facts]
-- ==== Proof.RefFrame.lean ====
/-
  The reference program has no kernel launch: it is a straight line of host operations, so every weakly fair
  execution ends, and its run leaves each argument array as it was launched. The frame is that run with the
  results forgotten.
-/
import proofs.«129360_j3092376453140_1_alg».proof.Defs
import proofs.«129360_j3092376453140_1_alg».proof.Proof.Gen.ReferenceIdeal
import proofs.«129360_j3092376453140_1_alg».proof.Proof.Gen.ReferenceIdeal.Run
import proofs.«129360_j3092376453140_1_alg».proof.Proof.Gen.ReferenceIdeal.Read
import proofs.«129360_j3092376453140_1_alg».proof.Proof.Gen.Pre_finite_inputs

noncomputable section

namespace Cert.Proof.RefClaims

open Idealize.ShloMosaic Idealize.SL.Sem

/-- The host-only program runs to its end from any memory, and no operation writes an argument. -/
theorem frame_ri : @Cert.frame_ReferenceIdeal Cert.ReferenceIdeal.Gen.facts Cert.Pre_finite_inputs.Gen.facts := fun m ρ _ =>
  (θ_run Cert.ReferenceIdeal.defs _ _).mono (fun _ h c => (h c).2.2) (Cert.ReferenceIdeal.Value.run (F := Ideal) m ρ)

end Cert.Proof.RefClaims

end
-- ==== Proof.K.R0.lean ====
/-
  The first dense layer, one block of 5000 rows at a time. At grid point t the body reads rows 5000t … 5000t+4999 of
  the aggregated features and of the node features (two blocks of 5000 × 128), the two 128 × 64 weight matrices and the
  1 × 64 bias row (the same block at every point), and stores into the output's block the 5000 × 64 matrix
  (aggregated · left weights + features · right weights) + bias, every row of the bias the same. Nothing is kept from
  one point to the next. This module states what the body leaves in the output block as a function of the five input
  blocks, proves that the body does leave it there, and packages this as the pipeline's proof data for the region, at
  whatever contents V the buffers have when the region is entered.
-/
import proofs.«129360_j3092376453140_1_alg».proof.Proof.K.LaunchP
import proofs.«129360_j3092376453140_1_alg».proof.Proof.Gen.Kernel.Skeleton
import proofs.«129360_j3092376453140_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def rows0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and the store take a whole block -/

abbrev whole5000x128 : Rect S5000x128 := Rect.unit (s := S5000x128) ![0, 0] S5000x128.size inb_S5000x128_S5000x128_0_0
abbrev whole128x64 : Rect S128x64 := Rect.unit (s := S128x64) ![0, 0] S128x64.size inb_S128x64_S128x64_0_0
abbrev whole1x64 : Rect S1x64 := Rect.unit (s := S1x64) ![0, 0] S1x64.size inb_S1x64_S1x64_0_0
abbrev whole5000x64 : Rect S5000x64 := Rect.unit (s := S5000x64) ![0, 0] S5000x64.size inb_S5000x64_S5000x64_0_0

/-! ## What the body leaves in the output block -/

/-- The output block after the body: its one store, of the layer's value on the five input blocks
    (aggregated rows, feature rows, left weights, bias row, right weights). -/
def layer1Block (a x : Vec F S5000x128 .f32) (wl : Vec F S128x64 .f32) (b : Vec F S1x64 .f32) (wr : Vec F S128x64 .f32) : Vec F S5000x64 .f32 :=
  View.canon [⟨whole5000x64, k0_pay1 (View.ld a whole5000x128) (View.ld x whole5000x128) (View.ld wl whole128x64) (View.ld wr whole128x64) (View.ld b whole1x64)⟩]

/-- The one store covers the block. -/
theorem layer1Block_cover (p0 : Vec F S5000x64 .f32) (y : S5000x64.Idx) :
    ∃ pc ∈ ([⟨whole5000x64, p0⟩] : List (View.Piece (Elt F) S5000x64 .f32)), y ∈ pc.1.set :=
  View.cover_of_tiled [⟨whole5000x64, p0⟩] S5000x64.size (by rfl) y

/-! ## The body's triple -/

set_option maxHeartbeats 1000000 in
/-- On whole staging buffers, the inputs' at read contents and the output's at anything, the body runs to its end
    holding the inputs' as they were and the output's at the layer's value of them. -/
theorem layer1_runs (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (a x : Vec F S5000x128 .f32) (wl : Vec F S128x64 .f32) (b : Vec F S1x64 .f32) (wr : Vec F S128x64 .f32) (K : PUnit → sProp 𝕄) :
    iprop(owns (c : Thread nD τ) arg1 fullShare a ∗ owns (c : Thread nD τ) arg2 fullShare x ∗ owns (c : Thread nD τ) arg3 fullShare wl
        ∗ owns (c : Thread nD τ) arg4 fullShare b ∗ owns (c : Thread nD τ) arg5 fullShare wr ∗ (∃ d, owns (c : Thread nD τ) arg6 fullShare d)
        ∗ (iprop(owns (c : Thread nD τ) arg1 fullShare a ∗ owns (c : Thread nD τ) arg2 fullShare x ∗ owns (c : Thread nD τ) arg3 fullShare wl
            ∗ owns (c : Thread nD τ) arg4 fullShare b ∗ owns (c : Thread nD τ) arg5 fullShare wr
            ∗ owns (c : Thread nD τ) arg6 fullShare (layer1Block a x wl b wr)) -∗ K ⟨⟩))
      ⊢ wp frame (wpE (defs₀ (F := F)) Variants.none c none) E (cc0__sage_linear_kernel i arg1 harg1 arg2 harg2 arg3 harg3 arg4 harg4 arg5 harg5 arg6 harg6) K := by
  simp only [cc0__sage_linear_kernel_eq_skeleton]; unfold cc0__sage_linear_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (layer1Block_cover _)

/-! ## The pipeline's proof data -/

/-- The region's proof data on core c: the arrays as the region finds them; after the body at point t each input's
    buffer at its block and the output's at the layer's value of the five blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => rows0 V c 0 t
    | ⟨1, _⟩ => rows0 V c 1 t
    | ⟨2, _⟩ => rows0 V c 2 t
    | ⟨3, _⟩ => rows0 V c 3 t
    | ⟨4, _⟩ => rows0 V c 4 t
    | ⟨5, _⟩ => layer1Block (rows0 V c 0 t) (rows0 V c 1 t) (rows0 V c 2 t) (rows0 V c 3 t) (rows0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = rows0 V c 0 t := by dsimp only [dat0]
theorem after0_1 (c : Dev nD) (t : Fin cfg0.N) : (dat0 V c).after 1 t = rows0 V c 1 t := by dsimp only [dat0]
theorem after0_2 (c : Dev nD) (t : Fin cfg0.N) : (dat0 V c).after 2 t = rows0 V c 2 t := by dsimp only [dat0]
theorem after0_3 (c : Dev nD) (t : Fin cfg0.N) : (dat0 V c).after 3 t = rows0 V c 3 t := by dsimp only [dat0]
theorem after0_4 (c : Dev nD) (t : Fin cfg0.N) : (dat0 V c).after 4 t = rows0 V c 4 t := by dsimp only [dat0]
theorem after0_5 (c : Dev nD) (t : Fin cfg0.N) : (dat0 V c).after 5 t
    = layer1Block (rows0 V c 0 t) (rows0 V c 1 t) (rows0 V c 2 t) (rows0 V c 3 t) (rows0 V c 4 t) := by dsimp only [dat0]

/-- An input window's staging buffer holds its block at every point, whether the block was moved there at this point
    or sits there from an earlier one (a window whose block never changes is moved once). -/
theorem found0_0 (c : Dev nD) (t : Fin cfg0.N) (d) : (dat0 V c).before 0 t d = rows0 V c 0 t :=
  ((dat0 V c).before_in_eq_fetched 0 rfl (fun _ => rfl) (fun _ _ _ => rfl)
      (fun t => by rw [after0_0]; unfold Dat.blockOf rows0; rw [A_eq0]; try rfl) t d).trans
    (by unfold Dat.fetched Dat.blockOf rows0; rw [A_eq0]; try rfl)
theorem found0_1 (c : Dev nD) (t : Fin cfg0.N) (d) : (dat0 V c).before 1 t d = rows0 V c 1 t :=
  ((dat0 V c).before_in_eq_fetched 1 rfl (fun _ => rfl) (fun _ _ _ => rfl)
      (fun t => by rw [after0_1]; unfold Dat.blockOf rows0; rw [A_eq0]; try rfl) t d).trans
    (by unfold Dat.fetched Dat.blockOf rows0; rw [A_eq0]; try rfl)
theorem found0_2 (c : Dev nD) (t : Fin cfg0.N) (d) : (dat0 V c).before 2 t d = rows0 V c 2 t :=
  ((dat0 V c).before_in_eq_fetched 2 rfl (fun _ => rfl) (fun _ _ _ => rfl)
      (fun t => by rw [after0_2]; unfold Dat.blockOf rows0; rw [A_eq0]; try rfl) t d).trans
    (by unfold Dat.fetched Dat.blockOf rows0; rw [A_eq0]; try rfl)
theorem found0_3 (c : Dev nD) (t : Fin cfg0.N) (d) : (dat0 V c).before 3 t d = rows0 V c 3 t :=
  ((dat0 V c).before_in_eq_fetched 3 rfl (fun _ => rfl) (fun _ _ _ => rfl)
      (fun t => by rw [after0_3]; unfold Dat.blockOf rows0; rw [A_eq0]; try rfl) t d).trans
    (by unfold Dat.fetched Dat.blockOf rows0; rw [A_eq0]; try rfl)
theorem found0_4 (c : Dev nD) (t : Fin cfg0.N) (d) : (dat0 V c).before 4 t d = rows0 V c 4 t :=
  ((dat0 V c).before_in_eq_fetched 4 rfl (fun _ => rfl) (fun _ _ _ => rfl)
      (fun t => by rw [after0_4]; unfold Dat.blockOf rows0; rw [A_eq0]; try rfl) t d).trans
    (by unfold Dat.fetched Dat.blockOf rows0; rw [A_eq0]; try rfl)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1, found0_2, found0_3, found0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (layer1_runs c Set.univ _ _ _ _ _ _ _ _ _ _ _ _ _ (rows0 V c 0 t) (rows0 V c 1 t) (rows0 V c 2 t) (rows0 V c 3 t) (rows0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1K.lean ====
/-
  The batch statistics kernel, one block of 5000 rows at a time: what one run of the body does to its buffers.
  The body keeps two running rows of 64 sums (the column sums of the rows seen so far, and the column sums of their
  squares). At the first grid point it first sets both to zero; at every point it adds the block's column sums to the
  first and the column sums of the block's squares to the second; at the last point it copies both to the outputs.
  This module states the two tests on the grid coordinate and, for each of the three ways they can come out (first
  point, a middle point, last point), the body's triple on whole buffers at named contents.
-/
import proofs.«129360_j3092376453140_1_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the body

The body tests the grid coordinate twice: whether it is 0 (then both running sums are first set to zero) and whether
it is 19 (then the two running sums are copied to the outputs). -/

/-- The first conditional's test, over the grid coordinate. -/
abbrev cond1_0 (i : grid1.Coords) : Prop :=
  (Scalar.cmpi .ne (Scalar.extui (Scalar.cmpi .eq (BitVec.ofNat 32 (i 0).val) 0#32)) 0#32) = 1#1
/-- The second conditional's test. -/
abbrev cond1_1 (i : grid1.Coords) : Prop := k1_cond2 i = 1#1

/-- The first test holds at point 0 only, -/
theorem hcond1_0 : ∀ t : Fin grid1.N, cond1_0 (grid1.coords t) ↔ t.val = 0 := by decide +kernel
/-- the second at point 19 only. -/
theorem hcond1_1 : ∀ t : Fin grid1.N, cond1_1 (grid1.coords t) ↔ t.val = 19 := by decide +kernel

/-! ## Whole-block accesses

Every load and store of the body takes a whole buffer, through the rectangle at offsets zero of the buffer's own sizes. -/

/-- The offsets of every access of the body are zero. -/
theorem zeros1 : (![0, 0] : Fin 2 → Nat) = fun _ => 0 := funext fun a => by fin_cases a <;> rfl

/-- A load of the whole 5000 × 64 block reads the buffer's contents; -/
theorem load_block1 {κ : Kind} {sp : Space} (v : View sig κ sp S5000x64 .f32) (f : v.ty.Contents (Elt F)) :
    v.readAt (Elt F) (Rect.unit (s := S5000x64) ![0, 0] S5000x64.size inb_S5000x64_S5000x64_0_0).toLoadRect f = v.read (Elt F) f :=
  (View.readAt_eq_ld _ _ _).trans (View.ld_unit_zero (S := S5000x64) zeros1 inb_S5000x64_S5000x64_0_0 _)

/-- so does a load of a whole row of 64. -/
theorem load_row1 {κ : Kind} {sp : Space} (v : View sig κ sp S1x64 .f32) (f : v.ty.Contents (Elt F)) :
    v.readAt (Elt F) (Rect.unit (s := S1x64) ![0, 0] S1x64.size inb_S1x64_S1x64_0_0).toLoadRect f = v.read (Elt F) f :=
  (View.readAt_eq_ld _ _ _).trans (View.ld_unit_zero (S := S1x64) zeros1 inb_S1x64_S1x64_0_0 _)

/-- A store of a whole row, made last, leaves the row stored, whatever was stored before; -/
theorem read_store1 {κ : Kind} {sp : Space} (v : View sig κ sp S1x64 .f32) (f : v.ty.Contents (Elt F))
    (w : Vec F S1x64 .f32) (L : List (View.Piece (Elt F) S1x64 .f32)) :
    v.read (Elt F) (v.writes (Elt F) f ((⟨Rect.unit (s := S1x64) ![0, 0] S1x64.size inb_S1x64_S1x64_0_0, w⟩ : View.Piece (Elt F) S1x64 .f32) :: L)) = w :=
  (View.read_writes_eq_canon v f ((⟨Rect.unit (s := S1x64) ![0, 0] S1x64.size inb_S1x64_S1x64_0_0, w⟩ : View.Piece (Elt F) S1x64 .f32) :: L)
      (fun y => ⟨(⟨Rect.unit (s := S1x64) ![0, 0] S1x64.size inb_S1x64_S1x64_0_0, w⟩ : View.Piece (Elt F) S1x64 .f32), List.mem_cons_self,
        View.mem_set_unit_zero (S := S1x64) zeros1 inb_S1x64_S1x64_0_0 y⟩)).trans
    (View.canon_cons_unit_zero (S := S1x64) zeros1 inb_S1x64_S1x64_0_0 w L)

/-- and a load of the whole row after it reads that row. -/
theorem load_stored1 {κ : Kind} {sp : Space} (v : View sig κ sp S1x64 .f32)
    (w : Vec F S1x64 .f32) (L : List (View.Piece (Elt F) S1x64 .f32)) :
    v.readCov ((⟨Rect.unit (s := S1x64) ![0, 0] S1x64.size inb_S1x64_S1x64_0_0, w⟩ : View.Piece (Elt F) S1x64 .f32) :: L)
      (Rect.unit (s := S1x64) ![0, 0] S1x64.size inb_S1x64_S1x64_0_0).toLoadRect = w :=
  View.readCov_cons_toLoadRect _ _ _ _

set_option maxHeartbeats 1000000 in
/-- AT THE FIRST POINT. On whole buffers — the block's at read contents x0, the two running sums' at anything — the body
    runs to its end holding the block's as it was and the running sums at (0 + column sums of x0) and
    (0 + column sums of the squares of x0); the two outputs' buffers are not touched. -/
theorem kern1_A (c : Dev nD) (E : Set ℕ) (i : grid1.Coords)
    (arg1 : Memref sig .tc .vmem S5000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (hc0 : cond1_0 i) (hc1 : ¬ cond1_1 i) (x0 : Vec F S5000x64 .f32) (K : PUnit → sProp 𝕄) :
    iprop(owns (c : Thread nD τ) arg1 fullShare x0 ∗ (∃ d, owns (c : Thread nD τ) arg4 fullShare d) ∗ (∃ d, owns (c : Thread nD τ) arg5 fullShare d)
        ∗ (iprop(owns (c : Thread nD τ) arg1 fullShare x0
              ∗ owns (c : Thread nD τ) arg4 fullShare (k1_pay4 x0 (k1_pay1 (F := F)))
              ∗ owns (c : Thread nD τ) arg5 fullShare (k1_pay5 x0 (k1_pay2 (F := F)))) -∗ K ⟨⟩))
      ⊢ wp frame (wpE (defs₀ (F := F)) Variants.none c none) E
          (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%d4, %f4, -, H4⟩, ⟨%d5, %f5, -, H5⟩, Hk⟩
  subst hf0
  sl_exec (disch := first | exact hc0 | exact hc1)
  sl_step
  iapply Hk
  isplitl [H0]
  · iexists f0; isplitr; · ipureintro; rfl
    iexact H0
  isplitl [H4]
  · iexists _; isplitr
    swap; · iexact H4
    ipureintro
    refine (read_store1 _ _ _ _).trans (congr (congrArg k1_pay4 (load_block1 _ _)) ?_)
    sl_unfold_run_names
    exact load_stored1 _ _ _
  · iexists _; isplitr
    swap; · iexact H5
    ipureintro
    refine (read_store1 _ _ _ _).trans (congr (congrArg k1_pay5 (load_block1 _ _)) ?_)
    sl_unfold_run_names
    exact load_stored1 _ _ _

set_option maxHeartbeats 1000000 in
/-- AT A MIDDLE POINT. On whole buffers — the block's at read contents x0, the running sums' at xs and xq — the body
    runs to its end holding the block's as it was and the running sums at (xs + column sums of x0) and
    (xq + column sums of the squares of x0); the two outputs' buffers are not touched. -/
theorem kern1_B (c : Dev nD) (E : Set ℕ) (i : grid1.Coords)
    (arg1 : Memref sig .tc .vmem S5000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (hc0 : ¬ cond1_0 i) (hc1 : ¬ cond1_1 i) (x0 : Vec F S5000x64 .f32) (xs xq : Vec F S1x64 .f32) (K : PUnit → sProp 𝕄) :
    iprop(owns (c : Thread nD τ) arg1 fullShare x0 ∗ owns (c : Thread nD τ) arg4 fullShare xs ∗ owns (c : Thread nD τ) arg5 fullShare xq
        ∗ (iprop(owns (c : Thread nD τ) arg1 fullShare x0
              ∗ owns (c : Thread nD τ) arg4 fullShare (k1_pay4 x0 xs)
              ∗ owns (c : Thread nD τ) arg5 fullShare (k1_pay5 x0 xq)) -∗ K ⟨⟩))
      ⊢ wp frame (wpE (defs₀ (F := F)) Variants.none c none) E
          (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H4]
  · iexists _; isplitr
    swap; · iexact H4
    ipureintro
    first
      | exact (read_store1 _ _ _ _).trans (congr (congrArg k1_pay4 (load_block1 _ _)) (load_row1 _ _))
      | (sl_unfold_run_names; exact (read_store1 _ _ _ _).trans (congr (congrArg k1_pay4 (load_block1 _ _)) (load_row1 _ _)))
  · iexists _; isplitr
    swap; · iexact H5
    ipureintro
    first
      | exact (read_store1 _ _ _ _).trans (congr (congrArg k1_pay5 (load_block1 _ _)) (load_row1 _ _))
      | (sl_unfold_run_names; exact (read_store1 _ _ _ _).trans (congr (congrArg k1_pay5 (load_block1 _ _)) (load_row1 _ _)))

set_option maxHeartbeats 4000000 in
/-- AT THE LAST POINT. On whole buffers — the block's at read contents x0, the running sums' at xs and xq, the two
    outputs' at anything — the body runs to its end holding the block's as it was, the running sums at
    (xs + column sums of x0) and (xq + column sums of the squares of x0), and each output's buffer at a copy of its sum. -/
theorem kern1_C (c : Dev nD) (E : Set ℕ) (i : grid1.Coords)
    (arg1 : Memref sig .tc .vmem S5000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (hc0 : ¬ cond1_0 i) (hc1 : cond1_1 i) (x0 : Vec F S5000x64 .f32) (xs xq : Vec F S1x64 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs ∗ owns (c : Thread nD τ) arg5 fullShare xq
        ∗ (iprop(owns (c : Thread nD τ) arg1 fullShare x0
              ∗ owns (c : Thread nD τ) arg2 fullShare (k1_pay4 x0 xs)
              ∗ owns (c : Thread nD τ) arg3 fullShare (k1_pay5 x0 xq)
              ∗ owns (c : Thread nD τ) arg4 fullShare (k1_pay4 x0 xs)
              ∗ owns (c : Thread nD τ) arg5 fullShare (k1_pay5 x0 xq)) -∗ K ⟨⟩))
      ⊢ wp frame (wpE (defs₀ (F := F)) Variants.none c none) E
          (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%d2, %f2, -, H2⟩, ⟨%d3, %f3, -, H3⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H2]
  · iexists _; isplitr
    swap; · iexact H2
    ipureintro
    refine (read_store1 _ _ _ _).trans ?_
    sl_unfold_run_names
    exact (load_stored1 _ _ _).trans (congr (congrArg k1_pay4 (load_block1 _ _)) (load_row1 _ _))
  isplitl [H3]
  · iexists _; isplitr
    swap; · iexact H3
    ipureintro
    refine (read_store1 _ _ _ _).trans ?_
    sl_unfold_run_names
    exact (load_stored1 _ _ _).trans (congr (congrArg k1_pay5 (load_block1 _ _)) (load_row1 _ _))
  isplitl [H4]
  · iexists _; isplitr
    swap; · iexact H4
    ipureintro
    sl_unfold_run_names
    exact (read_store1 _ _ _ _).trans (congr (congrArg k1_pay4 (load_block1 _ _)) (load_row1 _ _))
  · iexists _; isplitr
    swap; · iexact H5
    ipureintro
    sl_unfold_run_names
    exact (read_store1 _ _ _ _).trans (congr (congrArg k1_pay5 (load_block1 _ _)) (load_row1 _ _))

end Cert.Kernel.Hand

end
-- ==== Proof.K.R1.lean ====
/-
  The batch statistics region: the column sums, and the column sums of the squares, of a 100000 × 64 array, taken
  5000 rows at a time over 20 grid points. Two rows of 64 running sums are kept in two scratch buffers from point to
  point: zero before the first block, then ((0 + s_0) + s_1) + … in the order of the points, s_t the column sums of
  block t (and likewise for the squares). The two outputs are stored, and written back, at the last point only; at the
  other points their buffers are left as found. This module names the running sums after each point, packages the
  region's proof data at whatever contents V the buffers have when the region is entered — the invariant between
  points being the two scratch buffers at the running sums so far —, proves the body's obligation at every point from
  the three triples of the body, gives the two entailments that take the invariant out of and back into the scoped
  buffers, and reads off what the region leaves in its three arrays.
-/
import proofs.«129360_j3092376453140_1_alg».proof.Proof.K.LaunchP
import proofs.«129360_j3092376453140_1_alg».proof.Proof.Gen.Kernel.Skeleton
import proofs.«129360_j3092376453140_1_alg».proof.Proof.Gen.Kernel.Points
import proofs.«129360_j3092376453140_1_alg».proof.Proof.K.R1K
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point. -/
theorem found1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The running sums -/

/-- The two scratch buffers that carry the running sums, as whole memrefs. -/
abbrev scM1_0 : Memref sig .tc .vmem S1x64 .f32 := Memref.whole cc1_scratch0
abbrev scM1_1 : Memref sig .tc .vmem S1x64 .f32 := Memref.whole cc1_scratch1

/-- The running column sums after point n: zero plus block 0's column sums, then each later block's added in turn. -/
def acc1N (c : Dev nD) : (n : ℕ) → n < cfg1.N → Vec F S1x64 .f32
  | 0, hn => k1_pay4 (iblk1 V c 0 ⟨0, hn⟩) (k1_pay1 (F := F))
  | n + 1, hn => k1_pay4 (iblk1 V c 0 ⟨n + 1, hn⟩) (acc1N c n (Nat.lt_of_succ_lt hn))

/-- The running column sums of the squares after point n. -/
def accsq1N (c : Dev nD) : (n : ℕ) → n < cfg1.N → Vec F S1x64 .f32
  | 0, hn => k1_pay5 (iblk1 V c 0 ⟨0, hn⟩) (k1_pay2 (F := F))
  | n + 1, hn => k1_pay5 (iblk1 V c 0 ⟨n + 1, hn⟩) (accsq1N c n (Nat.lt_of_succ_lt hn))

/-- The same at a point of the grid. -/
def acc1 (c : Dev nD) (t : Fin cfg1.N) : Vec F S1x64 .f32 := acc1N V c t.val t.isLt
def accsq1 (c : Dev nD) (t : Fin cfg1.N) : Vec F S1x64 .f32 := accsq1N V c t.val t.isLt

theorem acc1_zero (c : Dev nD) (h : 0 < cfg1.N) : acc1 V c ⟨0, h⟩ = k1_pay4 (iblk1 V c 0 ⟨0, h⟩) (k1_pay1 (F := F)) := rfl
theorem acc1_succ (c : Dev nD) (n : ℕ) (h : n + 1 < cfg1.N) :
    acc1 V c ⟨n + 1, h⟩ = k1_pay4 (iblk1 V c 0 ⟨n + 1, h⟩) (acc1 V c ⟨n, Nat.lt_of_succ_lt h⟩) := rfl
theorem accsq1_zero (c : Dev nD) (h : 0 < cfg1.N) : accsq1 V c ⟨0, h⟩ = k1_pay5 (iblk1 V c 0 ⟨0, h⟩) (k1_pay2 (F := F)) := rfl
theorem accsq1_succ (c : Dev nD) (n : ℕ) (h : n + 1 < cfg1.N) :
    accsq1 V c ⟨n + 1, h⟩ = k1_pay5 (iblk1 V c 0 ⟨n + 1, h⟩) (accsq1 V c ⟨n, Nat.lt_of_succ_lt h⟩) := rfl

/-- At the first point the running sums start from zero; -/
theorem acc1N_first (c : Dev nD) (t : Fin cfg1.N) (h0 : t.val = 0) :
    acc1N V c t.val t.isLt = k1_pay4 (iblk1 V c 0 t) (k1_pay1 (F := F)) := by
  obtain ⟨n, hn⟩ := t
  cases n with
  | zero => rfl
  | succ n => exact absurd h0 (Nat.succ_ne_zero n)
theorem accsq1N_first (c : Dev nD) (t : Fin cfg1.N) (h0 : t.val = 0) :
    accsq1N V c t.val t.isLt = k1_pay5 (iblk1 V c 0 t) (k1_pay2 (F := F)) := by
  obtain ⟨n, hn⟩ := t
  cases n with
  | zero => rfl
  | succ n => exact absurd h0 (Nat.succ_ne_zero n)
/-- at a later one, from what the point before left. -/
theorem acc1N_later (c : Dev nD) (t : Fin cfg1.N) (h0 : t.val ≠ 0) :
    acc1N V c t.val t.isLt = k1_pay4 (iblk1 V c 0 t) (acc1N V c (t.val - 1) (Nat.lt_of_le_of_lt (Nat.sub_le _ _) t.isLt)) := by
  obtain ⟨n, hn⟩ := t
  cases n with
  | zero => exact absurd rfl h0
  | succ n => rfl
theorem accsq1N_later (c : Dev nD) (t : Fin cfg1.N) (h0 : t.val ≠ 0) :
    accsq1N V c t.val t.isLt = k1_pay5 (iblk1 V c 0 t) (accsq1N V c (t.val - 1) (Nat.lt_of_le_of_lt (Nat.sub_le _ _) t.isLt)) := by
  obtain ⟨n, hn⟩ := t
  cases n with
  | zero => exact absurd rfl h0
  | succ n => rfl

/-! ## The invariant between points -/

/-- Before position n: the two scratch buffers — at anything before the first point, afterwards at the running sums
    the point before left —, every other scoped buffer that is no staging buffer, and the generator register at
    some state. -/
def Phi1 (c : Dev nD) : (n : ℕ) → n ≤ cfg1.N → sProp 𝕄
  | 0, _ => iprop(iprop((∃ d, owns (c : Thread nD τ) scM1_0 fullShare d) ∗ (∃ d, owns (c : Thread nD τ) scM1_1 fullShare d))
      ∗ Pipeline.scopedRestBut (Ix := Unit) (Name := ℕ) (U := UR sig nD τ) (Lvl := ℕ) (Val := Elt F) spec1 c [cc1_scratch0, cc1_scratch1]
      ∗ (∃ r, prngReg c r))
  | n + 1, hn => iprop(iprop(owns (c : Thread nD τ) scM1_0 fullShare (acc1N V c n hn) ∗ owns (c : Thread nD τ) scM1_1 fullShare (accsq1N V c n hn))
      ∗ Pipeline.scopedRestBut (Ix := Unit) (Name := ℕ) (U := UR sig nD τ) (Lvl := ℕ) (Val := Elt F) spec1 c [cc1_scratch0, cc1_scratch1]
      ∗ (∃ r, prngReg c r))

theorem Phi1_zero (c : Dev nD) (n : ℕ) (h : n ≤ cfg1.N) (hz : n = 0) :
    Phi1 V c n h = iprop(iprop((∃ d, owns (c : Thread nD τ) scM1_0 fullShare d) ∗ (∃ d, owns (c : Thread nD τ) scM1_1 fullShare d))
      ∗ Pipeline.scopedRestBut (Ix := Unit) (Name := ℕ) (U := UR sig nD τ) (Lvl := ℕ) (Val := Elt F) spec1 c [cc1_scratch0, cc1_scratch1]
      ∗ (∃ r, prngReg c r)) := by
  subst hz; rfl

theorem Phi1_succ (c : Dev nD) (n : ℕ) (hn : n < cfg1.N) :
    Phi1 V c (n + 1) hn = iprop(iprop(owns (c : Thread nD τ) scM1_0 fullShare (acc1N V c n hn) ∗ owns (c : Thread nD τ) scM1_1 fullShare (accsq1N V c n hn))
      ∗ Pipeline.scopedRestBut (Ix := Unit) (Name := ℕ) (U := UR sig nD τ) (Lvl := ℕ) (Val := Elt F) spec1 c [cc1_scratch0, cc1_scratch1]
      ∗ (∃ r, prngReg c r)) := rfl

theorem Phi1_pos (c : Dev nD) (n : ℕ) (h : n ≤ cfg1.N) (hz : n ≠ 0) :
    Phi1 V c n h = iprop(iprop(owns (c : Thread nD τ) scM1_0 fullShare (acc1N V c (n - 1) (by omega)) ∗ owns (c : Thread nD τ) scM1_1 fullShare (accsq1N V c (n - 1) (by omega)))
      ∗ Pipeline.scopedRestBut (Ix := Unit) (Name := ℕ) (U := UR sig nD τ) (Lvl := ℕ) (Val := Elt F) spec1 c [cc1_scratch0, cc1_scratch1]
      ∗ (∃ r, prngReg c r)) := by
  cases n with
  | zero => exact absurd rfl hz
  | succ n => rfl

/-! ## The pipeline's proof data -/

/-- The region's proof data on core c: the arrays as the region finds them; after the body at point t the input's
    buffer at its block and each output's at its running sum (stored, and written back, at the last point only);
    the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => acc1 V c t
    | ⟨2, _⟩ => accsq1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = acc1 V c t := by dsimp only [dat1]
theorem after1_2 (c : Dev nD) (t : Fin cfg1.N) : (dat1 V c).after 2 t = accsq1 V c t := by dsimp only [dat1]

theorem before1_0 (c : Dev nD) (t : Fin cfg1.N) (d) : (dat1 V c).before 0 t d = iblk1 V c 0 t :=
  found1_0_of V (dat1 V c) (A_eq1 V c 0) (after1_0 V c) t d

/-! ## Where the output windows are idle -/

theorem hcondN1_0 : ∀ t : Fin cfg1.N, cond1_0 (grid1.coords t) ↔ t.val = 0 := hcond1_0
theorem hcondN1_1 : ∀ t : Fin cfg1.N, cond1_1 (grid1.coords t) ↔ t.val = 19 := hcond1_1

/-- The input window is never idle. -/
theorem liveAt1_0 : ∀ t : Fin cfg1.N, cfg1.idle 0 (grid1.coords t) = false := fun _ => rfl
/-- Off the last point the two outputs are idle and not written back; -/
theorem idleAt1_1 : ∀ t : Fin cfg1.N, ¬cond1_1 (grid1.coords t) → cfg1.idle 1 (grid1.coords t) = true :=
  (by decide +kernel : ∀ t : Fin grid1.N, ¬cond1_1 (grid1.coords t) → idle1 1 (grid1.coords t) = true)
theorem idleAt1_2 : ∀ t : Fin cfg1.N, ¬cond1_1 (grid1.coords t) → cfg1.idle 2 (grid1.coords t) = true :=
  (by decide +kernel : ∀ t : Fin grid1.N, ¬cond1_1 (grid1.coords t) → idle1 2 (grid1.coords t) = true)
theorem noFlush1_1 : ∀ t : Fin cfg1.N, ¬cond1_1 (grid1.coords t) → (cfg1.win 1).flush t = false :=
  (by decide +kernel : ∀ t : Fin grid1.N, ¬cond1_1 (grid1.coords t) → win1_1.flush t = false)
theorem noFlush1_2 : ∀ t : Fin cfg1.N, ¬cond1_1 (grid1.coords t) → (cfg1.win 2).flush t = false :=
  (by decide +kernel : ∀ t : Fin grid1.N, ¬cond1_1 (grid1.coords t) → win1_2.flush t = false)
/-- at the last point they are live. -/
theorem liveAt1_1 : ∀ t : Fin cfg1.N, cond1_1 (grid1.coords t) → cfg1.idle 1 (grid1.coords t) = false :=
  (by decide +kernel : ∀ t : Fin grid1.N, cond1_1 (grid1.coords t) → idle1 1 (grid1.coords t) = false)
theorem liveAt1_2 : ∀ t : Fin cfg1.N, cond1_1 (grid1.coords t) → cfg1.idle 2 (grid1.coords t) = false :=
  (by decide +kernel : ∀ t : Fin grid1.N, cond1_1 (grid1.coords t) → idle1 2 (grid1.coords t) = false)

/-! ## The body obligation, at a generic point -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The input's buffer holds its block; the coordinate says which of the three cases the point
    is in; the invariant hands the body the two scratch buffers — at anything at the first point, else at the running
    sums the point before left — and takes them back at this point's running sums; off the last point the outputs'
    buffers pass through untouched, at the last point they are left at the final sums. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  have hN : t.val < 20 := lt_of_lt_of_eq t.isLt (show cfg1.N = 20 from N_1)
  by_cases h0 : t.val = 0
  · have hc0 : cond1_0 (grid1.coords t) := (hcondN1_0 t).mpr h0
    have hc1 : ¬ cond1_1 (grid1.coords t) := fun h => by have := (hcondN1_1 t).mp h; omega
    rw [Dat.leavesExact_idle (dat1 V c) 1 t (idleAt1_1 t hc1) (noFlush1_1 t hc1),
      Dat.leavesExact_idle (dat1 V c) 2 t (idleAt1_2 t hc1) (noFlush1_2 t hc1)]
    rw [Phi1_castSucc V c t, Phi1_zero V c _ _ h0, acc1N_first V c t h0, accsq1N_first V c t h0]
    iintro ⟨⟨⟨HS0, HS1⟩, Hrest, Hg⟩, Ho, ⟨%d0, H0⟩, H1, H2⟩
    iapply (kern1_A c Set.univ (grid1.coords t) _ _ _ _ _ _ _ _ _ _ hc0 hc1 (iblk1 V c 0 t) _)
    isplitl [H0]; · iexact H0
    isplitl [HS0]; · iexact HS0
    isplitl [HS1]; · iexact HS1
    iintro ⟨H0, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    iexact H2
  · have hc0 : ¬ cond1_0 (grid1.coords t) := fun h => h0 ((hcondN1_0 t).mp h)
    rw [Phi1_castSucc V c t, Phi1_pos V c _ _ h0, acc1N_later V c t h0, accsq1N_later V c t h0]
    by_cases h1 : t.val = 19
    · have hc1 : cond1_1 (grid1.coords t) := (hcondN1_1 t).mpr h1
      rw [show (dat1 V c).leavesExact 1 t = owns (c : Thread nD τ) (st1_1 t) fullShare ((dat1 V c).after 1 t) from by
        unfold Dat.leavesExact; rw [liveAt1_1 t hc1], after1_1]
      rw [show (dat1 V c).leavesExact 2 t = owns (c : Thread nD τ) (st1_2 t) fullShare ((dat1 V c).after 2 t) from by
        unfold Dat.leavesExact; rw [liveAt1_2 t hc1], after1_2]
      unfold acc1 accsq1
      rw [acc1N_later V c t h0, accsq1N_later V c t h0]
      iintro ⟨⟨⟨HS0, HS1⟩, Hrest, Hg⟩, Ho, ⟨%d0, H0⟩, ⟨%d1, H1⟩, ⟨%d2, H2⟩⟩
      iapply (kern1_C c Set.univ (grid1.coords t) _ _ _ _ _ _ _ _ _ _ hc0 hc1 (iblk1 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      iexact H2
    · have hc1 : ¬ cond1_1 (grid1.coords t) := fun h => h1 ((hcondN1_1 t).mp h)
      rw [Dat.leavesExact_idle (dat1 V c) 1 t (idleAt1_1 t hc1) (noFlush1_1 t hc1),
        Dat.leavesExact_idle (dat1 V c) 2 t (idleAt1_2 t hc1) (noFlush1_2 t hc1)]
      iintro ⟨⟨⟨HS0, HS1⟩, Hrest, Hg⟩, Ho, ⟨%d0, H0⟩, H1, H2⟩
      iapply (kern1_B c Set.univ (grid1.coords t) _ _ _ _ _ _ _ _ _ _ hc0 hc1 (iblk1 V c 0 t) _ _ _)
      isplitl [H0]; · iexact H0
      isplitl [HS0]; · iexact HS0
      isplitl [HS1]; · iexact HS1
      iintro ⟨H0, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into the invariant and out of it -/

/-- The generator register and the scoped buffers no window stages make the invariant before the first point: the
    two scratch buffers are split out of the scoped buffers, each at whatever it holds. -/
theorem hin1 (c : Dev nD) :
    iprop((∃ r, prngReg c r) ∗ Pipeline.scopedRest (Ix := Unit) (Name := ℕ) (U := UR sig nD τ) (Lvl := ℕ) (Val := Elt F) spec1 c)
      ⊢ ((dat1 V c).Φ 0 : sProp 𝕄) := by
  rw [show (dat1 V c).Φ 0 = Phi1 V c 0 (Nat.zero_le _) from rfl, Phi1_zero V c 0 _ rfl, scopedRest1_split]
  simp only [scM1_0, scM1_1, owns_whole]
  iintro ⟨Hg, ⟨HS0, HS1⟩, Hrest⟩
  isplitl [HS0 HS1]
  · isplitl [HS0]; · iexact HS0
    iexact HS1
  isplitl [Hrest]; · iexact Hrest
  iexact Hg

/-- After the last point the invariant gives them back: the running sums' names are forgotten. -/
theorem hout1 (c : Dev nD) :
    ((dat1 V c).Φ (Fin.last cfg1.N) : sProp 𝕄)
      ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 20 := N_1; omega), scopedRest1_split]
  simp only [scM1_0, scM1_1, owns_whole]
  iintro ⟨⟨HS0, HS1⟩, Hrest, Hg⟩
  isplitl [Hg]; · iexact Hg
  isplitl [HS0 HS1]
  · isplitl [HS0]; · iexists _; iexact HS0
    iexists _; iexact HS1
  iexact Hrest

/-! ## What the region leaves in its arrays -/

/-- The input array is as the region found it. -/
theorem arrAt1_in (c : Dev nD) : (dat1 V c).arrAt 0 cfg1.N = V c (Pipeline.arrRef spec1 0) :=
  ((dat1 V c).arrAt_in 0 rfl _).trans (A_eq1 V c 0)

end Cert.Kernel.Hand

end
-- ==== Proof.K.R2.lean ====
/-
  The normalisation between the layers, one block of 5000 rows at a time. At grid point t the body reads rows
  5000t … 5000t+4999 of the first layer's output (5000 × 64) and four 1 × 64 rows — the column means, the column
  variances, the scale and the shift, the same block at every point — and stores into the output's block
  max((((h − mean) · rsqrt(var + eps)) · scale) + shift, 0), each row vector repeated down the 5000 rows. Nothing is kept
  from one point to the next. This module states what the body leaves in the output block as a function of the five
  input blocks, proves that the body leaves it there, and packages this as the pipeline's proof data for the region,
  at whatever contents V the buffers have when the region is entered.
-/
import proofs.«129360_j3092376453140_1_alg».proof.Proof.K.LaunchP
import proofs.«129360_j3092376453140_1_alg».proof.Proof.Gen.Kernel.Skeleton
import proofs.«129360_j3092376453140_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def rows2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and the store take a whole block -/

abbrev all5000x64 : Rect S5000x64 := Rect.unit (s := S5000x64) ![0, 0] S5000x64.size inb_S5000x64_S5000x64_0_0
abbrev all1x64 : Rect S1x64 := Rect.unit (s := S1x64) ![0, 0] S1x64.size inb_S1x64_S1x64_0_0

/-! ## What the body leaves in the output block -/

/-- The output block after the body: its one store, of the normalised and clamped value on the five input blocks
    (rows of the first layer's output, mean row, variance row, scale row, shift row). -/
def normBlock (h : Vec F S5000x64 .f32) (mean var scale shift : Vec F S1x64 .f32) : Vec F S5000x64 .f32 :=
  View.canon [⟨all5000x64, k2_pay1 (View.ld h all5000x64) (View.ld var all1x64) (View.ld mean all1x64) (View.ld scale all1x64) (View.ld shift all1x64)⟩]

/-- The one store covers the block. -/
theorem normBlock_cover (p0 : Vec F S5000x64 .f32) (y : S5000x64.Idx) :
    ∃ pc ∈ ([⟨all5000x64, p0⟩] : List (View.Piece (Elt F) S5000x64 .f32)), y ∈ pc.1.set :=
  View.cover_of_tiled [⟨all5000x64, p0⟩] S5000x64.size (by rfl) y

/-! ## The body's triple -/

set_option maxHeartbeats 1000000 in
/-- On whole staging buffers, the inputs' at read contents and the output's at anything, the body runs to its end
    holding the inputs' as they were and the output's at the normalised value of them. -/
theorem norm_runs (c : Dev nD) (E : Set ℕ) (i : grid2.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (h : Vec F S5000x64 .f32) (mean var scale shift : Vec F S1x64 .f32) (K : PUnit → sProp 𝕄) :
    iprop(owns (c : Thread nD τ) arg1 fullShare h ∗ owns (c : Thread nD τ) arg2 fullShare mean ∗ owns (c : Thread nD τ) arg3 fullShare var ∗ owns (c : Thread nD τ) arg4 fullShare scale ∗ owns (c : Thread nD τ) arg5 fullShare shift ∗ (∃ d, owns (c : Thread nD τ) arg6 fullShare d)
        ∗ (iprop(owns (c : Thread nD τ) arg1 fullShare h ∗ owns (c : Thread nD τ) arg2 fullShare mean ∗ owns (c : Thread nD τ) arg3 fullShare var ∗ owns (c : Thread nD τ) arg4 fullShare scale ∗ owns (c : Thread nD τ) arg5 fullShare shift
            ∗ owns (c : Thread nD τ) arg6 fullShare (normBlock h mean var scale shift)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normBlock_cover _)

/-! ## The pipeline's proof data -/

/-- The region's proof data on core c: the arrays as the region finds them; after the body at point t each input's
    buffer at its block and the output's at the normalised value of the five blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => rows2 V c 0 t
    | ⟨1, _⟩ => rows2 V c 1 t
    | ⟨2, _⟩ => rows2 V c 2 t
    | ⟨3, _⟩ => rows2 V c 3 t
    | ⟨4, _⟩ => rows2 V c 4 t
    | ⟨5, _⟩ => normBlock (rows2 V c 0 t) (rows2 V c 1 t) (rows2 V c 2 t) (rows2 V c 3 t) (rows2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = rows2 V c 0 t := by dsimp only [dat2]
theorem after2_1 (c : Dev nD) (t : Fin cfg2.N) : (dat2 V c).after 1 t = rows2 V c 1 t := by dsimp only [dat2]
theorem after2_2 (c : Dev nD) (t : Fin cfg2.N) : (dat2 V c).after 2 t = rows2 V c 2 t := by dsimp only [dat2]
theorem after2_3 (c : Dev nD) (t : Fin cfg2.N) : (dat2 V c).after 3 t = rows2 V c 3 t := by dsimp only [dat2]
theorem after2_4 (c : Dev nD) (t : Fin cfg2.N) : (dat2 V c).after 4 t = rows2 V c 4 t := by dsimp only [dat2]
theorem after2_5 (c : Dev nD) (t : Fin cfg2.N) : (dat2 V c).after 5 t
    = normBlock (rows2 V c 0 t) (rows2 V c 1 t) (rows2 V c 2 t) (rows2 V c 3 t) (rows2 V c 4 t) := by dsimp only [dat2]

/-- An input window's staging buffer holds its block at every point, whether the block was moved there at this point
    or sits there from an earlier one (a window whose block never changes is moved once). -/
theorem found2_0 (c : Dev nD) (t : Fin cfg2.N) (d) : (dat2 V c).before 0 t d = rows2 V c 0 t :=
  ((dat2 V c).before_in_eq_fetched 0 rfl (fun _ => rfl) (fun _ _ _ => rfl)
      (fun t => by rw [after2_0]; unfold Dat.blockOf rows2; rw [A_eq2]; try rfl) t d).trans
    (by unfold Dat.fetched Dat.blockOf rows2; rw [A_eq2]; try rfl)
theorem found2_1 (c : Dev nD) (t : Fin cfg2.N) (d) : (dat2 V c).before 1 t d = rows2 V c 1 t :=
  ((dat2 V c).before_in_eq_fetched 1 rfl (fun _ => rfl) (fun _ _ _ => rfl)
      (fun t => by rw [after2_1]; unfold Dat.blockOf rows2; rw [A_eq2]; try rfl) t d).trans
    (by unfold Dat.fetched Dat.blockOf rows2; rw [A_eq2]; try rfl)
theorem found2_2 (c : Dev nD) (t : Fin cfg2.N) (d) : (dat2 V c).before 2 t d = rows2 V c 2 t :=
  ((dat2 V c).before_in_eq_fetched 2 rfl (fun _ => rfl) (fun _ _ _ => rfl)
      (fun t => by rw [after2_2]; unfold Dat.blockOf rows2; rw [A_eq2]; try rfl) t d).trans
    (by unfold Dat.fetched Dat.blockOf rows2; rw [A_eq2]; try rfl)
theorem found2_3 (c : Dev nD) (t : Fin cfg2.N) (d) : (dat2 V c).before 3 t d = rows2 V c 3 t :=
  ((dat2 V c).before_in_eq_fetched 3 rfl (fun _ => rfl) (fun _ _ _ => rfl)
      (fun t => by rw [after2_3]; unfold Dat.blockOf rows2; rw [A_eq2]; try rfl) t d).trans
    (by unfold Dat.fetched Dat.blockOf rows2; rw [A_eq2]; try rfl)
theorem found2_4 (c : Dev nD) (t : Fin cfg2.N) (d) : (dat2 V c).before 4 t d = rows2 V c 4 t :=
  ((dat2 V c).before_in_eq_fetched 4 rfl (fun _ => rfl) (fun _ _ _ => rfl)
      (fun t => by rw [after2_4]; unfold Dat.blockOf rows2; rw [A_eq2]; try rfl) t d).trans
    (by unfold Dat.fetched Dat.blockOf rows2; rw [A_eq2]; try rfl)

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [found2_0, found2_1, found2_2, found2_3, found2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (norm_runs c Set.univ _ _ _ _ _ _ _ _ _ _ _ _ _ (rows2 V c 0 t) (rows2 V c 1 t) (rows2 V c 2 t) (rows2 V c 3 t) (rows2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
/-
  The second dense layer and the classifier, one block of 5000 rows at a time. At grid point t the body reads rows
  5000t … 5000t+4999 of the aggregated hidden features and of the hidden features (two blocks of 5000 × 64), the two
  64 × 16 weight matrices with their 1 × 16 bias row, and the 16 × 2 classifier matrix with its 1 × 2 bias row (the same
  blocks at every point). It stores the 5000 × 16 embedding (aggregated · left weights + hidden · right weights) + bias
  into the first output's block, and (embedding · classifier) + classifier bias, 5000 × 2, into the second's. Nothing
  is kept from one point to the next. This module states what the body leaves in the two output blocks as functions of
  the seven input blocks, proves that the body leaves them there, and packages this as the pipeline's proof data for
  the region, at whatever contents V the buffers have when the region is entered.
-/
import proofs.«129360_j3092376453140_1_alg».proof.Proof.K.LaunchP
import proofs.«129360_j3092376453140_1_alg».proof.Proof.Gen.Kernel.Skeleton
import proofs.«129360_j3092376453140_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def rows3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: every load and both stores take a whole block -/

abbrev full5000x64 : Rect S5000x64 := Rect.unit (s := S5000x64) ![0, 0] S5000x64.size inb_S5000x64_S5000x64_0_0
abbrev full64x16 : Rect S64x16 := Rect.unit (s := S64x16) ![0, 0] S64x16.size inb_S64x16_S64x16_0_0
abbrev full1x16 : Rect S1x16 := Rect.unit (s := S1x16) ![0, 0] S1x16.size inb_S1x16_S1x16_0_0
abbrev full16x2 : Rect S16x2 := Rect.unit (s := S16x2) ![0, 0] S16x2.size inb_S16x2_S16x2_0_0
abbrev full1x2 : Rect S1x2 := Rect.unit (s := S1x2) ![0, 0] S1x2.size inb_S1x2_S1x2_0_0
abbrev full5000x16 : Rect S5000x16 := Rect.unit (s := S5000x16) ![0, 0] S5000x16.size inb_S5000x16_S5000x16_0_0
abbrev full5000x2 : Rect S5000x2 := Rect.unit (s := S5000x2) ![0, 0] S5000x2.size inb_S5000x2_S5000x2_0_0

/-! ## What the body leaves in the two output blocks -/

/-- The embedding's block after the body: its one store, of the layer's value on five input blocks
    (aggregated rows, hidden rows, left weights, bias row, right weights). -/
def embBlock (a h : Vec F S5000x64 .f32) (wl : Vec F S64x16 .f32) (b : Vec F S1x16 .f32) (wr : Vec F S64x16 .f32) : Vec F S5000x16 .f32 :=
  View.canon [⟨full5000x16, k3_pay1 (View.ld a full5000x64) (View.ld h full5000x64) (View.ld wl full64x16) (View.ld wr full64x16) (View.ld b full1x16)⟩]

/-- The logits' block after the body: its one store, the classifier applied to the embedding's value. -/
def logitBlock (a h : Vec F S5000x64 .f32) (wl : Vec F S64x16 .f32) (b : Vec F S1x16 .f32) (wr : Vec F S64x16 .f32)
    (wc : Vec F S16x2 .f32) (bc : Vec F S1x2 .f32) : Vec F S5000x2 .f32 :=
  View.canon [⟨full5000x2, k3_pay2 (View.ld a full5000x64) (View.ld h full5000x64) (View.ld wl full64x16) (View.ld wr full64x16) (View.ld b full1x16)
    (View.ld wc full16x2) (View.ld bc full1x2)⟩]

/-- Each store covers its block. -/
theorem embBlock_cover (p0 : Vec F S5000x16 .f32) (y : S5000x16.Idx) :
    ∃ pc ∈ ([⟨full5000x16, p0⟩] : List (View.Piece (Elt F) S5000x16 .f32)), y ∈ pc.1.set :=
  View.cover_of_tiled [⟨full5000x16, p0⟩] S5000x16.size (by rfl) y
theorem logitBlock_cover (p0 : Vec F S5000x2 .f32) (y : S5000x2.Idx) :
    ∃ pc ∈ ([⟨full5000x2, p0⟩] : List (View.Piece (Elt F) S5000x2 .f32)), y ∈ pc.1.set :=
  View.cover_of_tiled [⟨full5000x2, p0⟩] S5000x2.size (by rfl) y

/-! ## The body's triple -/

set_option maxHeartbeats 1000000 in
/-- On whole staging buffers, the inputs' at read contents and the two outputs' at anything, the body runs to its end
    holding the inputs' as they were and the outputs' at the embedding's and the logits' values of them. -/
theorem layer2_runs (c : Dev nD) (E : Set ℕ) (i : grid3.Coords)
    (arg1 : Memref sig .tc .vmem S5000x64 .f32) (harg1 : arg1.IsWhole) (arg2 : Memref sig .tc .vmem S5000x64 .f32) (harg2 : arg2.IsWhole)
    (arg3 : Memref sig .tc .vmem S64x16 .f32) (harg3 : arg3.IsWhole) (arg4 : Memref sig .tc .vmem S1x16 .f32) (harg4 : arg4.IsWhole)
    (arg5 : Memref sig .tc .vmem S64x16 .f32) (harg5 : arg5.IsWhole) (arg6 : Memref sig .tc .vmem S16x2 .f32) (harg6 : arg6.IsWhole)
    (arg7 : Memref sig .tc .vmem S1x2 .f32) (harg7 : arg7.IsWhole) (arg8 : Memref sig .tc .vmem S5000x16 .f32) (harg8 : arg8.IsWhole)
    (arg9 : Memref sig .tc .vmem S5000x2 .f32) (harg9 : arg9.IsWhole)
    (a h : Vec F S5000x64 .f32) (wl : Vec F S64x16 .f32) (b : Vec F S1x16 .f32) (wr : Vec F S64x16 .f32) (wc : Vec F S16x2 .f32) (bc : Vec F S1x2 .f32)
    (K : PUnit → sProp 𝕄) :
    iprop(owns (c : Thread nD τ) arg1 fullShare a ∗ owns (c : Thread nD τ) arg2 fullShare h ∗ owns (c : Thread nD τ) arg3 fullShare wl ∗ owns (c : Thread nD τ) arg4 fullShare b ∗ owns (c : Thread nD τ) arg5 fullShare wr ∗ owns (c : Thread nD τ) arg6 fullShare wc ∗ owns (c : Thread nD τ) arg7 fullShare bc
        ∗ (∃ d, owns (c : Thread nD τ) arg8 fullShare d) ∗ (∃ d, owns (c : Thread nD τ) arg9 fullShare d)
        ∗ (iprop(owns (c : Thread nD τ) arg1 fullShare a ∗ owns (c : Thread nD τ) arg2 fullShare h ∗ owns (c : Thread nD τ) arg3 fullShare wl ∗ owns (c : Thread nD τ) arg4 fullShare b ∗ owns (c : Thread nD τ) arg5 fullShare wr ∗ owns (c : Thread nD τ) arg6 fullShare wc ∗ owns (c : Thread nD τ) arg7 fullShare bc
            ∗ owns (c : Thread nD τ) arg8 fullShare (embBlock a h wl b wr)
            ∗ owns (c : Thread nD τ) arg9 fullShare (logitBlock a h wl b wr wc bc)) -∗ K ⟨⟩))
      ⊢ wp frame (wpE (defs₀ (F := F)) Variants.none c none) E
          (cc3__sage2_cls_kernel i arg1 harg1 arg2 harg2 arg3 harg3 arg4 harg4 arg5 harg5 arg6 harg6 arg7 harg7 arg8 harg8 arg9 harg9) K := by
  simp only [cc3__sage2_cls_kernel_eq_skeleton]; unfold cc3__sage2_cls_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf1; subst hf2; subst hf3; subst hf4; subst hf5; subst hf6; subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (embBlock_cover _)
  iexists _; isplitr
  swap; · iexact H9
  ipureintro
  exact View.read_writes_eq_canon _ _ _ (logitBlock_cover _)

/-! ## The pipeline's proof data -/

/-- The region's proof data on core c: the arrays as the region finds them; after the body at point t each input's
    buffer at its block and the two outputs' at the embedding's and the logits' values of the seven blocks; the
    invariant the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => rows3 V c 0 t
    | ⟨1, _⟩ => rows3 V c 1 t
    | ⟨2, _⟩ => rows3 V c 2 t
    | ⟨3, _⟩ => rows3 V c 3 t
    | ⟨4, _⟩ => rows3 V c 4 t
    | ⟨5, _⟩ => rows3 V c 5 t
    | ⟨6, _⟩ => rows3 V c 6 t
    | ⟨7, _⟩ => embBlock (rows3 V c 0 t) (rows3 V c 1 t) (rows3 V c 2 t) (rows3 V c 3 t) (rows3 V c 4 t)
    | ⟨8, _⟩ => logitBlock (rows3 V c 0 t) (rows3 V c 1 t) (rows3 V c 2 t) (rows3 V c 3 t) (rows3 V c 4 t) (rows3 V c 5 t) (rows3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = rows3 V c 0 t := by dsimp only [dat3]
theorem after3_1 (c : Dev nD) (t : Fin cfg3.N) : (dat3 V c).after 1 t = rows3 V c 1 t := by dsimp only [dat3]
theorem after3_2 (c : Dev nD) (t : Fin cfg3.N) : (dat3 V c).after 2 t = rows3 V c 2 t := by dsimp only [dat3]
theorem after3_3 (c : Dev nD) (t : Fin cfg3.N) : (dat3 V c).after 3 t = rows3 V c 3 t := by dsimp only [dat3]
theorem after3_4 (c : Dev nD) (t : Fin cfg3.N) : (dat3 V c).after 4 t = rows3 V c 4 t := by dsimp only [dat3]
theorem after3_5 (c : Dev nD) (t : Fin cfg3.N) : (dat3 V c).after 5 t = rows3 V c 5 t := by dsimp only [dat3]
theorem after3_6 (c : Dev nD) (t : Fin cfg3.N) : (dat3 V c).after 6 t = rows3 V c 6 t := by dsimp only [dat3]
theorem after3_7 (c : Dev nD) (t : Fin cfg3.N) : (dat3 V c).after 7 t
    = embBlock (rows3 V c 0 t) (rows3 V c 1 t) (rows3 V c 2 t) (rows3 V c 3 t) (rows3 V c 4 t) := by dsimp only [dat3]
theorem after3_8 (c : Dev nD) (t : Fin cfg3.N) : (dat3 V c).after 8 t
    = logitBlock (rows3 V c 0 t) (rows3 V c 1 t) (rows3 V c 2 t) (rows3 V c 3 t) (rows3 V c 4 t) (rows3 V c 5 t) (rows3 V c 6 t) := by dsimp only [dat3]

/-- An input window's staging buffer holds its block at every point, whether the block was moved there at this point
    or sits there from an earlier one (a window whose block never changes is moved once). -/
theorem found3_0 (c : Dev nD) (t : Fin cfg3.N) (d) : (dat3 V c).before 0 t d = rows3 V c 0 t :=
  ((dat3 V c).before_in_eq_fetched 0 rfl (fun _ => rfl) (fun _ _ _ => rfl)
      (fun t => by rw [after3_0]; unfold Dat.blockOf rows3; rw [A_eq3]; try rfl) t d).trans
    (by unfold Dat.fetched Dat.blockOf rows3; rw [A_eq3]; try rfl)
theorem found3_1 (c : Dev nD) (t : Fin cfg3.N) (d) : (dat3 V c).before 1 t d = rows3 V c 1 t :=
  ((dat3 V c).before_in_eq_fetched 1 rfl (fun _ => rfl) (fun _ _ _ => rfl)
      (fun t => by rw [after3_1]; unfold Dat.blockOf rows3; rw [A_eq3]; try rfl) t d).trans
    (by unfold Dat.fetched Dat.blockOf rows3; rw [A_eq3]; try rfl)
theorem found3_2 (c : Dev nD) (t : Fin cfg3.N) (d) : (dat3 V c).before 2 t d = rows3 V c 2 t :=
  ((dat3 V c).before_in_eq_fetched 2 rfl (fun _ => rfl) (fun _ _ _ => rfl)
      (fun t => by rw [after3_2]; unfold Dat.blockOf rows3; rw [A_eq3]; try rfl) t d).trans
    (by unfold Dat.fetched Dat.blockOf rows3; rw [A_eq3]; try rfl)
theorem found3_3 (c : Dev nD) (t : Fin cfg3.N) (d) : (dat3 V c).before 3 t d = rows3 V c 3 t :=
  ((dat3 V c).before_in_eq_fetched 3 rfl (fun _ => rfl) (fun _ _ _ => rfl)
      (fun t => by rw [after3_3]; unfold Dat.blockOf rows3; rw [A_eq3]; try rfl) t d).trans
    (by unfold Dat.fetched Dat.blockOf rows3; rw [A_eq3]; try rfl)
theorem found3_4 (c : Dev nD) (t : Fin cfg3.N) (d) : (dat3 V c).before 4 t d = rows3 V c 4 t :=
  ((dat3 V c).before_in_eq_fetched 4 rfl (fun _ => rfl) (fun _ _ _ => rfl)
      (fun t => by rw [after3_4]; unfold Dat.blockOf rows3; rw [A_eq3]; try rfl) t d).trans
    (by unfold Dat.fetched Dat.blockOf rows3; rw [A_eq3]; try rfl)
theorem found3_5 (c : Dev nD) (t : Fin cfg3.N) (d) : (dat3 V c).before 5 t d = rows3 V c 5 t :=
  ((dat3 V c).before_in_eq_fetched 5 rfl (fun _ => rfl) (fun _ _ _ => rfl)
      (fun t => by rw [after3_5]; unfold Dat.blockOf rows3; rw [A_eq3]; try rfl) t d).trans
    (by unfold Dat.fetched Dat.blockOf rows3; rw [A_eq3]; try rfl)
theorem found3_6 (c : Dev nD) (t : Fin cfg3.N) (d) : (dat3 V c).before 6 t d = rows3 V c 6 t :=
  ((dat3 V c).before_in_eq_fetched 6 rfl (fun _ => rfl) (fun _ _ _ => rfl)
      (fun t => by rw [after3_6]; unfold Dat.blockOf rows3; rw [A_eq3]; try rfl) t d).trans
    (by unfold Dat.fetched Dat.blockOf rows3; rw [A_eq3]; try rfl)

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [found3_0, found3_1, found3_2, found3_3, found3_4, found3_5, found3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (layer2_runs c Set.univ _ _ _ _ _ _ _ _ _ _ _ _ _ _ _ _ _ _ _ (rows3 V c 0 t) (rows3 V c 1 t) (rows3 V c 2 t) (rows3 V c 3 t) (rows3 V c 4 t) (rows3 V c 5 t) (rows3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
/-
  The whole program as a chain of seven segments: the host operations before the first layer, the first layer's region,
  the statistics' region, the host operations that turn the sums into mean and variance, the normalisation's region,
  the host operations that aggregate the hidden features, and the second layer's region. The buffer contents at each
  boundary are a fold from the launch memory: a host stretch applies its operations; a region leaves its arrays at what
  its write-backs make of them and every other buffer as it found it. Each region's proof data are stated at the
  contents it is entered from. The run reads every unscoped buffer at the end of the fold: the arguments come back as
  launched (no host operation writes one, and a region only reads one), and the two results are what the last region's
  write-backs leave.
-/
import proofs.«129360_j3092376453140_1_alg».proof.Proof.K.R0
import proofs.«129360_j3092376453140_1_alg».proof.Proof.K.R1
import proofs.«129360_j3092376453140_1_alg».proof.Proof.K.R2
import proofs.«129360_j3092376453140_1_alg».proof.Proof.K.R3
import proofs.«129360_j3092376453140_1_alg».proof.Proof.K.RegionsP
import proofs.«129360_j3092376453140_1_alg».proof.Proof.K.LaunchP
import proofs.«129360_j3092376453140_1_alg».proof.Proof.Gen.Kernel.Skeleton
import proofs.«129360_j3092376453140_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 : Dev nD → Valuation τ sig (Elt F) := fun c b => m (c, b)

/-- After the host stretch hostOps0. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After region 0: its arrays at what the pipeline leaves (the inputs as entered, each output's write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem kept_arrays0 (c : Dev nD) (w : Fin cfg0.W) : (dat0 (V1 m) c).arrAt w cfg0.N = V2 m c (Pipeline.arrRef spec0 w) :=
  (W2_arr m c w).symm
theorem kept_rest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After region 1: its arrays at what the pipeline leaves (the inputs as entered, each output's write-backs folded),
    every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem kept_arrays1 (c : Dev nD) (w : Fin cfg1.W) : (dat1 (V2 m) c).arrAt w cfg1.N = V3 m c (Pipeline.arrRef spec1 w) :=
  (W3_arr m c w).symm
theorem kept_rest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the host stretch hostOps2. -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b

/-- After region 2: its arrays at what the pipeline leaves (the inputs as entered, each output's write-backs folded),
    every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m c b
theorem kept_arrays2 (c : Dev nD) (w : Fin cfg2.W) : (dat2 (V4 m) c).arrAt w cfg2.N = V5 m c (Pipeline.arrRef spec2 w) :=
  (W5_arr m c w).symm
theorem kept_rest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After the host stretch hostOps3. -/
abbrev W6 : Dev nD → Valuation τ sig (Elt F) := fun c => StableHlo.after hostOps3 (W5 m c)
abbrev V6 : (c : Dev nD) → (b : Ref sig .tc) → Buf (Elt F) ((c : Thread nD τ).loc b) := fun c b => W6 m c b

/-- After region 3: its arrays at what the pipeline leaves (the inputs as entered, each output's write-backs folded),
    every other buffer as entered. -/
def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
/-- The same read at the TensorCore's references. -/
abbrev V7 : (c : Dev nD) → (b : Ref sig .tc) → Buf (Elt F) ((c : Thread nD τ).loc b) := fun c b => W7 m c b
theorem kept_arrays3 (c : Dev nD) (w : Fin cfg3.W) : (dat3 (V6 m) c).arrAt w cfg3.N = V7 m c (Pipeline.arrRef spec3 w) :=
  (W7_arr m c w).symm
theorem kept_rest3 (c : Dev nD) : ∀ b, b ∉ Finset.univ.image (Pipeline.arrRef spec3) → V7 m c b = V6 m c b :=
  fun b hb => W7_of_ne m c b fun w e => hb (Finset.mem_image.mpr ⟨w, Finset.mem_univ _, e⟩)

/-! ## The arguments end as launched -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of_ne m c main_arg0 (by decide)
    _ = W5 m c (Proc.devRef .tc main_arg0) := StableHlo.after_of_writes_sub hostOps3 _ hostOps3_writes (by decide)
    _ = W4 m c (Proc.devRef .tc main_arg0) := W5_of_ne m c main_arg0 (by decide)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := (W2_arr m c 1).trans (((dat0 (V1 m) c).arrAt_in 1 rfl _).trans (A_eq0 (V1 m) c 1))
    _ = W0 m c (Proc.devRef .tc main_arg0) := StableHlo.after_of_writes_sub hostOps0 _ hostOps0_writes (by decide)
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := W7_of_ne m c main_arg1 (by decide)
    _ = W5 m c (Proc.devRef .tc main_arg1) := StableHlo.after_of_writes_sub hostOps3 _ hostOps3_writes (by decide)
    _ = W4 m c (Proc.devRef .tc main_arg1) := W5_of_ne m c main_arg1 (by decide)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_of_ne m c main_arg2 (by decide)
    _ = W5 m c (Proc.devRef .tc main_arg2) := StableHlo.after_of_writes_sub hostOps3 _ hostOps3_writes (by decide)
    _ = W4 m c (Proc.devRef .tc main_arg2) := W5_of_ne m c main_arg2 (by decide)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := W7_of_ne m c main_arg3 (by decide)
    _ = W5 m c (Proc.devRef .tc main_arg3) := StableHlo.after_of_writes_sub hostOps3 _ hostOps3_writes (by decide)
    _ = W4 m c (Proc.devRef .tc main_arg3) := W5_of_ne m c main_arg3 (by decide)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W7_main_arg4 (c : Dev nD) : W7 m c (Proc.devRef .tc main_arg4) = m ((c : Thread nD τ).loc main_arg4) :=
  calc W7 m c (Proc.devRef .tc main_arg4)
    _ = W6 m c (Proc.devRef .tc main_arg4) := W7_of_ne m c main_arg4 (by decide)
    _ = W5 m c (Proc.devRef .tc main_arg4) := StableHlo.after_of_writes_sub hostOps3 _ hostOps3_writes (by decide)
    _ = W4 m c (Proc.devRef .tc main_arg4) := W5_of_ne m c main_arg4 (by decide)
    _ = W3 m c (Proc.devRef .tc main_arg4) := StableHlo.after_of_writes_sub hostOps2 _ hostOps2_writes (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W7_main_arg5 (c : Dev nD) : W7 m c (Proc.devRef .tc main_arg5) = m ((c : Thread nD τ).loc main_arg5) :=
  calc W7 m c (Proc.devRef .tc main_arg5)
    _ = W6 m c (Proc.devRef .tc main_arg5) := W7_of_ne m c main_arg5 (by decide)
    _ = W5 m c (Proc.devRef .tc main_arg5) := StableHlo.after_of_writes_sub hostOps3 _ hostOps3_writes (by decide)
    _ = W4 m c (Proc.devRef .tc main_arg5) := W5_of_ne m c main_arg5 (by decide)
    _ = W3 m c (Proc.devRef .tc main_arg5) := StableHlo.after_of_writes_sub hostOps2 _ hostOps2_writes (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W7_main_arg6 (c : Dev nD) : W7 m c (Proc.devRef .tc main_arg6) = m ((c : Thread nD τ).loc main_arg6) :=
  calc W7 m c (Proc.devRef .tc main_arg6)
    _ = W6 m c (Proc.devRef .tc main_arg6) := W7_of_ne m c main_arg6 (by decide)
    _ = W5 m c (Proc.devRef .tc main_arg6) := StableHlo.after_of_writes_sub hostOps3 _ hostOps3_writes (by decide)
    _ = W4 m c (Proc.devRef .tc main_arg6) := W5_of_ne m c main_arg6 (by decide)
    _ = W3 m c (Proc.devRef .tc main_arg6) := StableHlo.after_of_writes_sub hostOps2 _ hostOps2_writes (by decide)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W7_main_arg7 (c : Dev nD) : W7 m c (Proc.devRef .tc main_arg7) = m ((c : Thread nD τ).loc main_arg7) :=
  calc W7 m c (Proc.devRef .tc main_arg7)
    _ = W6 m c (Proc.devRef .tc main_arg7) := W7_of_ne m c main_arg7 (by decide)
    _ = W5 m c (Proc.devRef .tc main_arg7) := StableHlo.after_of_writes_sub hostOps3 _ hostOps3_writes (by decide)
    _ = W4 m c (Proc.devRef .tc main_arg7) := W5_of_ne m c main_arg7 (by decide)
    _ = W3 m c (Proc.devRef .tc main_arg7) := StableHlo.after_of_writes_sub hostOps2 _ hostOps2_writes (by decide)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl
theorem W7_main_arg8 (c : Dev nD) : W7 m c (Proc.devRef .tc main_arg8) = m ((c : Thread nD τ).loc main_arg8) :=
  calc W7 m c (Proc.devRef .tc main_arg8)
    _ = W6 m c (Proc.devRef .tc main_arg8) := W7_of_ne m c main_arg8 (by decide)
    _ = W5 m c (Proc.devRef .tc main_arg8) := StableHlo.after_of_writes_sub hostOps3 _ hostOps3_writes (by decide)
    _ = W4 m c (Proc.devRef .tc main_arg8) := W5_of_ne m c main_arg8 (by decide)
    _ = W3 m c (Proc.devRef .tc main_arg8) := StableHlo.after_of_writes_sub hostOps2 _ hostOps2_writes (by decide)
    _ = W2 m c (Proc.devRef .tc main_arg8) := W3_of_ne m c main_arg8 (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl
theorem W7_main_arg9 (c : Dev nD) : W7 m c (Proc.devRef .tc main_arg9) = m ((c : Thread nD τ).loc main_arg9) :=
  calc W7 m c (Proc.devRef .tc main_arg9)
    _ = W6 m c (Proc.devRef .tc main_arg9) := W7_of_ne m c main_arg9 (by decide)
    _ = W5 m c (Proc.devRef .tc main_arg9) := StableHlo.after_of_writes_sub hostOps3 _ hostOps3_writes (by decide)
    _ = W4 m c (Proc.devRef .tc main_arg9) := W5_of_ne m c main_arg9 (by decide)
    _ = W3 m c (Proc.devRef .tc main_arg9) := StableHlo.after_of_writes_sub hostOps2 _ hostOps2_writes (by decide)
    _ = W2 m c (Proc.devRef .tc main_arg9) := W3_of_ne m c main_arg9 (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl
theorem W7_main_arg10 (c : Dev nD) : W7 m c (Proc.devRef .tc main_arg10) = m ((c : Thread nD τ).loc main_arg10) :=
  calc W7 m c (Proc.devRef .tc main_arg10)
    _ = W6 m c (Proc.devRef .tc main_arg10) := W7_of_ne m c main_arg10 (by decide)
    _ = W5 m c (Proc.devRef .tc main_arg10) := StableHlo.after_of_writes_sub hostOps3 _ hostOps3_writes (by decide)
    _ = W4 m c (Proc.devRef .tc main_arg10) := W5_of_ne m c main_arg10 (by decide)
    _ = W3 m c (Proc.devRef .tc main_arg10) := StableHlo.after_of_writes_sub hostOps2 _ hostOps2_writes (by decide)
    _ = W2 m c (Proc.devRef .tc main_arg10) := W3_of_ne m c main_arg10 (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl
theorem W7_main_arg11 (c : Dev nD) : W7 m c (Proc.devRef .tc main_arg11) = m ((c : Thread nD τ).loc main_arg11) :=
  calc W7 m c (Proc.devRef .tc main_arg11)
    _ = W6 m c (Proc.devRef .tc main_arg11) := W7_of_ne m c main_arg11 (by decide)
    _ = W5 m c (Proc.devRef .tc main_arg11) := StableHlo.after_of_writes_sub hostOps3 _ hostOps3_writes (by decide)
    _ = W4 m c (Proc.devRef .tc main_arg11) := W5_of_ne m c main_arg11 (by decide)
    _ = W3 m c (Proc.devRef .tc main_arg11) := StableHlo.after_of_writes_sub hostOps2 _ hostOps2_writes (by decide)
    _ = W2 m c (Proc.devRef .tc main_arg11) := W3_of_ne m c main_arg11 (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl
theorem W7_main_arg12 (c : Dev nD) : W7 m c (Proc.devRef .tc main_arg12) = m ((c : Thread nD τ).loc main_arg12) :=
  calc W7 m c (Proc.devRef .tc main_arg12)
    _ = W6 m c (Proc.devRef .tc main_arg12) := W7_of_ne m c main_arg12 (by decide)
    _ = W5 m c (Proc.devRef .tc main_arg12) := StableHlo.after_of_writes_sub hostOps3 _ hostOps3_writes (by decide)
    _ = W4 m c (Proc.devRef .tc main_arg12) := W5_of_ne m c main_arg12 (by decide)
    _ = W3 m c (Proc.devRef .tc main_arg12) := StableHlo.after_of_writes_sub hostOps2 _ hostOps2_writes (by decide)
    _ = W2 m c (Proc.devRef .tc main_arg12) := W3_of_ne m c main_arg12 (by decide)
    _ = W1 m c (Proc.devRef .tc main_arg12) := W2_of_ne m c main_arg12 (by decide)
    _ = W0 m c (Proc.devRef .tc main_arg12) := StableHlo.after_of_writes_sub hostOps0 _ hostOps0_writes (by decide)
    _ = m ((c : Thread nD τ).loc main_arg12) := rfl

/-! ## The proof data family and the thread state -/

abbrev adm : (p : Fin 4) → (pcfgs (F := F) p).Adm := fun p => (cfgs p).toPCfg_adm
/-- Every region's proof data, each at the contents its region is entered from. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V4 m) c
  | ⟨3, _⟩ => fun c => dat3 (V6 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the end of the fold, the generator register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at the contents before it, left at the
    contents after it. Its arrays are split out of the unscoped buffers at entry and put back at their final contents at
    exit; the generator register goes into the invariant and comes back; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (kept_arrays0 m c) (kept_rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers at entry and put back at their final contents at
    exit; the generator register goes into the invariant and comes back; nothing is owed; the kernel has no semaphore of
    its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V2 m) c).Φ 0 from rfl]
    iintro ⟨Hp, -, Hr⟩
    iapply (hin1 (V2 m) c)
    isplitl [Hp]; · iexact Hp
    iexact Hr
  hout c := by
    rw [Pipeline.ownSems0_none, show (pdats m 1 c).Φ (Fin.last _) = (dat1 (V2 m) c).Φ (Fin.last cfg1.N) from rfl]
    iintro H
    ihave H' := (hout1 (V2 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (kept_arrays1 m c) (kept_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it. Its arrays are split out of the unscoped buffers at entry and put back at their final contents at
    exit; the generator register goes into the invariant and comes back; nothing is owed; the kernel has no semaphore of
    its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (kept_arrays2 m c) (kept_rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at the
    contents after it. Its arrays are split out of the unscoped buffers at entry and put back at their final contents at
    exit; the generator register goes into the invariant and comes back; nothing is owed; the kernel has no semaphore of
    its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V6 m c) (V7 m c) ((pdats m 3 c).arrAt · cfg3.N) (kept_arrays3 m c) (kept_rest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .host (hseg hostOps3 hostOps3_sub hostOps3_fresh (W5 m)),
    .region (reg3 m) ]
theorem main_run (c : Dev nD) : main (F := F) c = Pipeline.Seg.run (segs m) := (main_chain c).trans (by chain_rfl)

variable (ρ : Dev nD → PrngReg)

set_option backward.isDefEq.respectTransparency.types false in
/-- From any memory with zero counters every weakly fair execution of the program ends, nothing faulting, and in
    every final state each unscoped buffer holds what the fold says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c),
    (h c _ (mem_uc main_arg8 (by decide))).trans (W7_main_arg8 m c),
    (h c _ (mem_uc main_arg9 (by decide))).trans (W7_main_arg9 m c),
    (h c _ (mem_uc main_arg10 (by decide))).trans (W7_main_arg10 m c),
    (h c _ (mem_uc main_arg11 (by decide))).trans (W7_main_arg11 m c),
    (h c _ (mem_uc main_arg12 (by decide))).trans (W7_main_arg12 m c)⟩) (run_all m ρ)

end Cert.Kernel.Hand

end
-- ==== Proof.KI.R0.lean ====
/-
  The first dense layer, one block of 5000 rows at a time. At grid point t the body reads rows 5000t … 5000t+4999 of
  the aggregated features and of the node features (two blocks of 5000 × 128), the two 128 × 64 weight matrices and the
  1 × 64 bias row (the same block at every point), and stores into the output's block the 5000 × 64 matrix
  (aggregated · left weights + features · right weights) + bias, every row of the bias the same. Nothing is kept from
  one point to the next. This module states what the body leaves in the output block as a function of the five input
  blocks, proves that the body does leave it there, and packages this as the pipeline's proof data for the region, at
  whatever contents V the buffers have when the region is entered.
-/
import proofs.«129360_j3092376453140_1_alg».proof.Proof.KI.LaunchP
import proofs.«129360_j3092376453140_1_alg».proof.Proof.Gen.KernelIdeal.Skeleton
import proofs.«129360_j3092376453140_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def rows0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and the store take a whole block -/

abbrev whole5000x128 : Rect S5000x128 := Rect.unit (s := S5000x128) ![0, 0] S5000x128.size inb_S5000x128_S5000x128_0_0
abbrev whole128x64 : Rect S128x64 := Rect.unit (s := S128x64) ![0, 0] S128x64.size inb_S128x64_S128x64_0_0
abbrev whole1x64 : Rect S1x64 := Rect.unit (s := S1x64) ![0, 0] S1x64.size inb_S1x64_S1x64_0_0
abbrev whole5000x64 : Rect S5000x64 := Rect.unit (s := S5000x64) ![0, 0] S5000x64.size inb_S5000x64_S5000x64_0_0

/-! ## What the body leaves in the output block -/

/-- The output block after the body: its one store, of the layer's value on the five input blocks
    (aggregated rows, feature rows, left weights, bias row, right weights). -/
def layer1Block (a x : Vec F S5000x128 .f32) (wl : Vec F S128x64 .f32) (b : Vec F S1x64 .f32) (wr : Vec F S128x64 .f32) : Vec F S5000x64 .f32 :=
  View.canon [⟨whole5000x64, k0_pay1 (View.ld a whole5000x128) (View.ld x whole5000x128) (View.ld wl whole128x64) (View.ld wr whole128x64) (View.ld b whole1x64)⟩]

/-- The one store covers the block. -/
theorem layer1Block_cover (p0 : Vec F S5000x64 .f32) (y : S5000x64.Idx) :
    ∃ pc ∈ ([⟨whole5000x64, p0⟩] : List (View.Piece (Elt F) S5000x64 .f32)), y ∈ pc.1.set :=
  View.cover_of_tiled [⟨whole5000x64, p0⟩] S5000x64.size (by rfl) y

/-! ## The body's triple -/

set_option maxHeartbeats 1000000 in
/-- On whole staging buffers, the inputs' at read contents and the output's at anything, the body runs to its end
    holding the inputs' as they were and the output's at the layer's value of them. -/
theorem layer1_runs (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (a x : Vec F S5000x128 .f32) (wl : Vec F S128x64 .f32) (b : Vec F S1x64 .f32) (wr : Vec F S128x64 .f32) (K : PUnit → sProp 𝕄) :
    iprop(owns (c : Thread nD τ) arg1 fullShare a ∗ owns (c : Thread nD τ) arg2 fullShare x ∗ owns (c : Thread nD τ) arg3 fullShare wl
        ∗ owns (c : Thread nD τ) arg4 fullShare b ∗ owns (c : Thread nD τ) arg5 fullShare wr ∗ (∃ d, owns (c : Thread nD τ) arg6 fullShare d)
        ∗ (iprop(owns (c : Thread nD τ) arg1 fullShare a ∗ owns (c : Thread nD τ) arg2 fullShare x ∗ owns (c : Thread nD τ) arg3 fullShare wl
            ∗ owns (c : Thread nD τ) arg4 fullShare b ∗ owns (c : Thread nD τ) arg5 fullShare wr
            ∗ owns (c : Thread nD τ) arg6 fullShare (layer1Block a x wl b wr)) -∗ K ⟨⟩))
      ⊢ wp frame (wpE (defs₀ (F := F)) Variants.none c none) E (cc0__sage_linear_kernel i arg1 harg1 arg2 harg2 arg3 harg3 arg4 harg4 arg5 harg5 arg6 harg6) K := by
  simp only [cc0__sage_linear_kernel_eq_skeleton]; unfold cc0__sage_linear_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (layer1Block_cover _)

/-! ## The pipeline's proof data -/

/-- The region's proof data on core c: the arrays as the region finds them; after the body at point t each input's
    buffer at its block and the output's at the layer's value of the five blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => rows0 V c 0 t
    | ⟨1, _⟩ => rows0 V c 1 t
    | ⟨2, _⟩ => rows0 V c 2 t
    | ⟨3, _⟩ => rows0 V c 3 t
    | ⟨4, _⟩ => rows0 V c 4 t
    | ⟨5, _⟩ => layer1Block (rows0 V c 0 t) (rows0 V c 1 t) (rows0 V c 2 t) (rows0 V c 3 t) (rows0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = rows0 V c 0 t := by dsimp only [dat0]
theorem after0_1 (c : Dev nD) (t : Fin cfg0.N) : (dat0 V c).after 1 t = rows0 V c 1 t := by dsimp only [dat0]
theorem after0_2 (c : Dev nD) (t : Fin cfg0.N) : (dat0 V c).after 2 t = rows0 V c 2 t := by dsimp only [dat0]
theorem after0_3 (c : Dev nD) (t : Fin cfg0.N) : (dat0 V c).after 3 t = rows0 V c 3 t := by dsimp only [dat0]
theorem after0_4 (c : Dev nD) (t : Fin cfg0.N) : (dat0 V c).after 4 t = rows0 V c 4 t := by dsimp only [dat0]
theorem after0_5 (c : Dev nD) (t : Fin cfg0.N) : (dat0 V c).after 5 t
    = layer1Block (rows0 V c 0 t) (rows0 V c 1 t) (rows0 V c 2 t) (rows0 V c 3 t) (rows0 V c 4 t) := by dsimp only [dat0]

/-- An input window's staging buffer holds its block at every point, whether the block was moved there at this point
    or sits there from an earlier one (a window whose block never changes is moved once). -/
theorem found0_0 (c : Dev nD) (t : Fin cfg0.N) (d) : (dat0 V c).before 0 t d = rows0 V c 0 t :=
  ((dat0 V c).before_in_eq_fetched 0 rfl (fun _ => rfl) (fun _ _ _ => rfl)
      (fun t => by rw [after0_0]; unfold Dat.blockOf rows0; rw [A_eq0]; try rfl) t d).trans
    (by unfold Dat.fetched Dat.blockOf rows0; rw [A_eq0]; try rfl)
theorem found0_1 (c : Dev nD) (t : Fin cfg0.N) (d) : (dat0 V c).before 1 t d = rows0 V c 1 t :=
  ((dat0 V c).before_in_eq_fetched 1 rfl (fun _ => rfl) (fun _ _ _ => rfl)
      (fun t => by rw [after0_1]; unfold Dat.blockOf rows0; rw [A_eq0]; try rfl) t d).trans
    (by unfold Dat.fetched Dat.blockOf rows0; rw [A_eq0]; try rfl)
theorem found0_2 (c : Dev nD) (t : Fin cfg0.N) (d) : (dat0 V c).before 2 t d = rows0 V c 2 t :=
  ((dat0 V c).before_in_eq_fetched 2 rfl (fun _ => rfl) (fun _ _ _ => rfl)
      (fun t => by rw [after0_2]; unfold Dat.blockOf rows0; rw [A_eq0]; try rfl) t d).trans
    (by unfold Dat.fetched Dat.blockOf rows0; rw [A_eq0]; try rfl)
theorem found0_3 (c : Dev nD) (t : Fin cfg0.N) (d) : (dat0 V c).before 3 t d = rows0 V c 3 t :=
  ((dat0 V c).before_in_eq_fetched 3 rfl (fun _ => rfl) (fun _ _ _ => rfl)
      (fun t => by rw [after0_3]; unfold Dat.blockOf rows0; rw [A_eq0]; try rfl) t d).trans
    (by unfold Dat.fetched Dat.blockOf rows0; rw [A_eq0]; try rfl)
theorem found0_4 (c : Dev nD) (t : Fin cfg0.N) (d) : (dat0 V c).before 4 t d = rows0 V c 4 t :=
  ((dat0 V c).before_in_eq_fetched 4 rfl (fun _ => rfl) (fun _ _ _ => rfl)
      (fun t => by rw [after0_4]; unfold Dat.blockOf rows0; rw [A_eq0]; try rfl) t d).trans
    (by unfold Dat.fetched Dat.blockOf rows0; rw [A_eq0]; try rfl)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1, found0_2, found0_3, found0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (layer1_runs c Set.univ _ _ _ _ _ _ _ _ _ _ _ _ _ (rows0 V c 0 t) (rows0 V c 1 t) (rows0 V c 2 t) (rows0 V c 3 t) (rows0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1K.lean ====
/-
  The batch statistics kernel, one block of 5000 rows at a time: what one run of the body does to its buffers.
  The body keeps two running rows of 64 sums (the column sums of the rows seen so far, and the column sums of their
  squares). At the first grid point it first sets both to zero; at every point it adds the block's column sums to the
  first and the column sums of the block's squares to the second; at the last point it copies both to the outputs.
  This module states the two tests on the grid coordinate and, for each of the three ways they can come out (first
  point, a middle point, last point), the body's triple on whole buffers at named contents.
-/
import proofs.«129360_j3092376453140_1_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the body

The body tests the grid coordinate twice: whether it is 0 (then both running sums are first set to zero) and whether
it is 19 (then the two running sums are copied to the outputs). -/

/-- The first conditional's test, over the grid coordinate. -/
abbrev cond1_0 (i : grid1.Coords) : Prop :=
  (Scalar.cmpi .ne (Scalar.extui (Scalar.cmpi .eq (BitVec.ofNat 32 (i 0).val) 0#32)) 0#32) = 1#1
/-- The second conditional's test. -/
abbrev cond1_1 (i : grid1.Coords) : Prop := k1_cond2 i = 1#1

/-- The first test holds at point 0 only, -/
theorem hcond1_0 : ∀ t : Fin grid1.N, cond1_0 (grid1.coords t) ↔ t.val = 0 := by decide +kernel
/-- the second at point 19 only. -/
theorem hcond1_1 : ∀ t : Fin grid1.N, cond1_1 (grid1.coords t) ↔ t.val = 19 := by decide +kernel

/-! ## Whole-block accesses

Every load and store of the body takes a whole buffer, through the rectangle at offsets zero of the buffer's own sizes. -/

/-- The offsets of every access of the body are zero. -/
theorem zeros1 : (![0, 0] : Fin 2 → Nat) = fun _ => 0 := funext fun a => by fin_cases a <;> rfl

/-- A load of the whole 5000 × 64 block reads the buffer's contents; -/
theorem load_block1 {κ : Kind} {sp : Space} (v : View sig κ sp S5000x64 .f32) (f : v.ty.Contents (Elt F)) :
    v.readAt (Elt F) (Rect.unit (s := S5000x64) ![0, 0] S5000x64.size inb_S5000x64_S5000x64_0_0).toLoadRect f = v.read (Elt F) f :=
  (View.readAt_eq_ld _ _ _).trans (View.ld_unit_zero (S := S5000x64) zeros1 inb_S5000x64_S5000x64_0_0 _)

/-- so does a load of a whole row of 64. -/
theorem load_row1 {κ : Kind} {sp : Space} (v : View sig κ sp S1x64 .f32) (f : v.ty.Contents (Elt F)) :
    v.readAt (Elt F) (Rect.unit (s := S1x64) ![0, 0] S1x64.size inb_S1x64_S1x64_0_0).toLoadRect f = v.read (Elt F) f :=
  (View.readAt_eq_ld _ _ _).trans (View.ld_unit_zero (S := S1x64) zeros1 inb_S1x64_S1x64_0_0 _)

/-- A store of a whole row, made last, leaves the row stored, whatever was stored before; -/
theorem read_store1 {κ : Kind} {sp : Space} (v : View sig κ sp S1x64 .f32) (f : v.ty.Contents (Elt F))
    (w : Vec F S1x64 .f32) (L : List (View.Piece (Elt F) S1x64 .f32)) :
    v.read (Elt F) (v.writes (Elt F) f ((⟨Rect.unit (s := S1x64) ![0, 0] S1x64.size inb_S1x64_S1x64_0_0, w⟩ : View.Piece (Elt F) S1x64 .f32) :: L)) = w :=
  (View.read_writes_eq_canon v f ((⟨Rect.unit (s := S1x64) ![0, 0] S1x64.size inb_S1x64_S1x64_0_0, w⟩ : View.Piece (Elt F) S1x64 .f32) :: L)
      (fun y => ⟨(⟨Rect.unit (s := S1x64) ![0, 0] S1x64.size inb_S1x64_S1x64_0_0, w⟩ : View.Piece (Elt F) S1x64 .f32), List.mem_cons_self,
        View.mem_set_unit_zero (S := S1x64) zeros1 inb_S1x64_S1x64_0_0 y⟩)).trans
    (View.canon_cons_unit_zero (S := S1x64) zeros1 inb_S1x64_S1x64_0_0 w L)

/-- and a load of the whole row after it reads that row. -/
theorem load_stored1 {κ : Kind} {sp : Space} (v : View sig κ sp S1x64 .f32)
    (w : Vec F S1x64 .f32) (L : List (View.Piece (Elt F) S1x64 .f32)) :
    v.readCov ((⟨Rect.unit (s := S1x64) ![0, 0] S1x64.size inb_S1x64_S1x64_0_0, w⟩ : View.Piece (Elt F) S1x64 .f32) :: L)
      (Rect.unit (s := S1x64) ![0, 0] S1x64.size inb_S1x64_S1x64_0_0).toLoadRect = w :=
  View.readCov_cons_toLoadRect _ _ _ _

set_option maxHeartbeats 1000000 in
/-- AT THE FIRST POINT. On whole buffers — the block's at read contents x0, the two running sums' at anything — the body
    runs to its end holding the block's as it was and the running sums at (0 + column sums of x0) and
    (0 + column sums of the squares of x0); the two outputs' buffers are not touched. -/
theorem kern1_A (c : Dev nD) (E : Set ℕ) (i : grid1.Coords)
    (arg1 : Memref sig .tc .vmem S5000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (hc0 : cond1_0 i) (hc1 : ¬ cond1_1 i) (x0 : Vec F S5000x64 .f32) (K : PUnit → sProp 𝕄) :
    iprop(owns (c : Thread nD τ) arg1 fullShare x0 ∗ (∃ d, owns (c : Thread nD τ) arg4 fullShare d) ∗ (∃ d, owns (c : Thread nD τ) arg5 fullShare d)
        ∗ (iprop(owns (c : Thread nD τ) arg1 fullShare x0
              ∗ owns (c : Thread nD τ) arg4 fullShare (k1_pay4 x0 (k1_pay1 (F := F)))
              ∗ owns (c : Thread nD τ) arg5 fullShare (k1_pay5 x0 (k1_pay2 (F := F)))) -∗ K ⟨⟩))
      ⊢ wp frame (wpE (defs₀ (F := F)) Variants.none c none) E
          (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%d4, %f4, -, H4⟩, ⟨%d5, %f5, -, H5⟩, Hk⟩
  subst hf0
  sl_exec (disch := first | exact hc0 | exact hc1)
  sl_step
  iapply Hk
  isplitl [H0]
  · iexists f0; isplitr; · ipureintro; rfl
    iexact H0
  isplitl [H4]
  · iexists _; isplitr
    swap; · iexact H4
    ipureintro
    refine (read_store1 _ _ _ _).trans (congr (congrArg k1_pay4 (load_block1 _ _)) ?_)
    sl_unfold_run_names
    exact load_stored1 _ _ _
  · iexists _; isplitr
    swap; · iexact H5
    ipureintro
    refine (read_store1 _ _ _ _).trans (congr (congrArg k1_pay5 (load_block1 _ _)) ?_)
    sl_unfold_run_names
    exact load_stored1 _ _ _

set_option maxHeartbeats 1000000 in
/-- AT A MIDDLE POINT. On whole buffers — the block's at read contents x0, the running sums' at xs and xq — the body
    runs to its end holding the block's as it was and the running sums at (xs + column sums of x0) and
    (xq + column sums of the squares of x0); the two outputs' buffers are not touched. -/
theorem kern1_B (c : Dev nD) (E : Set ℕ) (i : grid1.Coords)
    (arg1 : Memref sig .tc .vmem S5000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (hc0 : ¬ cond1_0 i) (hc1 : ¬ cond1_1 i) (x0 : Vec F S5000x64 .f32) (xs xq : Vec F S1x64 .f32) (K : PUnit → sProp 𝕄) :
    iprop(owns (c : Thread nD τ) arg1 fullShare x0 ∗ owns (c : Thread nD τ) arg4 fullShare xs ∗ owns (c : Thread nD τ) arg5 fullShare xq
        ∗ (iprop(owns (c : Thread nD τ) arg1 fullShare x0
              ∗ owns (c : Thread nD τ) arg4 fullShare (k1_pay4 x0 xs)
              ∗ owns (c : Thread nD τ) arg5 fullShare (k1_pay5 x0 xq)) -∗ K ⟨⟩))
      ⊢ wp frame (wpE (defs₀ (F := F)) Variants.none c none) E
          (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H4]
  · iexists _; isplitr
    swap; · iexact H4
    ipureintro
    first
      | exact (read_store1 _ _ _ _).trans (congr (congrArg k1_pay4 (load_block1 _ _)) (load_row1 _ _))
      | (sl_unfold_run_names; exact (read_store1 _ _ _ _).trans (congr (congrArg k1_pay4 (load_block1 _ _)) (load_row1 _ _)))
  · iexists _; isplitr
    swap; · iexact H5
    ipureintro
    first
      | exact (read_store1 _ _ _ _).trans (congr (congrArg k1_pay5 (load_block1 _ _)) (load_row1 _ _))
      | (sl_unfold_run_names; exact (read_store1 _ _ _ _).trans (congr (congrArg k1_pay5 (load_block1 _ _)) (load_row1 _ _)))

set_option maxHeartbeats 4000000 in
/-- AT THE LAST POINT. On whole buffers — the block's at read contents x0, the running sums' at xs and xq, the two
    outputs' at anything — the body runs to its end holding the block's as it was, the running sums at
    (xs + column sums of x0) and (xq + column sums of the squares of x0), and each output's buffer at a copy of its sum. -/
theorem kern1_C (c : Dev nD) (E : Set ℕ) (i : grid1.Coords)
    (arg1 : Memref sig .tc .vmem S5000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (hc0 : ¬ cond1_0 i) (hc1 : cond1_1 i) (x0 : Vec F S5000x64 .f32) (xs xq : Vec F S1x64 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs ∗ owns (c : Thread nD τ) arg5 fullShare xq
        ∗ (iprop(owns (c : Thread nD τ) arg1 fullShare x0
              ∗ owns (c : Thread nD τ) arg2 fullShare (k1_pay4 x0 xs)
              ∗ owns (c : Thread nD τ) arg3 fullShare (k1_pay5 x0 xq)
              ∗ owns (c : Thread nD τ) arg4 fullShare (k1_pay4 x0 xs)
              ∗ owns (c : Thread nD τ) arg5 fullShare (k1_pay5 x0 xq)) -∗ K ⟨⟩))
      ⊢ wp frame (wpE (defs₀ (F := F)) Variants.none c none) E
          (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%d2, %f2, -, H2⟩, ⟨%d3, %f3, -, H3⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H2]
  · iexists _; isplitr
    swap; · iexact H2
    ipureintro
    refine (read_store1 _ _ _ _).trans ?_
    sl_unfold_run_names
    exact (load_stored1 _ _ _).trans (congr (congrArg k1_pay4 (load_block1 _ _)) (load_row1 _ _))
  isplitl [H3]
  · iexists _; isplitr
    swap; · iexact H3
    ipureintro
    refine (read_store1 _ _ _ _).trans ?_
    sl_unfold_run_names
    exact (load_stored1 _ _ _).trans (congr (congrArg k1_pay5 (load_block1 _ _)) (load_row1 _ _))
  isplitl [H4]
  · iexists _; isplitr
    swap; · iexact H4
    ipureintro
    sl_unfold_run_names
    exact (read_store1 _ _ _ _).trans (congr (congrArg k1_pay4 (load_block1 _ _)) (load_row1 _ _))
  · iexists _; isplitr
    swap; · iexact H5
    ipureintro
    sl_unfold_run_names
    exact (read_store1 _ _ _ _).trans (congr (congrArg k1_pay5 (load_block1 _ _)) (load_row1 _ _))

end Cert.KernelIdeal.Hand

end
-- ==== Proof.KI.R1.lean ====
/-
  The batch statistics region: the column sums, and the column sums of the squares, of a 100000 × 64 array, taken
  5000 rows at a time over 20 grid points. Two rows of 64 running sums are kept in two scratch buffers from point to
  point: zero before the first block, then ((0 + s_0) + s_1) + … in the order of the points, s_t the column sums of
  block t (and likewise for the squares). The two outputs are stored, and written back, at the last point only; at the
  other points their buffers are left as found. This module names the running sums after each point, packages the
  region's proof data at whatever contents V the buffers have when the region is entered — the invariant between
  points being the two scratch buffers at the running sums so far —, proves the body's obligation at every point from
  the three triples of the body, gives the two entailments that take the invariant out of and back into the scoped
  buffers, and reads off what the region leaves in its three arrays.
-/
import proofs.«129360_j3092376453140_1_alg».proof.Proof.KI.LaunchP
import proofs.«129360_j3092376453140_1_alg».proof.Proof.Gen.KernelIdeal.Skeleton
import proofs.«129360_j3092376453140_1_alg».proof.Proof.Gen.KernelIdeal.Points
import proofs.«129360_j3092376453140_1_alg».proof.Proof.KI.R1K
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point. -/
theorem found1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The running sums -/

/-- The two scratch buffers that carry the running sums, as whole memrefs. -/
abbrev scM1_0 : Memref sig .tc .vmem S1x64 .f32 := Memref.whole cc1_scratch0
abbrev scM1_1 : Memref sig .tc .vmem S1x64 .f32 := Memref.whole cc1_scratch1

/-- The running column sums after point n: zero plus block 0's column sums, then each later block's added in turn. -/
def acc1N (c : Dev nD) : (n : ℕ) → n < cfg1.N → Vec F S1x64 .f32
  | 0, hn => k1_pay4 (iblk1 V c 0 ⟨0, hn⟩) (k1_pay1 (F := F))
  | n + 1, hn => k1_pay4 (iblk1 V c 0 ⟨n + 1, hn⟩) (acc1N c n (Nat.lt_of_succ_lt hn))

/-- The running column sums of the squares after point n. -/
def accsq1N (c : Dev nD) : (n : ℕ) → n < cfg1.N → Vec F S1x64 .f32
  | 0, hn => k1_pay5 (iblk1 V c 0 ⟨0, hn⟩) (k1_pay2 (F := F))
  | n + 1, hn => k1_pay5 (iblk1 V c 0 ⟨n + 1, hn⟩) (accsq1N c n (Nat.lt_of_succ_lt hn))

/-- The same at a point of the grid. -/
def acc1 (c : Dev nD) (t : Fin cfg1.N) : Vec F S1x64 .f32 := acc1N V c t.val t.isLt
def accsq1 (c : Dev nD) (t : Fin cfg1.N) : Vec F S1x64 .f32 := accsq1N V c t.val t.isLt

theorem acc1_zero (c : Dev nD) (h : 0 < cfg1.N) : acc1 V c ⟨0, h⟩ = k1_pay4 (iblk1 V c 0 ⟨0, h⟩) (k1_pay1 (F := F)) := rfl
theorem acc1_succ (c : Dev nD) (n : ℕ) (h : n + 1 < cfg1.N) :
    acc1 V c ⟨n + 1, h⟩ = k1_pay4 (iblk1 V c 0 ⟨n + 1, h⟩) (acc1 V c ⟨n, Nat.lt_of_succ_lt h⟩) := rfl
theorem accsq1_zero (c : Dev nD) (h : 0 < cfg1.N) : accsq1 V c ⟨0, h⟩ = k1_pay5 (iblk1 V c 0 ⟨0, h⟩) (k1_pay2 (F := F)) := rfl
theorem accsq1_succ (c : Dev nD) (n : ℕ) (h : n + 1 < cfg1.N) :
    accsq1 V c ⟨n + 1, h⟩ = k1_pay5 (iblk1 V c 0 ⟨n + 1, h⟩) (accsq1 V c ⟨n, Nat.lt_of_succ_lt h⟩) := rfl

/-- At the first point the running sums start from zero; -/
theorem acc1N_first (c : Dev nD) (t : Fin cfg1.N) (h0 : t.val = 0) :
    acc1N V c t.val t.isLt = k1_pay4 (iblk1 V c 0 t) (k1_pay1 (F := F)) := by
  obtain ⟨n, hn⟩ := t
  cases n with
  | zero => rfl
  | succ n => exact absurd h0 (Nat.succ_ne_zero n)
theorem accsq1N_first (c : Dev nD) (t : Fin cfg1.N) (h0 : t.val = 0) :
    accsq1N V c t.val t.isLt = k1_pay5 (iblk1 V c 0 t) (k1_pay2 (F := F)) := by
  obtain ⟨n, hn⟩ := t
  cases n with
  | zero => rfl
  | succ n => exact absurd h0 (Nat.succ_ne_zero n)
/-- at a later one, from what the point before left. -/
theorem acc1N_later (c : Dev nD) (t : Fin cfg1.N) (h0 : t.val ≠ 0) :
    acc1N V c t.val t.isLt = k1_pay4 (iblk1 V c 0 t) (acc1N V c (t.val - 1) (Nat.lt_of_le_of_lt (Nat.sub_le _ _) t.isLt)) := by
  obtain ⟨n, hn⟩ := t
  cases n with
  | zero => exact absurd rfl h0
  | succ n => rfl
theorem accsq1N_later (c : Dev nD) (t : Fin cfg1.N) (h0 : t.val ≠ 0) :
    accsq1N V c t.val t.isLt = k1_pay5 (iblk1 V c 0 t) (accsq1N V c (t.val - 1) (Nat.lt_of_le_of_lt (Nat.sub_le _ _) t.isLt)) := by
  obtain ⟨n, hn⟩ := t
  cases n with
  | zero => exact absurd rfl h0
  | succ n => rfl

/-! ## The invariant between points -/

/-- Before position n: the two scratch buffers — at anything before the first point, afterwards at the running sums
    the point before left —, every other scoped buffer that is no staging buffer, and the generator register at
    some state. -/
def Phi1 (c : Dev nD) : (n : ℕ) → n ≤ cfg1.N → sProp 𝕄
  | 0, _ => iprop(iprop((∃ d, owns (c : Thread nD τ) scM1_0 fullShare d) ∗ (∃ d, owns (c : Thread nD τ) scM1_1 fullShare d))
      ∗ Pipeline.scopedRestBut (Ix := Unit) (Name := ℕ) (U := UR sig nD τ) (Lvl := ℕ) (Val := Elt F) spec1 c [cc1_scratch0, cc1_scratch1]
      ∗ (∃ r, prngReg c r))
  | n + 1, hn => iprop(iprop(owns (c : Thread nD τ) scM1_0 fullShare (acc1N V c n hn) ∗ owns (c : Thread nD τ) scM1_1 fullShare (accsq1N V c n hn))
      ∗ Pipeline.scopedRestBut (Ix := Unit) (Name := ℕ) (U := UR sig nD τ) (Lvl := ℕ) (Val := Elt F) spec1 c [cc1_scratch0, cc1_scratch1]
      ∗ (∃ r, prngReg c r))

theorem Phi1_zero (c : Dev nD) (n : ℕ) (h : n ≤ cfg1.N) (hz : n = 0) :
    Phi1 V c n h = iprop(iprop((∃ d, owns (c : Thread nD τ) scM1_0 fullShare d) ∗ (∃ d, owns (c : Thread nD τ) scM1_1 fullShare d))
      ∗ Pipeline.scopedRestBut (Ix := Unit) (Name := ℕ) (U := UR sig nD τ) (Lvl := ℕ) (Val := Elt F) spec1 c [cc1_scratch0, cc1_scratch1]
      ∗ (∃ r, prngReg c r)) := by
  subst hz; rfl

theorem Phi1_succ (c : Dev nD) (n : ℕ) (hn : n < cfg1.N) :
    Phi1 V c (n + 1) hn = iprop(iprop(owns (c : Thread nD τ) scM1_0 fullShare (acc1N V c n hn) ∗ owns (c : Thread nD τ) scM1_1 fullShare (accsq1N V c n hn))
      ∗ Pipeline.scopedRestBut (Ix := Unit) (Name := ℕ) (U := UR sig nD τ) (Lvl := ℕ) (Val := Elt F) spec1 c [cc1_scratch0, cc1_scratch1]
      ∗ (∃ r, prngReg c r)) := rfl

theorem Phi1_pos (c : Dev nD) (n : ℕ) (h : n ≤ cfg1.N) (hz : n ≠ 0) :
    Phi1 V c n h = iprop(iprop(owns (c : Thread nD τ) scM1_0 fullShare (acc1N V c (n - 1) (by omega)) ∗ owns (c : Thread nD τ) scM1_1 fullShare (accsq1N V c (n - 1) (by omega)))
      ∗ Pipeline.scopedRestBut (Ix := Unit) (Name := ℕ) (U := UR sig nD τ) (Lvl := ℕ) (Val := Elt F) spec1 c [cc1_scratch0, cc1_scratch1]
      ∗ (∃ r, prngReg c r)) := by
  cases n with
  | zero => exact absurd rfl hz
  | succ n => rfl

/-! ## The pipeline's proof data -/

/-- The region's proof data on core c: the arrays as the region finds them; after the body at point t the input's
    buffer at its block and each output's at its running sum (stored, and written back, at the last point only);
    the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => acc1 V c t
    | ⟨2, _⟩ => accsq1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = acc1 V c t := by dsimp only [dat1]
theorem after1_2 (c : Dev nD) (t : Fin cfg1.N) : (dat1 V c).after 2 t = accsq1 V c t := by dsimp only [dat1]

theorem before1_0 (c : Dev nD) (t : Fin cfg1.N) (d) : (dat1 V c).before 0 t d = iblk1 V c 0 t :=
  found1_0_of V (dat1 V c) (A_eq1 V c 0) (after1_0 V c) t d

/-! ## Where the output windows are idle -/

theorem hcondN1_0 : ∀ t : Fin cfg1.N, cond1_0 (grid1.coords t) ↔ t.val = 0 := hcond1_0
theorem hcondN1_1 : ∀ t : Fin cfg1.N, cond1_1 (grid1.coords t) ↔ t.val = 19 := hcond1_1

/-- The input window is never idle. -/
theorem liveAt1_0 : ∀ t : Fin cfg1.N, cfg1.idle 0 (grid1.coords t) = false := fun _ => rfl
/-- Off the last point the two outputs are idle and not written back; -/
theorem idleAt1_1 : ∀ t : Fin cfg1.N, ¬cond1_1 (grid1.coords t) → cfg1.idle 1 (grid1.coords t) = true :=
  (by decide +kernel : ∀ t : Fin grid1.N, ¬cond1_1 (grid1.coords t) → idle1 1 (grid1.coords t) = true)
theorem idleAt1_2 : ∀ t : Fin cfg1.N, ¬cond1_1 (grid1.coords t) → cfg1.idle 2 (grid1.coords t) = true :=
  (by decide +kernel : ∀ t : Fin grid1.N, ¬cond1_1 (grid1.coords t) → idle1 2 (grid1.coords t) = true)
theorem noFlush1_1 : ∀ t : Fin cfg1.N, ¬cond1_1 (grid1.coords t) → (cfg1.win 1).flush t = false :=
  (by decide +kernel : ∀ t : Fin grid1.N, ¬cond1_1 (grid1.coords t) → win1_1.flush t = false)
theorem noFlush1_2 : ∀ t : Fin cfg1.N, ¬cond1_1 (grid1.coords t) → (cfg1.win 2).flush t = false :=
  (by decide +kernel : ∀ t : Fin grid1.N, ¬cond1_1 (grid1.coords t) → win1_2.flush t = false)
/-- at the last point they are live. -/
theorem liveAt1_1 : ∀ t : Fin cfg1.N, cond1_1 (grid1.coords t) → cfg1.idle 1 (grid1.coords t) = false :=
  (by decide +kernel : ∀ t : Fin grid1.N, cond1_1 (grid1.coords t) → idle1 1 (grid1.coords t) = false)
theorem liveAt1_2 : ∀ t : Fin cfg1.N, cond1_1 (grid1.coords t) → cfg1.idle 2 (grid1.coords t) = false :=
  (by decide +kernel : ∀ t : Fin grid1.N, cond1_1 (grid1.coords t) → idle1 2 (grid1.coords t) = false)

/-! ## The body obligation, at a generic point -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The input's buffer holds its block; the coordinate says which of the three cases the point
    is in; the invariant hands the body the two scratch buffers — at anything at the first point, else at the running
    sums the point before left — and takes them back at this point's running sums; off the last point the outputs'
    buffers pass through untouched, at the last point they are left at the final sums. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  have hN : t.val < 20 := lt_of_lt_of_eq t.isLt (show cfg1.N = 20 from N_1)
  by_cases h0 : t.val = 0
  · have hc0 : cond1_0 (grid1.coords t) := (hcondN1_0 t).mpr h0
    have hc1 : ¬ cond1_1 (grid1.coords t) := fun h => by have := (hcondN1_1 t).mp h; omega
    rw [Dat.leavesExact_idle (dat1 V c) 1 t (idleAt1_1 t hc1) (noFlush1_1 t hc1),
      Dat.leavesExact_idle (dat1 V c) 2 t (idleAt1_2 t hc1) (noFlush1_2 t hc1)]
    rw [Phi1_castSucc V c t, Phi1_zero V c _ _ h0, acc1N_first V c t h0, accsq1N_first V c t h0]
    iintro ⟨⟨⟨HS0, HS1⟩, Hrest, Hg⟩, Ho, ⟨%d0, H0⟩, H1, H2⟩
    iapply (kern1_A c Set.univ (grid1.coords t) _ _ _ _ _ _ _ _ _ _ hc0 hc1 (iblk1 V c 0 t) _)
    isplitl [H0]; · iexact H0
    isplitl [HS0]; · iexact HS0
    isplitl [HS1]; · iexact HS1
    iintro ⟨H0, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    iexact H2
  · have hc0 : ¬ cond1_0 (grid1.coords t) := fun h => h0 ((hcondN1_0 t).mp h)
    rw [Phi1_castSucc V c t, Phi1_pos V c _ _ h0, acc1N_later V c t h0, accsq1N_later V c t h0]
    by_cases h1 : t.val = 19
    · have hc1 : cond1_1 (grid1.coords t) := (hcondN1_1 t).mpr h1
      rw [show (dat1 V c).leavesExact 1 t = owns (c : Thread nD τ) (st1_1 t) fullShare ((dat1 V c).after 1 t) from by
        unfold Dat.leavesExact; rw [liveAt1_1 t hc1], after1_1]
      rw [show (dat1 V c).leavesExact 2 t = owns (c : Thread nD τ) (st1_2 t) fullShare ((dat1 V c).after 2 t) from by
        unfold Dat.leavesExact; rw [liveAt1_2 t hc1], after1_2]
      unfold acc1 accsq1
      rw [acc1N_later V c t h0, accsq1N_later V c t h0]
      iintro ⟨⟨⟨HS0, HS1⟩, Hrest, Hg⟩, Ho, ⟨%d0, H0⟩, ⟨%d1, H1⟩, ⟨%d2, H2⟩⟩
      iapply (kern1_C c Set.univ (grid1.coords t) _ _ _ _ _ _ _ _ _ _ hc0 hc1 (iblk1 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      iexact H2
    · have hc1 : ¬ cond1_1 (grid1.coords t) := fun h => h1 ((hcondN1_1 t).mp h)
      rw [Dat.leavesExact_idle (dat1 V c) 1 t (idleAt1_1 t hc1) (noFlush1_1 t hc1),
        Dat.leavesExact_idle (dat1 V c) 2 t (idleAt1_2 t hc1) (noFlush1_2 t hc1)]
      iintro ⟨⟨⟨HS0, HS1⟩, Hrest, Hg⟩, Ho, ⟨%d0, H0⟩, H1, H2⟩
      iapply (kern1_B c Set.univ (grid1.coords t) _ _ _ _ _ _ _ _ _ _ hc0 hc1 (iblk1 V c 0 t) _ _ _)
      isplitl [H0]; · iexact H0
      isplitl [HS0]; · iexact HS0
      isplitl [HS1]; · iexact HS1
      iintro ⟨H0, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into the invariant and out of it -/

/-- The generator register and the scoped buffers no window stages make the invariant before the first point: the
    two scratch buffers are split out of the scoped buffers, each at whatever it holds. -/
theorem hin1 (c : Dev nD) :
    iprop((∃ r, prngReg c r) ∗ Pipeline.scopedRest (Ix := Unit) (Name := ℕ) (U := UR sig nD τ) (Lvl := ℕ) (Val := Elt F) spec1 c)
      ⊢ ((dat1 V c).Φ 0 : sProp 𝕄) := by
  rw [show (dat1 V c).Φ 0 = Phi1 V c 0 (Nat.zero_le _) from rfl, Phi1_zero V c 0 _ rfl, scopedRest1_split]
  simp only [scM1_0, scM1_1, owns_whole]
  iintro ⟨Hg, ⟨HS0, HS1⟩, Hrest⟩
  isplitl [HS0 HS1]
  · isplitl [HS0]; · iexact HS0
    iexact HS1
  isplitl [Hrest]; · iexact Hrest
  iexact Hg

/-- After the last point the invariant gives them back: the running sums' names are forgotten. -/
theorem hout1 (c : Dev nD) :
    ((dat1 V c).Φ (Fin.last cfg1.N) : sProp 𝕄)
      ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 20 := N_1; omega), scopedRest1_split]
  simp only [scM1_0, scM1_1, owns_whole]
  iintro ⟨⟨HS0, HS1⟩, Hrest, Hg⟩
  isplitl [Hg]; · iexact Hg
  isplitl [HS0 HS1]
  · isplitl [HS0]; · iexists _; iexact HS0
    iexists _; iexact HS1
  iexact Hrest

/-! ## What the region leaves in its arrays -/

/-- The input array is as the region found it. -/
theorem arrAt1_in (c : Dev nD) : (dat1 V c).arrAt 0 cfg1.N = V c (Pipeline.arrRef spec1 0) :=
  ((dat1 V c).arrAt_in 0 rfl _).trans (A_eq1 V c 0)

end Cert.KernelIdeal.Hand

end
-- ==== Proof.KI.R2.lean ====
/-
  The normalisation between the layers, one block of 5000 rows at a time. At grid point t the body reads rows
  5000t … 5000t+4999 of the first layer's output (5000 × 64) and four 1 × 64 rows — the column means, the column
  variances, the scale and the shift, the same block at every point — and stores into the output's block
  max((((h − mean) · rsqrt(var + eps)) · scale) + shift, 0), each row vector repeated down the 5000 rows. Nothing is kept
  from one point to the next. This module states what the body leaves in the output block as a function of the five
  input blocks, proves that the body leaves it there, and packages this as the pipeline's proof data for the region,
  at whatever contents V the buffers have when the region is entered.
-/
import proofs.«129360_j3092376453140_1_alg».proof.Proof.KI.LaunchP
import proofs.«129360_j3092376453140_1_alg».proof.Proof.Gen.KernelIdeal.Skeleton
import proofs.«129360_j3092376453140_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def rows2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and the store take a whole block -/

abbrev all5000x64 : Rect S5000x64 := Rect.unit (s := S5000x64) ![0, 0] S5000x64.size inb_S5000x64_S5000x64_0_0
abbrev all1x64 : Rect S1x64 := Rect.unit (s := S1x64) ![0, 0] S1x64.size inb_S1x64_S1x64_0_0

/-! ## What the body leaves in the output block -/

/-- The output block after the body: its one store, of the normalised and clamped value on the five input blocks
    (rows of the first layer's output, mean row, variance row, scale row, shift row). -/
def normBlock (h : Vec F S5000x64 .f32) (mean var scale shift : Vec F S1x64 .f32) : Vec F S5000x64 .f32 :=
  View.canon [⟨all5000x64, k2_pay1 (View.ld h all5000x64) (View.ld var all1x64) (View.ld mean all1x64) (View.ld scale all1x64) (View.ld shift all1x64)⟩]

/-- The one store covers the block. -/
theorem normBlock_cover (p0 : Vec F S5000x64 .f32) (y : S5000x64.Idx) :
    ∃ pc ∈ ([⟨all5000x64, p0⟩] : List (View.Piece (Elt F) S5000x64 .f32)), y ∈ pc.1.set :=
  View.cover_of_tiled [⟨all5000x64, p0⟩] S5000x64.size (by rfl) y

/-! ## The body's triple -/

set_option maxHeartbeats 1000000 in
/-- On whole staging buffers, the inputs' at read contents and the output's at anything, the body runs to its end
    holding the inputs' as they were and the output's at the normalised value of them. -/
theorem norm_runs (c : Dev nD) (E : Set ℕ) (i : grid2.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (h : Vec F S5000x64 .f32) (mean var scale shift : Vec F S1x64 .f32) (K : PUnit → sProp 𝕄) :
    iprop(owns (c : Thread nD τ) arg1 fullShare h ∗ owns (c : Thread nD τ) arg2 fullShare mean ∗ owns (c : Thread nD τ) arg3 fullShare var ∗ owns (c : Thread nD τ) arg4 fullShare scale ∗ owns (c : Thread nD τ) arg5 fullShare shift ∗ (∃ d, owns (c : Thread nD τ) arg6 fullShare d)
        ∗ (iprop(owns (c : Thread nD τ) arg1 fullShare h ∗ owns (c : Thread nD τ) arg2 fullShare mean ∗ owns (c : Thread nD τ) arg3 fullShare var ∗ owns (c : Thread nD τ) arg4 fullShare scale ∗ owns (c : Thread nD τ) arg5 fullShare shift
            ∗ owns (c : Thread nD τ) arg6 fullShare (normBlock h mean var scale shift)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normBlock_cover _)

/-! ## The pipeline's proof data -/

/-- The region's proof data on core c: the arrays as the region finds them; after the body at point t each input's
    buffer at its block and the output's at the normalised value of the five blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => rows2 V c 0 t
    | ⟨1, _⟩ => rows2 V c 1 t
    | ⟨2, _⟩ => rows2 V c 2 t
    | ⟨3, _⟩ => rows2 V c 3 t
    | ⟨4, _⟩ => rows2 V c 4 t
    | ⟨5, _⟩ => normBlock (rows2 V c 0 t) (rows2 V c 1 t) (rows2 V c 2 t) (rows2 V c 3 t) (rows2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = rows2 V c 0 t := by dsimp only [dat2]
theorem after2_1 (c : Dev nD) (t : Fin cfg2.N) : (dat2 V c).after 1 t = rows2 V c 1 t := by dsimp only [dat2]
theorem after2_2 (c : Dev nD) (t : Fin cfg2.N) : (dat2 V c).after 2 t = rows2 V c 2 t := by dsimp only [dat2]
theorem after2_3 (c : Dev nD) (t : Fin cfg2.N) : (dat2 V c).after 3 t = rows2 V c 3 t := by dsimp only [dat2]
theorem after2_4 (c : Dev nD) (t : Fin cfg2.N) : (dat2 V c).after 4 t = rows2 V c 4 t := by dsimp only [dat2]
theorem after2_5 (c : Dev nD) (t : Fin cfg2.N) : (dat2 V c).after 5 t
    = normBlock (rows2 V c 0 t) (rows2 V c 1 t) (rows2 V c 2 t) (rows2 V c 3 t) (rows2 V c 4 t) := by dsimp only [dat2]

/-- An input window's staging buffer holds its block at every point, whether the block was moved there at this point
    or sits there from an earlier one (a window whose block never changes is moved once). -/
theorem found2_0 (c : Dev nD) (t : Fin cfg2.N) (d) : (dat2 V c).before 0 t d = rows2 V c 0 t :=
  ((dat2 V c).before_in_eq_fetched 0 rfl (fun _ => rfl) (fun _ _ _ => rfl)
      (fun t => by rw [after2_0]; unfold Dat.blockOf rows2; rw [A_eq2]; try rfl) t d).trans
    (by unfold Dat.fetched Dat.blockOf rows2; rw [A_eq2]; try rfl)
theorem found2_1 (c : Dev nD) (t : Fin cfg2.N) (d) : (dat2 V c).before 1 t d = rows2 V c 1 t :=
  ((dat2 V c).before_in_eq_fetched 1 rfl (fun _ => rfl) (fun _ _ _ => rfl)
      (fun t => by rw [after2_1]; unfold Dat.blockOf rows2; rw [A_eq2]; try rfl) t d).trans
    (by unfold Dat.fetched Dat.blockOf rows2; rw [A_eq2]; try rfl)
theorem found2_2 (c : Dev nD) (t : Fin cfg2.N) (d) : (dat2 V c).before 2 t d = rows2 V c 2 t :=
  ((dat2 V c).before_in_eq_fetched 2 rfl (fun _ => rfl) (fun _ _ _ => rfl)
      (fun t => by rw [after2_2]; unfold Dat.blockOf rows2; rw [A_eq2]; try rfl) t d).trans
    (by unfold Dat.fetched Dat.blockOf rows2; rw [A_eq2]; try rfl)
theorem found2_3 (c : Dev nD) (t : Fin cfg2.N) (d) : (dat2 V c).before 3 t d = rows2 V c 3 t :=
  ((dat2 V c).before_in_eq_fetched 3 rfl (fun _ => rfl) (fun _ _ _ => rfl)
      (fun t => by rw [after2_3]; unfold Dat.blockOf rows2; rw [A_eq2]; try rfl) t d).trans
    (by unfold Dat.fetched Dat.blockOf rows2; rw [A_eq2]; try rfl)
theorem found2_4 (c : Dev nD) (t : Fin cfg2.N) (d) : (dat2 V c).before 4 t d = rows2 V c 4 t :=
  ((dat2 V c).before_in_eq_fetched 4 rfl (fun _ => rfl) (fun _ _ _ => rfl)
      (fun t => by rw [after2_4]; unfold Dat.blockOf rows2; rw [A_eq2]; try rfl) t d).trans
    (by unfold Dat.fetched Dat.blockOf rows2; rw [A_eq2]; try rfl)

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [found2_0, found2_1, found2_2, found2_3, found2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (norm_runs c Set.univ _ _ _ _ _ _ _ _ _ _ _ _ _ (rows2 V c 0 t) (rows2 V c 1 t) (rows2 V c 2 t) (rows2 V c 3 t) (rows2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
/-
  The second dense layer and the classifier, one block of 5000 rows at a time. At grid point t the body reads rows
  5000t … 5000t+4999 of the aggregated hidden features and of the hidden features (two blocks of 5000 × 64), the two
  64 × 16 weight matrices with their 1 × 16 bias row, and the 16 × 2 classifier matrix with its 1 × 2 bias row (the same
  blocks at every point). It stores the 5000 × 16 embedding (aggregated · left weights + hidden · right weights) + bias
  into the first output's block, and (embedding · classifier) + classifier bias, 5000 × 2, into the second's. Nothing
  is kept from one point to the next. This module states what the body leaves in the two output blocks as functions of
  the seven input blocks, proves that the body leaves them there, and packages this as the pipeline's proof data for
  the region, at whatever contents V the buffers have when the region is entered.
-/
import proofs.«129360_j3092376453140_1_alg».proof.Proof.KI.LaunchP
import proofs.«129360_j3092376453140_1_alg».proof.Proof.Gen.KernelIdeal.Skeleton
import proofs.«129360_j3092376453140_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def rows3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: every load and both stores take a whole block -/

abbrev full5000x64 : Rect S5000x64 := Rect.unit (s := S5000x64) ![0, 0] S5000x64.size inb_S5000x64_S5000x64_0_0
abbrev full64x16 : Rect S64x16 := Rect.unit (s := S64x16) ![0, 0] S64x16.size inb_S64x16_S64x16_0_0
abbrev full1x16 : Rect S1x16 := Rect.unit (s := S1x16) ![0, 0] S1x16.size inb_S1x16_S1x16_0_0
abbrev full16x2 : Rect S16x2 := Rect.unit (s := S16x2) ![0, 0] S16x2.size inb_S16x2_S16x2_0_0
abbrev full1x2 : Rect S1x2 := Rect.unit (s := S1x2) ![0, 0] S1x2.size inb_S1x2_S1x2_0_0
abbrev full5000x16 : Rect S5000x16 := Rect.unit (s := S5000x16) ![0, 0] S5000x16.size inb_S5000x16_S5000x16_0_0
abbrev full5000x2 : Rect S5000x2 := Rect.unit (s := S5000x2) ![0, 0] S5000x2.size inb_S5000x2_S5000x2_0_0

/-! ## What the body leaves in the two output blocks -/

/-- The embedding's block after the body: its one store, of the layer's value on five input blocks
    (aggregated rows, hidden rows, left weights, bias row, right weights). -/
def embBlock (a h : Vec F S5000x64 .f32) (wl : Vec F S64x16 .f32) (b : Vec F S1x16 .f32) (wr : Vec F S64x16 .f32) : Vec F S5000x16 .f32 :=
  View.canon [⟨full5000x16, k3_pay1 (View.ld a full5000x64) (View.ld h full5000x64) (View.ld wl full64x16) (View.ld wr full64x16) (View.ld b full1x16)⟩]

/-- The logits' block after the body: its one store, the classifier applied to the embedding's value. -/
def logitBlock (a h : Vec F S5000x64 .f32) (wl : Vec F S64x16 .f32) (b : Vec F S1x16 .f32) (wr : Vec F S64x16 .f32)
    (wc : Vec F S16x2 .f32) (bc : Vec F S1x2 .f32) : Vec F S5000x2 .f32 :=
  View.canon [⟨full5000x2, k3_pay2 (View.ld a full5000x64) (View.ld h full5000x64) (View.ld wl full64x16) (View.ld wr full64x16) (View.ld b full1x16)
    (View.ld wc full16x2) (View.ld bc full1x2)⟩]

/-- Each store covers its block. -/
theorem embBlock_cover (p0 : Vec F S5000x16 .f32) (y : S5000x16.Idx) :
    ∃ pc ∈ ([⟨full5000x16, p0⟩] : List (View.Piece (Elt F) S5000x16 .f32)), y ∈ pc.1.set :=
  View.cover_of_tiled [⟨full5000x16, p0⟩] S5000x16.size (by rfl) y
theorem logitBlock_cover (p0 : Vec F S5000x2 .f32) (y : S5000x2.Idx) :
    ∃ pc ∈ ([⟨full5000x2, p0⟩] : List (View.Piece (Elt F) S5000x2 .f32)), y ∈ pc.1.set :=
  View.cover_of_tiled [⟨full5000x2, p0⟩] S5000x2.size (by rfl) y

/-! ## The body's triple -/

set_option maxHeartbeats 1000000 in
/-- On whole staging buffers, the inputs' at read contents and the two outputs' at anything, the body runs to its end
    holding the inputs' as they were and the outputs' at the embedding's and the logits' values of them. -/
theorem layer2_runs (c : Dev nD) (E : Set ℕ) (i : grid3.Coords)
    (arg1 : Memref sig .tc .vmem S5000x64 .f32) (harg1 : arg1.IsWhole) (arg2 : Memref sig .tc .vmem S5000x64 .f32) (harg2 : arg2.IsWhole)
    (arg3 : Memref sig .tc .vmem S64x16 .f32) (harg3 : arg3.IsWhole) (arg4 : Memref sig .tc .vmem S1x16 .f32) (harg4 : arg4.IsWhole)
    (arg5 : Memref sig .tc .vmem S64x16 .f32) (harg5 : arg5.IsWhole) (arg6 : Memref sig .tc .vmem S16x2 .f32) (harg6 : arg6.IsWhole)
    (arg7 : Memref sig .tc .vmem S1x2 .f32) (harg7 : arg7.IsWhole) (arg8 : Memref sig .tc .vmem S5000x16 .f32) (harg8 : arg8.IsWhole)
    (arg9 : Memref sig .tc .vmem S5000x2 .f32) (harg9 : arg9.IsWhole)
    (a h : Vec F S5000x64 .f32) (wl : Vec F S64x16 .f32) (b : Vec F S1x16 .f32) (wr : Vec F S64x16 .f32) (wc : Vec F S16x2 .f32) (bc : Vec F S1x2 .f32)
    (K : PUnit → sProp 𝕄) :
    iprop(owns (c : Thread nD τ) arg1 fullShare a ∗ owns (c : Thread nD τ) arg2 fullShare h ∗ owns (c : Thread nD τ) arg3 fullShare wl ∗ owns (c : Thread nD τ) arg4 fullShare b ∗ owns (c : Thread nD τ) arg5 fullShare wr ∗ owns (c : Thread nD τ) arg6 fullShare wc ∗ owns (c : Thread nD τ) arg7 fullShare bc
        ∗ (∃ d, owns (c : Thread nD τ) arg8 fullShare d) ∗ (∃ d, owns (c : Thread nD τ) arg9 fullShare d)
        ∗ (iprop(owns (c : Thread nD τ) arg1 fullShare a ∗ owns (c : Thread nD τ) arg2 fullShare h ∗ owns (c : Thread nD τ) arg3 fullShare wl ∗ owns (c : Thread nD τ) arg4 fullShare b ∗ owns (c : Thread nD τ) arg5 fullShare wr ∗ owns (c : Thread nD τ) arg6 fullShare wc ∗ owns (c : Thread nD τ) arg7 fullShare bc
            ∗ owns (c : Thread nD τ) arg8 fullShare (embBlock a h wl b wr)
            ∗ owns (c : Thread nD τ) arg9 fullShare (logitBlock a h wl b wr wc bc)) -∗ K ⟨⟩))
      ⊢ wp frame (wpE (defs₀ (F := F)) Variants.none c none) E
          (cc3__sage2_cls_kernel i arg1 harg1 arg2 harg2 arg3 harg3 arg4 harg4 arg5 harg5 arg6 harg6 arg7 harg7 arg8 harg8 arg9 harg9) K := by
  simp only [cc3__sage2_cls_kernel_eq_skeleton]; unfold cc3__sage2_cls_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf1; subst hf2; subst hf3; subst hf4; subst hf5; subst hf6; subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (embBlock_cover _)
  iexists _; isplitr
  swap; · iexact H9
  ipureintro
  exact View.read_writes_eq_canon _ _ _ (logitBlock_cover _)

/-! ## The pipeline's proof data -/

/-- The region's proof data on core c: the arrays as the region finds them; after the body at point t each input's
    buffer at its block and the two outputs' at the embedding's and the logits' values of the seven blocks; the
    invariant the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => rows3 V c 0 t
    | ⟨1, _⟩ => rows3 V c 1 t
    | ⟨2, _⟩ => rows3 V c 2 t
    | ⟨3, _⟩ => rows3 V c 3 t
    | ⟨4, _⟩ => rows3 V c 4 t
    | ⟨5, _⟩ => rows3 V c 5 t
    | ⟨6, _⟩ => rows3 V c 6 t
    | ⟨7, _⟩ => embBlock (rows3 V c 0 t) (rows3 V c 1 t) (rows3 V c 2 t) (rows3 V c 3 t) (rows3 V c 4 t)
    | ⟨8, _⟩ => logitBlock (rows3 V c 0 t) (rows3 V c 1 t) (rows3 V c 2 t) (rows3 V c 3 t) (rows3 V c 4 t) (rows3 V c 5 t) (rows3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = rows3 V c 0 t := by dsimp only [dat3]
theorem after3_1 (c : Dev nD) (t : Fin cfg3.N) : (dat3 V c).after 1 t = rows3 V c 1 t := by dsimp only [dat3]
theorem after3_2 (c : Dev nD) (t : Fin cfg3.N) : (dat3 V c).after 2 t = rows3 V c 2 t := by dsimp only [dat3]
theorem after3_3 (c : Dev nD) (t : Fin cfg3.N) : (dat3 V c).after 3 t = rows3 V c 3 t := by dsimp only [dat3]
theorem after3_4 (c : Dev nD) (t : Fin cfg3.N) : (dat3 V c).after 4 t = rows3 V c 4 t := by dsimp only [dat3]
theorem after3_5 (c : Dev nD) (t : Fin cfg3.N) : (dat3 V c).after 5 t = rows3 V c 5 t := by dsimp only [dat3]
theorem after3_6 (c : Dev nD) (t : Fin cfg3.N) : (dat3 V c).after 6 t = rows3 V c 6 t := by dsimp only [dat3]
theorem after3_7 (c : Dev nD) (t : Fin cfg3.N) : (dat3 V c).after 7 t
    = embBlock (rows3 V c 0 t) (rows3 V c 1 t) (rows3 V c 2 t) (rows3 V c 3 t) (rows3 V c 4 t) := by dsimp only [dat3]
theorem after3_8 (c : Dev nD) (t : Fin cfg3.N) : (dat3 V c).after 8 t
    = logitBlock (rows3 V c 0 t) (rows3 V c 1 t) (rows3 V c 2 t) (rows3 V c 3 t) (rows3 V c 4 t) (rows3 V c 5 t) (rows3 V c 6 t) := by dsimp only [dat3]

/-- An input window's staging buffer holds its block at every point, whether the block was moved there at this point
    or sits there from an earlier one (a window whose block never changes is moved once). -/
theorem found3_0 (c : Dev nD) (t : Fin cfg3.N) (d) : (dat3 V c).before 0 t d = rows3 V c 0 t :=
  ((dat3 V c).before_in_eq_fetched 0 rfl (fun _ => rfl) (fun _ _ _ => rfl)
      (fun t => by rw [after3_0]; unfold Dat.blockOf rows3; rw [A_eq3]; try rfl) t d).trans
    (by unfold Dat.fetched Dat.blockOf rows3; rw [A_eq3]; try rfl)
theorem found3_1 (c : Dev nD) (t : Fin cfg3.N) (d) : (dat3 V c).before 1 t d = rows3 V c 1 t :=
  ((dat3 V c).before_in_eq_fetched 1 rfl (fun _ => rfl) (fun _ _ _ => rfl)
      (fun t => by rw [after3_1]; unfold Dat.blockOf rows3; rw [A_eq3]; try rfl) t d).trans
    (by unfold Dat.fetched Dat.blockOf rows3; rw [A_eq3]; try rfl)
theorem found3_2 (c : Dev nD) (t : Fin cfg3.N) (d) : (dat3 V c).before 2 t d = rows3 V c 2 t :=
  ((dat3 V c).before_in_eq_fetched 2 rfl (fun _ => rfl) (fun _ _ _ => rfl)
      (fun t => by rw [after3_2]; unfold Dat.blockOf rows3; rw [A_eq3]; try rfl) t d).trans
    (by unfold Dat.fetched Dat.blockOf rows3; rw [A_eq3]; try rfl)
theorem found3_3 (c : Dev nD) (t : Fin cfg3.N) (d) : (dat3 V c).before 3 t d = rows3 V c 3 t :=
  ((dat3 V c).before_in_eq_fetched 3 rfl (fun _ => rfl) (fun _ _ _ => rfl)
      (fun t => by rw [after3_3]; unfold Dat.blockOf rows3; rw [A_eq3]; try rfl) t d).trans
    (by unfold Dat.fetched Dat.blockOf rows3; rw [A_eq3]; try rfl)
theorem found3_4 (c : Dev nD) (t : Fin cfg3.N) (d) : (dat3 V c).before 4 t d = rows3 V c 4 t :=
  ((dat3 V c).before_in_eq_fetched 4 rfl (fun _ => rfl) (fun _ _ _ => rfl)
      (fun t => by rw [after3_4]; unfold Dat.blockOf rows3; rw [A_eq3]; try rfl) t d).trans
    (by unfold Dat.fetched Dat.blockOf rows3; rw [A_eq3]; try rfl)
theorem found3_5 (c : Dev nD) (t : Fin cfg3.N) (d) : (dat3 V c).before 5 t d = rows3 V c 5 t :=
  ((dat3 V c).before_in_eq_fetched 5 rfl (fun _ => rfl) (fun _ _ _ => rfl)
      (fun t => by rw [after3_5]; unfold Dat.blockOf rows3; rw [A_eq3]; try rfl) t d).trans
    (by unfold Dat.fetched Dat.blockOf rows3; rw [A_eq3]; try rfl)
theorem found3_6 (c : Dev nD) (t : Fin cfg3.N) (d) : (dat3 V c).before 6 t d = rows3 V c 6 t :=
  ((dat3 V c).before_in_eq_fetched 6 rfl (fun _ => rfl) (fun _ _ _ => rfl)
      (fun t => by rw [after3_6]; unfold Dat.blockOf rows3; rw [A_eq3]; try rfl) t d).trans
    (by unfold Dat.fetched Dat.blockOf rows3; rw [A_eq3]; try rfl)

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [found3_0, found3_1, found3_2, found3_3, found3_4, found3_5, found3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (layer2_runs c Set.univ _ _ _ _ _ _ _ _ _ _ _ _ _ _ _ _ _ _ _ (rows3 V c 0 t) (rows3 V c 1 t) (rows3 V c 2 t) (rows3 V c 3 t) (rows3 V c 4 t) (rows3 V c 5 t) (rows3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
/-
  The whole program as a chain of seven segments: the host operations before the first layer, the first layer's region,
  the statistics' region, the host operations that turn the sums into mean and variance, the normalisation's region,
  the host operations that aggregate the hidden features, and the second layer's region. The buffer contents at each
  boundary are a fold from the launch memory: a host stretch applies its operations; a region leaves its arrays at what
  its write-backs make of them and every other buffer as it found it. Each region's proof data are stated at the
  contents it is entered from. The run reads every unscoped buffer at the end of the fold: the arguments come back as
  launched (no host operation writes one, and a region only reads one), and the two results are what the last region's
  write-backs leave.
-/
import proofs.«129360_j3092376453140_1_alg».proof.Proof.KI.R0
import proofs.«129360_j3092376453140_1_alg».proof.Proof.KI.R1
import proofs.«129360_j3092376453140_1_alg».proof.Proof.KI.R2
import proofs.«129360_j3092376453140_1_alg».proof.Proof.KI.R3
import proofs.«129360_j3092376453140_1_alg».proof.Proof.KI.RegionsP
import proofs.«129360_j3092376453140_1_alg».proof.Proof.KI.LaunchP
import proofs.«129360_j3092376453140_1_alg».proof.Proof.Gen.KernelIdeal.Skeleton
import proofs.«129360_j3092376453140_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 : Dev nD → Valuation τ sig (Elt F) := fun c b => m (c, b)

/-- After the host stretch hostOps0. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After region 0: its arrays at what the pipeline leaves (the inputs as entered, each output's write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem kept_arrays0 (c : Dev nD) (w : Fin cfg0.W) : (dat0 (V1 m) c).arrAt w cfg0.N = V2 m c (Pipeline.arrRef spec0 w) :=
  (W2_arr m c w).symm
theorem kept_rest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After region 1: its arrays at what the pipeline leaves (the inputs as entered, each output's write-backs folded),
    every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem kept_arrays1 (c : Dev nD) (w : Fin cfg1.W) : (dat1 (V2 m) c).arrAt w cfg1.N = V3 m c (Pipeline.arrRef spec1 w) :=
  (W3_arr m c w).symm
theorem kept_rest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the host stretch hostOps2. -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b

/-- After region 2: its arrays at what the pipeline leaves (the inputs as entered, each output's write-backs folded),
    every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m c b
theorem kept_arrays2 (c : Dev nD) (w : Fin cfg2.W) : (dat2 (V4 m) c).arrAt w cfg2.N = V5 m c (Pipeline.arrRef spec2 w) :=
  (W5_arr m c w).symm
theorem kept_rest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After the host stretch hostOps3. -/
abbrev W6 : Dev nD → Valuation τ sig (Elt F) := fun c => StableHlo.after hostOps3 (W5 m c)
abbrev V6 : (c : Dev nD) → (b : Ref sig .tc) → Buf (Elt F) ((c : Thread nD τ).loc b) := fun c b => W6 m c b

/-- After region 3: its arrays at what the pipeline leaves (the inputs as entered, each output's write-backs folded),
    every other buffer as entered. -/
def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
/-- The same read at the TensorCore's references. -/
abbrev V7 : (c : Dev nD) → (b : Ref sig .tc) → Buf (Elt F) ((c : Thread nD τ).loc b) := fun c b => W7 m c b
theorem kept_arrays3 (c : Dev nD) (w : Fin cfg3.W) : (dat3 (V6 m) c).arrAt w cfg3.N = V7 m c (Pipeline.arrRef spec3 w) :=
  (W7_arr m c w).symm
theorem kept_rest3 (c : Dev nD) : ∀ b, b ∉ Finset.univ.image (Pipeline.arrRef spec3) → V7 m c b = V6 m c b :=
  fun b hb => W7_of_ne m c b fun w e => hb (Finset.mem_image.mpr ⟨w, Finset.mem_univ _, e⟩)

/-! ## The arguments end as launched -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of_ne m c main_arg0 (by decide)
    _ = W5 m c (Proc.devRef .tc main_arg0) := StableHlo.after_of_writes_sub hostOps3 _ hostOps3_writes (by decide)
    _ = W4 m c (Proc.devRef .tc main_arg0) := W5_of_ne m c main_arg0 (by decide)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := (W2_arr m c 1).trans (((dat0 (V1 m) c).arrAt_in 1 rfl _).trans (A_eq0 (V1 m) c 1))
    _ = W0 m c (Proc.devRef .tc main_arg0) := StableHlo.after_of_writes_sub hostOps0 _ hostOps0_writes (by decide)
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := W7_of_ne m c main_arg1 (by decide)
    _ = W5 m c (Proc.devRef .tc main_arg1) := StableHlo.after_of_writes_sub hostOps3 _ hostOps3_writes (by decide)
    _ = W4 m c (Proc.devRef .tc main_arg1) := W5_of_ne m c main_arg1 (by decide)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_of_ne m c main_arg2 (by decide)
    _ = W5 m c (Proc.devRef .tc main_arg2) := StableHlo.after_of_writes_sub hostOps3 _ hostOps3_writes (by decide)
    _ = W4 m c (Proc.devRef .tc main_arg2) := W5_of_ne m c main_arg2 (by decide)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := W7_of_ne m c main_arg3 (by decide)
    _ = W5 m c (Proc.devRef .tc main_arg3) := StableHlo.after_of_writes_sub hostOps3 _ hostOps3_writes (by decide)
    _ = W4 m c (Proc.devRef .tc main_arg3) := W5_of_ne m c main_arg3 (by decide)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W7_main_arg4 (c : Dev nD) : W7 m c (Proc.devRef .tc main_arg4) = m ((c : Thread nD τ).loc main_arg4) :=
  calc W7 m c (Proc.devRef .tc main_arg4)
    _ = W6 m c (Proc.devRef .tc main_arg4) := W7_of_ne m c main_arg4 (by decide)
    _ = W5 m c (Proc.devRef .tc main_arg4) := StableHlo.after_of_writes_sub hostOps3 _ hostOps3_writes (by decide)
    _ = W4 m c (Proc.devRef .tc main_arg4) := W5_of_ne m c main_arg4 (by decide)
    _ = W3 m c (Proc.devRef .tc main_arg4) := StableHlo.after_of_writes_sub hostOps2 _ hostOps2_writes (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W7_main_arg5 (c : Dev nD) : W7 m c (Proc.devRef .tc main_arg5) = m ((c : Thread nD τ).loc main_arg5) :=
  calc W7 m c (Proc.devRef .tc main_arg5)
    _ = W6 m c (Proc.devRef .tc main_arg5) := W7_of_ne m c main_arg5 (by decide)
    _ = W5 m c (Proc.devRef .tc main_arg5) := StableHlo.after_of_writes_sub hostOps3 _ hostOps3_writes (by decide)
    _ = W4 m c (Proc.devRef .tc main_arg5) := W5_of_ne m c main_arg5 (by decide)
    _ = W3 m c (Proc.devRef .tc main_arg5) := StableHlo.after_of_writes_sub hostOps2 _ hostOps2_writes (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W7_main_arg6 (c : Dev nD) : W7 m c (Proc.devRef .tc main_arg6) = m ((c : Thread nD τ).loc main_arg6) :=
  calc W7 m c (Proc.devRef .tc main_arg6)
    _ = W6 m c (Proc.devRef .tc main_arg6) := W7_of_ne m c main_arg6 (by decide)
    _ = W5 m c (Proc.devRef .tc main_arg6) := StableHlo.after_of_writes_sub hostOps3 _ hostOps3_writes (by decide)
    _ = W4 m c (Proc.devRef .tc main_arg6) := W5_of_ne m c main_arg6 (by decide)
    _ = W3 m c (Proc.devRef .tc main_arg6) := StableHlo.after_of_writes_sub hostOps2 _ hostOps2_writes (by decide)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W7_main_arg7 (c : Dev nD) : W7 m c (Proc.devRef .tc main_arg7) = m ((c : Thread nD τ).loc main_arg7) :=
  calc W7 m c (Proc.devRef .tc main_arg7)
    _ = W6 m c (Proc.devRef .tc main_arg7) := W7_of_ne m c main_arg7 (by decide)
    _ = W5 m c (Proc.devRef .tc main_arg7) := StableHlo.after_of_writes_sub hostOps3 _ hostOps3_writes (by decide)
    _ = W4 m c (Proc.devRef .tc main_arg7) := W5_of_ne m c main_arg7 (by decide)
    _ = W3 m c (Proc.devRef .tc main_arg7) := StableHlo.after_of_writes_sub hostOps2 _ hostOps2_writes (by decide)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl
theorem W7_main_arg8 (c : Dev nD) : W7 m c (Proc.devRef .tc main_arg8) = m ((c : Thread nD τ).loc main_arg8) :=
  calc W7 m c (Proc.devRef .tc main_arg8)
    _ = W6 m c (Proc.devRef .tc main_arg8) := W7_of_ne m c main_arg8 (by decide)
    _ = W5 m c (Proc.devRef .tc main_arg8) := StableHlo.after_of_writes_sub hostOps3 _ hostOps3_writes (by decide)
    _ = W4 m c (Proc.devRef .tc main_arg8) := W5_of_ne m c main_arg8 (by decide)
    _ = W3 m c (Proc.devRef .tc main_arg8) := StableHlo.after_of_writes_sub hostOps2 _ hostOps2_writes (by decide)
    _ = W2 m c (Proc.devRef .tc main_arg8) := W3_of_ne m c main_arg8 (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl
theorem W7_main_arg9 (c : Dev nD) : W7 m c (Proc.devRef .tc main_arg9) = m ((c : Thread nD τ).loc main_arg9) :=
  calc W7 m c (Proc.devRef .tc main_arg9)
    _ = W6 m c (Proc.devRef .tc main_arg9) := W7_of_ne m c main_arg9 (by decide)
    _ = W5 m c (Proc.devRef .tc main_arg9) := StableHlo.after_of_writes_sub hostOps3 _ hostOps3_writes (by decide)
    _ = W4 m c (Proc.devRef .tc main_arg9) := W5_of_ne m c main_arg9 (by decide)
    _ = W3 m c (Proc.devRef .tc main_arg9) := StableHlo.after_of_writes_sub hostOps2 _ hostOps2_writes (by decide)
    _ = W2 m c (Proc.devRef .tc main_arg9) := W3_of_ne m c main_arg9 (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl
theorem W7_main_arg10 (c : Dev nD) : W7 m c (Proc.devRef .tc main_arg10) = m ((c : Thread nD τ).loc main_arg10) :=
  calc W7 m c (Proc.devRef .tc main_arg10)
    _ = W6 m c (Proc.devRef .tc main_arg10) := W7_of_ne m c main_arg10 (by decide)
    _ = W5 m c (Proc.devRef .tc main_arg10) := StableHlo.after_of_writes_sub hostOps3 _ hostOps3_writes (by decide)
    _ = W4 m c (Proc.devRef .tc main_arg10) := W5_of_ne m c main_arg10 (by decide)
    _ = W3 m c (Proc.devRef .tc main_arg10) := StableHlo.after_of_writes_sub hostOps2 _ hostOps2_writes (by decide)
    _ = W2 m c (Proc.devRef .tc main_arg10) := W3_of_ne m c main_arg10 (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl
theorem W7_main_arg11 (c : Dev nD) : W7 m c (Proc.devRef .tc main_arg11) = m ((c : Thread nD τ).loc main_arg11) :=
  calc W7 m c (Proc.devRef .tc main_arg11)
    _ = W6 m c (Proc.devRef .tc main_arg11) := W7_of_ne m c main_arg11 (by decide)
    _ = W5 m c (Proc.devRef .tc main_arg11) := StableHlo.after_of_writes_sub hostOps3 _ hostOps3_writes (by decide)
    _ = W4 m c (Proc.devRef .tc main_arg11) := W5_of_ne m c main_arg11 (by decide)
    _ = W3 m c (Proc.devRef .tc main_arg11) := StableHlo.after_of_writes_sub hostOps2 _ hostOps2_writes (by decide)
    _ = W2 m c (Proc.devRef .tc main_arg11) := W3_of_ne m c main_arg11 (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl
theorem W7_main_arg12 (c : Dev nD) : W7 m c (Proc.devRef .tc main_arg12) = m ((c : Thread nD τ).loc main_arg12) :=
  calc W7 m c (Proc.devRef .tc main_arg12)
    _ = W6 m c (Proc.devRef .tc main_arg12) := W7_of_ne m c main_arg12 (by decide)
    _ = W5 m c (Proc.devRef .tc main_arg12) := StableHlo.after_of_writes_sub hostOps3 _ hostOps3_writes (by decide)
    _ = W4 m c (Proc.devRef .tc main_arg12) := W5_of_ne m c main_arg12 (by decide)
    _ = W3 m c (Proc.devRef .tc main_arg12) := StableHlo.after_of_writes_sub hostOps2 _ hostOps2_writes (by decide)
    _ = W2 m c (Proc.devRef .tc main_arg12) := W3_of_ne m c main_arg12 (by decide)
    _ = W1 m c (Proc.devRef .tc main_arg12) := W2_of_ne m c main_arg12 (by decide)
    _ = W0 m c (Proc.devRef .tc main_arg12) := StableHlo.after_of_writes_sub hostOps0 _ hostOps0_writes (by decide)
    _ = m ((c : Thread nD τ).loc main_arg12) := rfl

/-! ## The proof data family and the thread state -/

abbrev adm : (p : Fin 4) → (pcfgs (F := F) p).Adm := fun p => (cfgs p).toPCfg_adm
/-- Every region's proof data, each at the contents its region is entered from. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V4 m) c
  | ⟨3, _⟩ => fun c => dat3 (V6 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the end of the fold, the generator register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at the contents before it, left at the
    contents after it. Its arrays are split out of the unscoped buffers at entry and put back at their final contents at
    exit; the generator register goes into the invariant and comes back; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (kept_arrays0 m c) (kept_rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers at entry and put back at their final contents at
    exit; the generator register goes into the invariant and comes back; nothing is owed; the kernel has no semaphore of
    its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V2 m) c).Φ 0 from rfl]
    iintro ⟨Hp, -, Hr⟩
    iapply (hin1 (V2 m) c)
    isplitl [Hp]; · iexact Hp
    iexact Hr
  hout c := by
    rw [Pipeline.ownSems0_none, show (pdats m 1 c).Φ (Fin.last _) = (dat1 (V2 m) c).Φ (Fin.last cfg1.N) from rfl]
    iintro H
    ihave H' := (hout1 (V2 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (kept_arrays1 m c) (kept_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it. Its arrays are split out of the unscoped buffers at entry and put back at their final contents at
    exit; the generator register goes into the invariant and comes back; nothing is owed; the kernel has no semaphore of
    its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (kept_arrays2 m c) (kept_rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at the
    contents after it. Its arrays are split out of the unscoped buffers at entry and put back at their final contents at
    exit; the generator register goes into the invariant and comes back; nothing is owed; the kernel has no semaphore of
    its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V6 m c) (V7 m c) ((pdats m 3 c).arrAt · cfg3.N) (kept_arrays3 m c) (kept_rest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .host (hseg hostOps3 hostOps3_sub hostOps3_fresh (W5 m)),
    .region (reg3 m) ]
theorem main_run (c : Dev nD) : main (F := F) c = Pipeline.Seg.run (segs m) := (main_chain c).trans (by chain_rfl)

variable (ρ : Dev nD → PrngReg)

set_option backward.isDefEq.respectTransparency.types false in
/-- From any memory with zero counters every weakly fair execution of the program ends, nothing faulting, and in
    every final state each unscoped buffer holds what the fold says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c),
    (h c _ (mem_uc main_arg8 (by decide))).trans (W7_main_arg8 m c),
    (h c _ (mem_uc main_arg9 (by decide))).trans (W7_main_arg9 m c),
    (h c _ (mem_uc main_arg10 (by decide))).trans (W7_main_arg10 m c),
    (h c _ (mem_uc main_arg11 (by decide))).trans (W7_main_arg11 m c),
    (h c _ (mem_uc main_arg12 (by decide))).trans (W7_main_arg12 m c)⟩) (run_all m ρ)

end Cert.KernelIdeal.Hand

end
-- ==== Proof.Val.Spec.lean ====
/-
  The regions of the two-layer mean-aggregating graph convolution as whole-array functions on the
  extended reals, index by index over the literal shapes.  Nothing here mentions a program: the
  arrays are functions from a rank-2 index set to the extended reals, and every index is built from
  its two coordinates.

  * `lin1`, `lin2`  a linear layer: (A·Wl + X·Wr) + b, the bias a row vector.
  * `cls`           the classifier: E·Wc + bc.
  * `colsum`        the column sums of a 100000-row array, accumulated block by block over the 20
                    blocks of 5000 consecutive rows: ((0 + s_0) + s_1) + … + s_19, where s_t is the
                    column sum of rows 5000 t … 5000 t + 4999.  `colAcc h j n` is the accumulator
                    after the first `n` blocks.
  * `colsumsq`      the same of the array of squares.
  * `bnrelu`        max((((h − mean) · rsqrt(var + eps)) · gamma) + beta, 0), the four statistics
                    and parameters row vectors; eps is kept as the float word it is written as.
-/
import Idealize.ShloMosaic.Lib.ValueIdx

noncomputable section

open scoped BigOperators

namespace Cert.Val

open Idealize.ShloMosaic Idealize.ShloMosaic.ValueIdx

abbrev S100000x128 : Shape := ⟨2, ![100000, 128]⟩
abbrev S100000x64 : Shape := ⟨2, ![100000, 64]⟩
abbrev S100000x16 : Shape := ⟨2, ![100000, 16]⟩
abbrev S100000x2 : Shape := ⟨2, ![100000, 2]⟩
abbrev S128x64 : Shape := ⟨2, ![128, 64]⟩
abbrev S64x16 : Shape := ⟨2, ![64, 16]⟩
abbrev S16x2 : Shape := ⟨2, ![16, 2]⟩
abbrev S1x64 : Shape := ⟨2, ![1, 64]⟩
abbrev S1x16 : Shape := ⟨2, ![1, 16]⟩
abbrev S1x2 : Shape := ⟨2, ![1, 2]⟩

/-- The first linear layer: (A·Wl + X·Wr) + b. -/
def lin1 (agg x : S100000x128.Idx → EReal) (wl wr : S128x64.Idx → EReal) (b : S1x64.Idx → EReal) :
    S100000x64.Idx → EReal := fun i =>
  ((∑ k : Fin 128, agg (ix2 (i 0) k) * wl (ix2 k (i 1))) + (∑ k : Fin 128, x (ix2 (i 0) k) * wr (ix2 k (i 1))))
    + b (ix2 0 (i 1))

/-- The column sum of block `t`: rows 5000 t … 5000 t + 4999 of column `j`. -/
def blockSum (h : S100000x64.Idx → EReal) (t : Fin 20) (j : Fin 64) : EReal :=
  ∑ r : Fin 5000, h (ix2 (⟨5000 * t.val + r.val, by have := t.isLt; have := r.isLt; omega⟩ : Fin 100000) j)

/-- The accumulator of column `j` after the first `n` blocks, starting from zero. -/
def colAcc (h : S100000x64.Idx → EReal) (j : Fin 64) : Nat → EReal
  | 0 => 0
  | n + 1 => colAcc h j n + (if hn : n < 20 then blockSum h ⟨n, hn⟩ j else 0)

/-- The column sums, accumulated over the 20 blocks. -/
def colsum (h : S100000x64.Idx → EReal) : S1x64.Idx → EReal := fun i => colAcc h (i 1) 20

/-- The column sums of the squares, accumulated over the 20 blocks. -/
def colsumsq (h : S100000x64.Idx → EReal) : S1x64.Idx → EReal := colsum (fun i => h i * h i)

/-- Normalisation by the given statistics, scale and shift, then the positive part. -/
def bnrelu (h : S100000x64.Idx → EReal) (mean var gamma beta : S1x64.Idx → EReal) : S100000x64.Idx → EReal := fun i =>
  max ((((h i - mean (ix2 0 (i 1))) * Ideal.rsqrt (var (ix2 0 (i 1)) + Ideal.ofBits .f32 0x3727C5AC#32))
      * gamma (ix2 0 (i 1))) + beta (ix2 0 (i 1))) 0

/-- The second linear layer: (A·Wl + H·Wr) + b. -/
def lin2 (agg h : S100000x64.Idx → EReal) (wl wr : S64x16.Idx → EReal) (b : S1x16.Idx → EReal) :
    S100000x16.Idx → EReal := fun i =>
  ((∑ k : Fin 64, agg (ix2 (i 0) k) * wl (ix2 k (i 1))) + (∑ k : Fin 64, h (ix2 (i 0) k) * wr (ix2 k (i 1))))
    + b (ix2 0 (i 1))

/-- The classifier: E·Wc + bc. -/
def cls (emb : S100000x16.Idx → EReal) (wc : S16x2.Idx → EReal) (bc : S1x2.Idx → EReal) : S100000x2.Idx → EReal := fun i =>
  (∑ k : Fin 16, emb (ix2 (i 0) k) * wc (ix2 k (i 1))) + bc (ix2 0 (i 1))

end Cert.Val

end
-- ==== Proof.KI.ValBase.lean ====
/-
  Three facts about matrices read entry by entry, shared by the value readings of the dense layers and of the
  normalisation: a product accumulated into zero is the sum over the contracted coordinate; a row laid along every row
  of a matrix is read in its column; a whole-block access starts at the origin.
-/
import Idealize.ShloMosaic.Lib.Pipeline.Value
import Idealize.ShloMosaic.Lib.ValueIdx
import Idealize.ShloMosaic.Lib.StackMember
import Idealize.ShloMosaic.PureOps.Ideal.Laws

noncomputable section

namespace Cert.KernelIdeal.HandVal

open Idealize.ShloMosaic Idealize.ShloMosaic.ValueIdx
open scoped BigOperators

/-- A product of an m×k by a k×n matrix accumulated into zero, read at an entry: the sum over the contracted
    coordinate of the products of the entries. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A row laid along every row of an m×n matrix, read at an entry: the row's entry in that column. -/
theorem rowBroadcast_apply {α : Type} {m n : Nat} (b : (⟨2, ![1, n]⟩ : Shape).Idx → α)
    (h : (⟨2, ![1, n]⟩ : Shape).Broadcasts ⟨2, ![m, n]⟩) (p : Fin m) (q : Fin n) :
    broadcastTo ⟨2, ![m, n]⟩ b h (ix2 p q) = b (ix2 0 q) := by
  refine broadcastTo_apply b h (ix2 p q) (ix2 0 q) fun a => ?_
  match a with
  | ⟨0, _⟩ => show (0 : Nat) = if (1 : Nat) = 1 then 0 else _; rw [if_pos rfl]
  | ⟨1, _⟩ =>
    show q.val = if n = 1 then 0 else q.val
    split
    · have := q.isLt; omega
    · rfl

/-- The whole-block accesses start at the origin. -/
theorem origin2 : (![0, 0] : Fin 2 → Nat) = fun _ => 0 := funext fun a => by fin_cases a <;> rfl

end Cert.KernelIdeal.HandVal

end
-- ==== Proof.KI.Val0.lean ====
/-
  The first dense layer as one function of whole arrays. The region walks 20 blocks of 5000 rows; at block t the body
  stores (aggregated rows · left weights + feature rows · right weights) + bias into rows 5000t … 5000t + 4999 of the
  output. Entry (p, q) of a block depends on row p of the two row blocks, column q of the two weight matrices and entry
  q of the bias row; row p of block t is row 5000t + p of the array. So every block written back is the restriction of
  one function of the five input arrays, the layer read index by index, and the 20 blocks cover the output: after the
  region the output array is that function.
-/
import proofs.«129360_j3092376453140_1_alg».proof.Proof.KI.R0
import proofs.«129360_j3092376453140_1_alg».proof.Proof.Val.Spec
import proofs.«129360_j3092376453140_1_alg».proof.Proof.KI.ValBase

set_option maxRecDepth 16384

noncomputable section

namespace Cert.KernelIdeal.HandVal

open Cert.KernelIdeal Cert.KernelIdeal.Gen Cert.KernelIdeal.GenP Cert.KernelIdeal.Hand
open Idealize.ShloMosaic Idealize.ShloMosaic.TcCoe Idealize.ShloMosaic.ValueIdx
open Idealize.ShloMosaic.Pipeline (Dat)
open scoped BigOperators

/-! ## The body's value at one entry -/

/-- The layer's value on five blocks at entry (p, q): row p of the aggregated block times column q of the left
    weights, plus row p of the feature block times column q of the right weights, plus entry q of the bias row.
    Rounding the operands to the narrower format changes nothing at the ideal values. -/
theorem layer1_pay_apply (a x : Vec Ideal S5000x128 .f32) (wl wr : Vec Ideal S128x64 .f32) (b : Vec Ideal S1x64 .f32)
    (p : Fin 5000) (q : Fin 64) :
    k0_pay1 (F := Ideal) a x wl wr b (ix2 p q)
      = ((∑ k : Fin 128, a (ix2 p k) * wl (ix2 k q)) + (∑ k : Fin 128, x (ix2 p k) * wr (ix2 k q))) + b (ix2 0 q) := by
  unfold k0_pay1
  simp only [shapeCast_self]
  rw [addf_apply, addf_apply]
  refine congrArg₂ (· + ·) (congrArg₂ (· + ·) ?_ ?_) ?_
  · exact matmul_plain_zero_apply (m := 5000) (k := 128) (n := 64) none (truncf .bf16 a bitsLt_bf16_f32) (truncf .bf16 wl bitsLt_bf16_f32) p q
  · exact matmul_plain_zero_apply (m := 5000) (k := 128) (n := 64) none (truncf .bf16 x bitsLt_bf16_f32) (truncf .bf16 wr bitsLt_bf16_f32) p q
  · exact rowBroadcast_apply (m := 5000) (n := 64) b broadcasts_S1x64_S5000x64 p q

/-- The same entry against whole arrays: when row p of the two row blocks is row r of the arrays A and X, and the
    weight and bias blocks are the arrays Wl, Wr, B in column q, the body's entry (p, q) is the layer's entry (r, q). -/
theorem layer1_entry (A X : Cert.Val.S100000x128.Idx → EReal) (Wl Wr : Cert.Val.S128x64.Idx → EReal) (B : Cert.Val.S1x64.Idx → EReal)
    (a x : Vec Ideal S5000x128 .f32) (wl wr : Vec Ideal S128x64 .f32) (b : Vec Ideal S1x64 .f32)
    (p : Fin 5000) (q : Fin 64) (r : Fin 100000)
    (ha : ∀ k : Fin 128, a (ix2 p k) = A (ix2 r k)) (hx : ∀ k : Fin 128, x (ix2 p k) = X (ix2 r k))
    (hwl : ∀ k : Fin 128, wl (ix2 k q) = Wl (ix2 k q)) (hwr : ∀ k : Fin 128, wr (ix2 k q) = Wr (ix2 k q))
    (hb : b (ix2 0 q) = B (ix2 0 q)) :
    k0_pay1 (F := Ideal) a x wl wr b (ix2 p q) = Cert.Val.lin1 A X Wl Wr B (ix2 r q) := by
  rw [layer1_pay_apply]
  show _ = ((∑ k : Fin 128, A (ix2 r k) * Wl (ix2 k q)) + (∑ k : Fin 128, X (ix2 r k) * Wr (ix2 k q))) + B (ix2 0 q)
  rw [hb]
  refine congrArg₂ (· + ·) (congrArg₂ (· + ·) ?_ ?_) rfl
  · exact Finset.sum_congr rfl fun k _ => by rw [ha k, hwl k]
  · exact Finset.sum_congr rfl fun k _ => by rw [hx k, hwr k]

/-! ## From blocks to the array -/

variable (V : (c : Dev nD) → (b : Ref sig .tc) → Buf (Elt Ideal) ((c : Thread nD τ).loc b))

/-- Where each window's block sits at grid point t, decided over the 20 points: the two row-blocked inputs and the
    output at block (t, 0); the weights and the bias row at block (0, 0). -/
theorem layer1_blocks_at : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t — rows 5000t … 5000t + 4999 — of the layer of the arrays as the region finds
    them. -/
theorem layer1_flushed (c : Dev nD) (t : Fin cfg0.N) :
    (dat0 (F := Ideal) V c).flushed 5 t
      = ((cfg0.win 5).blk t).view.read (Elt Ideal)
          (Cert.Val.lin1 (V c main_v20) (V c main_arg0) (V c main_v21) (V c main_v22) (V c main_v23)) := by
  show (cfg0.win 5).cut (grid0.coords t) ((dat0 V c).after 5 t) = _
  rw [after0_5]
  unfold layer1Block
  rw [View.canon_unit_zero origin2]
  simp only [View.ld_unit_zero (S := S5000x128) origin2, View.ld_unit_zero (S := S128x64) origin2,
    View.ld_unit_zero (S := S1x64) origin2]
  obtain ⟨e00, e01, e10, e11, e20, e21, e30, e31, e40, e41, e50, e51⟩ := layer1_blocks_at t
  have hN : t.val < 20 := Nat.lt_of_lt_of_eq t.isLt N_0
  funext j
  have hp : (j 0).val < 5000 := (j 0).isLt
  have hq : (j 1).val < 64 := (j 1).isLt
  have hj : (cfg0.win 5).xinj (grid0.coords t) j = ix2 (⟨(j 0).val, hp⟩ : Fin 5000) (⟨(j 1).val, hq⟩ : Fin 64) :=
    funext fun a => match a with | ⟨0, _⟩ => rfl | ⟨1, _⟩ => rfl
  have hi : ((cfg0.win 5).blk t).view.emb j
      = ix2 (⟨5000 * t.val + (j 0).val, by omega⟩ : Fin 100000) (⟨(j 1).val, hq⟩ : Fin 64) :=
    funext fun a => Fin.ext (by
      match a with
      | ⟨0, _⟩ => show win0_5.index t (0 : Fin 2) * 5000 + 1 * (j 0).val = 5000 * t.val + (j 0).val; omega
      | ⟨1, _⟩ => show win0_5.index t (1 : Fin 2) * 64 + 1 * (j 1).val = (j 1).val; omega)
  show k0_pay1 (rows0 V c 0 t) (rows0 V c 1 t) (rows0 V c 2 t) (rows0 V c 4 t) (rows0 V c 3 t)
      ((cfg0.win 5).xinj (grid0.coords t) j)
    = Cert.Val.lin1 (V c main_v20) (V c main_arg0) (V c main_v21) (V c main_v22) (V c main_v23)
      (((cfg0.win 5).blk t).view.emb j)
  rw [hj, hi]
  refine layer1_entry _ _ _ _ _ _ _ _ _ _ _ _ _ (fun k => ?_) (fun k => ?_) (fun k => ?_) (fun k => ?_) ?_
  · show V c main_v20 (((cfg0.win 0).blk t).view.emb (ix2 (⟨(j 0).val, hp⟩ : Fin 5000) k)) = _
    refine congrArg (V c main_v20) (funext fun a => Fin.ext ?_)
    match a with
    | ⟨0, _⟩ => show win0_0.index t (0 : Fin 2) * 5000 + 1 * (j 0).val = 5000 * t.val + (j 0).val; omega
    | ⟨1, _⟩ => show win0_0.index t (1 : Fin 2) * 128 + 1 * k.val = k.val; omega
  · show V c main_arg0 (((cfg0.win 1).blk t).view.emb (ix2 (⟨(j 0).val, hp⟩ : Fin 5000) k)) = _
    refine congrArg (V c main_arg0) (funext fun a => Fin.ext ?_)
    match a with
    | ⟨0, _⟩ => show win0_1.index t (0 : Fin 2) * 5000 + 1 * (j 0).val = 5000 * t.val + (j 0).val; omega
    | ⟨1, _⟩ => show win0_1.index t (1 : Fin 2) * 128 + 1 * k.val = k.val; omega
  · show V c main_v21 (((cfg0.win 2).blk t).view.emb (ix2 k (⟨(j 1).val, hq⟩ : Fin 64))) = _
    refine congrArg (V c main_v21) (funext fun a => Fin.ext ?_)
    match a with
    | ⟨0, _⟩ => show win0_2.index t (0 : Fin 2) * 128 + 1 * k.val = k.val; omega
    | ⟨1, _⟩ => show win0_2.index t (1 : Fin 2) * 64 + 1 * (j 1).val = (j 1).val; omega
  · show V c main_v22 (((cfg0.win 4).blk t).view.emb (ix2 k (⟨(j 1).val, hq⟩ : Fin 64))) = _
    refine congrArg (V c main_v22) (funext fun a => Fin.ext ?_)
    match a with
    | ⟨0, _⟩ => show win0_4.index t (0 : Fin 2) * 128 + 1 * k.val = k.val; omega
    | ⟨1, _⟩ => show win0_4.index t (1 : Fin 2) * 64 + 1 * (j 1).val = (j 1).val; omega
  · show V c main_v23 (((cfg0.win 3).blk t).view.emb (ix2 (0 : Fin 1) (⟨(j 1).val, hq⟩ : Fin 64))) = _
    refine congrArg (V c main_v23) (funext fun a => Fin.ext ?_)
    match a with
    | ⟨0, _⟩ => show win0_3.index t (0 : Fin 2) * 1 + 1 * 0 = 0; omega
    | ⟨1, _⟩ => show win0_3.index t (1 : Fin 2) * 64 + 1 * (j 1).val = (j 1).val; omega

/-- An index of the output is in point t's block iff each coordinate is in the block's range on its axis. -/
theorem layer1_mem_block (t : Fin cfg0.N) (i : S100000x64.Idx) :
    i ∈ ((cfg0.win 5).blk t).view.set
      ↔ ∀ a : Fin 2, win0_5.index t a * S5000x64.size a ≤ (i a).val
          ∧ (i a).val < win0_5.index t a * S5000x64.size a + S5000x64.size a := by
  show i ∈ ((View.whole main_v24).slice (win0_5.rect t)).set ↔ _
  rw [View.set_slice_whole, Rect.mem_set_unit]
  exact Iff.rfl

/-- Row r of the output lies in the block of point r / 5000, and every point writes its block back. -/
theorem layer1_cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have ht : (i 0).val / 5000 < cfg0.N := by rw [show cfg0.N = 20 from N_0]; omega
  obtain ⟨-, -, -, -, -, -, -, -, -, -, e50, e51⟩ := layer1_blocks_at ⟨(i 0).val / 5000, ht⟩
  refine ⟨⟨(i 0).val / 5000, ht⟩, flush0_5 _, ?_⟩
  rw [layer1_mem_block]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, ht⟩ (1 : Fin 2) * 64 ≤ (i 1).val
      ∧ (i 1).val < win0_5.index ⟨(i 0).val / 5000, ht⟩ (1 : Fin 2) * 64 + 64
    rw [e51]
    omega

/-- After the region the output array is the layer of the five input arrays as the region finds them. -/
theorem layer1_array (c : Dev nD) :
    (dat0 (F := Ideal) V c).arrAt 5 cfg0.N
      = Cert.Val.lin1 (V c main_v20) (V c main_arg0) (V c main_v21) (V c main_v22) (V c main_v23) :=
  (dat0 (F := Ideal) V c).arrAt_eq_of_cover 5
    (Cert.Val.lin1 (V c main_v20) (V c main_arg0) (V c main_v21) (V c main_v22) (V c main_v23))
    (fun t _ => layer1_flushed V c t) layer1_cover

end Cert.KernelIdeal.HandVal

end
-- ==== Proof.KI.R1Out.lean ====
/-
  What the batch statistics region leaves in its two output arrays. Each output is one block, its whole array of
  1 × 64, written back once, at the last grid point, from the buffer the body has just stored the final running sum
  into. So each array ends holding that sum: the column sums after point 19, and the column sums of the squares.
-/
import proofs.«129360_j3092376453140_1_alg».proof.Proof.KI.R1
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The last grid point. -/
abbrev t1_19 : Fin cfg1.N := ⟨19, by rw [show cfg1.N = 20 from N_1]; decide⟩

/-- The final running sums, as contents of the two output arrays. -/
def sumOut1 (c : Dev nD) : Buf (Elt F) ((c : Thread nD τ).loc main_v25_0) := acc1 V c t1_19
def sumsqOut1 (c : Dev nD) : Buf (Elt F) ((c : Thread nD τ).loc main_v25_1) := accsq1 V c t1_19

/-- The one write-back of output 1, at the last point, writes the final sum: the block read off the array at block
    index (0, 0) is the array. -/
theorem flushed1_1 (c : Dev nD) (t : Fin cfg1.N) (hf : (cfg1.win 1).flush t = true) :
    (dat1 V c).flushed 1 t = ((cfg1.win 1).blk t).view.read (Elt F) (sumOut1 V c) := by
  have hN : cfg1.N = 20 := N_1
  have h19 : t.val = 19 := by have := (flush1_1 t).mp hf; have := t.isLt; omega
  obtain rfl : t = t1_19 := Fin.ext h19
  show (cfg1.win 1).cut (grid1.coords t1_19) ((dat1 V c).after 1 t1_19) = _
  rw [after1_1]
  have hz : (fun a => win1_1.index t1_19 a * main_v25_0.ty.shape.size a) = fun _ => 0 := funext fun a => by fin_cases a <;> decide
  exact (Memref.read_access_unit_zero (Elt F) main_v25_0 hz (fun a => by rw [congrFun hz a]; simp) (sumOut1 V c)).symm

/-- That block is the whole array. -/
theorem cover1_1 (c : Dev nD) (i : ((cfg1.win 1).arr.view.loc (c.tc : Thread nD τ)).2.ty.Idx) :
    ∃ t : Fin cfg1.N, (cfg1.win 1).flush t = true ∧ i ∈ ((cfg1.win 1).blk t).view.set := by
  refine ⟨t1_19, (flush1_1 t1_19).mpr rfl, ?_⟩
  show i ∈ ((View.whole main_v25_0).slice (win1_1.rect t1_19)).set
  rw [View.set_slice_whole, Rect.mem_set_unit]
  intro a
  have h0 : (i 0 : Nat) < 1 := (i 0).isLt
  have h1 : (i 1 : Nat) < 64 := (i 1).isLt
  match a with
  | ⟨0, _⟩ =>
    show win1_1.index t1_19 0 * win1_1.size 0 ≤ (i 0 : Nat) ∧ (i 0 : Nat) < win1_1.index t1_19 0 * win1_1.size 0 + win1_1.xsize (grid1.coords t1_19) 0
    rw [show win1_1.index t1_19 0 * win1_1.size 0 = 0 from by decide +kernel, show win1_1.xsize (grid1.coords t1_19) 0 = 1 from by decide +kernel]
    omega
  | ⟨1, _⟩ =>
    show win1_1.index t1_19 1 * win1_1.size 1 ≤ (i 1 : Nat) ∧ (i 1 : Nat) < win1_1.index t1_19 1 * win1_1.size 1 + win1_1.xsize (grid1.coords t1_19) 1
    rw [show win1_1.index t1_19 1 * win1_1.size 1 = 0 from by decide +kernel, show win1_1.xsize (grid1.coords t1_19) 1 = 64 from by decide +kernel]
    omega

/-- So the array ends holding the final sum. -/
theorem arrAt1_out1 (c : Dev nD) : (dat1 V c).arrAt 1 cfg1.N = sumOut1 V c :=
  (dat1 V c).arrAt_eq_of_cover 1 (sumOut1 V c) (flushed1_1 V c) (cover1_1 c)

/-- The one write-back of output 2, at the last point, writes the final sum: the block read off the array at block
    index (0, 0) is the array. -/
theorem flushed1_2 (c : Dev nD) (t : Fin cfg1.N) (hf : (cfg1.win 2).flush t = true) :
    (dat1 V c).flushed 2 t = ((cfg1.win 2).blk t).view.read (Elt F) (sumsqOut1 V c) := by
  have hN : cfg1.N = 20 := N_1
  have h19 : t.val = 19 := by have := (flush1_2 t).mp hf; have := t.isLt; omega
  obtain rfl : t = t1_19 := Fin.ext h19
  show (cfg1.win 2).cut (grid1.coords t1_19) ((dat1 V c).after 2 t1_19) = _
  rw [after1_2]
  have hz : (fun a => win1_2.index t1_19 a * main_v25_1.ty.shape.size a) = fun _ => 0 := funext fun a => by fin_cases a <;> decide
  exact (Memref.read_access_unit_zero (Elt F) main_v25_1 hz (fun a => by rw [congrFun hz a]; simp) (sumsqOut1 V c)).symm

/-- That block is the whole array. -/
theorem cover1_2 (c : Dev nD) (i : ((cfg1.win 2).arr.view.loc (c.tc : Thread nD τ)).2.ty.Idx) :
    ∃ t : Fin cfg1.N, (cfg1.win 2).flush t = true ∧ i ∈ ((cfg1.win 2).blk t).view.set := by
  refine ⟨t1_19, (flush1_2 t1_19).mpr rfl, ?_⟩
  show i ∈ ((View.whole main_v25_1).slice (win1_2.rect t1_19)).set
  rw [View.set_slice_whole, Rect.mem_set_unit]
  intro a
  have h0 : (i 0 : Nat) < 1 := (i 0).isLt
  have h1 : (i 1 : Nat) < 64 := (i 1).isLt
  match a with
  | ⟨0, _⟩ =>
    show win1_2.index t1_19 0 * win1_2.size 0 ≤ (i 0 : Nat) ∧ (i 0 : Nat) < win1_2.index t1_19 0 * win1_2.size 0 + win1_2.xsize (grid1.coords t1_19) 0
    rw [show win1_2.index t1_19 0 * win1_2.size 0 = 0 from by decide +kernel, show win1_2.xsize (grid1.coords t1_19) 0 = 1 from by decide +kernel]
    omega
  | ⟨1, _⟩ =>
    show win1_2.index t1_19 1 * win1_2.size 1 ≤ (i 1 : Nat) ∧ (i 1 : Nat) < win1_2.index t1_19 1 * win1_2.size 1 + win1_2.xsize (grid1.coords t1_19) 1
    rw [show win1_2.index t1_19 1 * win1_2.size 1 = 0 from by decide +kernel, show win1_2.xsize (grid1.coords t1_19) 1 = 64 from by decide +kernel]
    omega

/-- So the array ends holding the final sum. -/
theorem arrAt1_out2 (c : Dev nD) : (dat1 V c).arrAt 2 cfg1.N = sumsqOut1 V c :=
  (dat1 V c).arrAt_eq_of_cover 2 (sumsqOut1 V c) (flushed1_2 V c) (cover1_2 c)

end Cert.KernelIdeal.Hand

end
-- ==== Proof.KI.Val1.lean ====
/-
  The batch statistics region's value, read on the extended reals. The running sums the region keeps — zero, plus
  each block's column sums in the order of the grid points, and the same for the squares — are, column by column, the
  accumulators of the specification (zero, then one block of 5000 consecutive rows added at a time). Proved by
  induction on the grid point from three readings: a payload of the body at a column (the sum so far plus a sum over
  the block's 5000 rows), the zero row (zero), and row r of block n as row 5000 n + r of the array. So the region
  leaves the specification's column sums, and column sums of squares, in its two output arrays.
-/
import proofs.«129360_j3092376453140_1_alg».proof.Proof.KI.R1Out
import proofs.«129360_j3092376453140_1_alg».proof.Proof.Val.Spec
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.HandVal

open Cert.KernelIdeal Cert.KernelIdeal.Gen Cert.KernelIdeal.GenP Cert.KernelIdeal.Hand
open Idealize.ShloMosaic Idealize.ShloMosaic.TcCoe Idealize.ShloMosaic.ValueIdx
open Idealize.SL Idealize.SL.Sem
open Idealize.ShloMosaic.Pipeline (Dat Cfg Window)

/-! ## The body's two payloads at a column, read on the extended reals -/

/-- The zero row the first running sum starts from reads zero everywhere; -/
theorem pay1_apply (i : S1x64.Idx) : k1_pay1 (F := Ideal) i = 0 := by
  unfold k1_pay1
  rw [shapeCast_self]
  exact Ideal.ofBits_zero_f32

/-- so does the second's. -/
theorem pay2_apply (i : S1x64.Idx) : k1_pay2 (F := Ideal) i = 0 := by
  unfold k1_pay2
  rw [shapeCast_self]
  exact Ideal.ofBits_zero_f32

/-- The index the column reduction reads at row r of column j. -/
theorem lift1 (r : Fin 5000) (j : Fin 64) : reduces_S5000x64_S64.lift (ix1 j) r = ix2 r j := by
  funext a
  match a with
  | ⟨0, _⟩ => exact Fin.ext rfl
  | ⟨1, _⟩ => exact Fin.ext rfl

/-- One step of the first running sum, at column j: the sum so far plus the block's column sum. -/
theorem pay4_apply (x : Vec Ideal S5000x64 .f32) (s : Vec Ideal S1x64 .f32) (u : Fin 1) (j : Fin 64) :
    k1_pay4 x s (ix2 u j) = s (ix2 u j) + ∑ r : Fin 5000, x (ix2 r j) := by
  unfold k1_pay4 k1_pay3
  rw [shapeCast_self, addf_apply, shapeCast_a_1a_apply, shapeCast_self]
  refine congrArg (s (ix2 u j) + ·) ?_
  refine (Ideal.multiReduction_add_single _ _ _ _ _ _).trans ?_
  exact Finset.sum_congr rfl fun r _ => congrArg x (lift1 r j)

/-- One step of the second, at column j: the sum so far plus the column sum of the block's squares. -/
theorem pay5_apply (x : Vec Ideal S5000x64 .f32) (s : Vec Ideal S1x64 .f32) (u : Fin 1) (j : Fin 64) :
    k1_pay5 x s (ix2 u j) = s (ix2 u j) + ∑ r : Fin 5000, x (ix2 r j) * x (ix2 r j) := by
  unfold k1_pay5 k1_pay3
  rw [shapeCast_self, addf_apply, shapeCast_a_1a_apply, shapeCast_self]
  refine congrArg (s (ix2 u j) + ·) ?_
  refine (Ideal.multiReduction_add_single _ _ _ _ _ _).trans ?_
  exact Finset.sum_congr rfl fun r _ => by rw [mulf_apply, lift1 r j]

/-! ## The blocks' rows in the array -/

variable (V : (c : Dev nD) → (b : Ref sig .tc) → Buf (Elt Ideal) ((c : Thread nD τ).loc b))

/-- The input window's block index at point t is (t, 0). -/
theorem index1_0 : ∀ t : Fin cfg1.N, win1_0.index t 0 = t.val ∧ win1_0.index t 1 = 0 :=
  (by decide +kernel : ∀ t : Fin grid1.N, win1_0.index t 0 = t.val ∧ win1_0.index t 1 = 0)

/-- Row r of block n is row 5000 n + r of the array. -/
theorem iblk1_apply (c : Dev nD) (n : ℕ) (hn : n < 20) (h : n < cfg1.N) (r : Fin 5000) (j : Fin 64) :
    iblk1 V c 0 ⟨n, h⟩ (ix2 r j)
      = V c main_v24 (ix2 (⟨5000 * n + r.val, by have := r.isLt; omega⟩ : Fin 100000) j) := by
  unfold iblk1
  refine ((View.read_apply _ _).trans (cast_eq _ _)).trans ?_
  refine congrArg (V c main_v24) ?_
  funext a
  apply Fin.ext
  match a with
  | ⟨0, _⟩ =>
    show ((win1_0.rect ⟨n, h⟩).emb (ix2 r j) 0 : ℕ) = 5000 * n + r.val
    rw [win1_0.rect_emb_val, (index1_0 ⟨n, h⟩).1]
    show n * 5000 + r.val = 5000 * n + r.val
    omega
  | ⟨1, _⟩ =>
    show ((win1_0.rect ⟨n, h⟩).emb (ix2 r j) 1 : ℕ) = j.val
    rw [win1_0.rect_emb_val, (index1_0 ⟨n, h⟩).2]
    show 0 * 64 + j.val = j.val
    omega

/-! ## The running sums are the specification's accumulators -/

/-- After point n the first running sum, at column j, is the accumulator after n + 1 blocks. -/
theorem acc1_eq (c : Dev nD) : ∀ (n : ℕ) (h : n < cfg1.N) (u : Fin 1) (j : Fin 64),
    acc1 V c ⟨n, h⟩ (ix2 u j) = Cert.Val.colAcc (V c main_v24) j (n + 1)
  | 0, h, u, j => by
    rw [acc1_zero V c h, pay4_apply, pay1_apply, zero_add]
    show _ = Cert.Val.colAcc (V c main_v24) j 0 + (if hn : 0 < 20 then Cert.Val.blockSum (V c main_v24) ⟨0, hn⟩ j else 0)
    rw [dif_pos (by decide)]
    show _ = 0 + Cert.Val.blockSum (V c main_v24) ⟨0, by decide⟩ j
    rw [zero_add]
    unfold Cert.Val.blockSum
    exact Finset.sum_congr rfl fun r _ => iblk1_apply V c 0 (by decide) h r j
  | n + 1, h, u, j => by
    have hn : n + 1 < 20 := lt_of_lt_of_eq h N_1
    rw [acc1_succ V c n h, pay4_apply, acc1_eq c n _ u j]
    show _ = Cert.Val.colAcc (V c main_v24) j (n + 1) + (if hn : n + 1 < 20 then Cert.Val.blockSum (V c main_v24) ⟨n + 1, hn⟩ j else 0)
    rw [dif_pos hn]
    refine congrArg (Cert.Val.colAcc (V c main_v24) j (n + 1) + ·) ?_
    unfold Cert.Val.blockSum
    exact Finset.sum_congr rfl fun r _ => iblk1_apply V c (n + 1) hn h r j

/-- The input array, as an array of extended reals. -/
abbrev arr24 (c : Dev nD) : Cert.Val.S100000x64.Idx → EReal := V c main_v24

/-- The same for the sums of squares, over the array of squares. -/
theorem accsq1_eq (c : Dev nD) : ∀ (n : ℕ) (h : n < cfg1.N) (u : Fin 1) (j : Fin 64),
    accsq1 V c ⟨n, h⟩ (ix2 u j) = Cert.Val.colAcc (fun i => arr24 V c i * arr24 V c i) j (n + 1)
  | 0, h, u, j => by
    rw [accsq1_zero V c h, pay5_apply, pay2_apply, zero_add]
    show _ = Cert.Val.colAcc (fun i => arr24 V c i * arr24 V c i) j 0
      + (if hn : 0 < 20 then Cert.Val.blockSum (fun i => arr24 V c i * arr24 V c i) ⟨0, hn⟩ j else 0)
    rw [dif_pos (by decide)]
    show _ = 0 + Cert.Val.blockSum (fun i => arr24 V c i * arr24 V c i) ⟨0, by decide⟩ j
    rw [zero_add]
    unfold Cert.Val.blockSum
    exact Finset.sum_congr rfl fun r _ => by rw [iblk1_apply V c 0 (by decide) h r j]
  | n + 1, h, u, j => by
    have hn : n + 1 < 20 := lt_of_lt_of_eq h N_1
    rw [accsq1_succ V c n h, pay5_apply, accsq1_eq c n _ u j]
    show _ = Cert.Val.colAcc (fun i => arr24 V c i * arr24 V c i) j (n + 1)
      + (if hn : n + 1 < 20 then Cert.Val.blockSum (fun i => arr24 V c i * arr24 V c i) ⟨n + 1, hn⟩ j else 0)
    rw [dif_pos hn]
    refine congrArg (Cert.Val.colAcc (fun i => arr24 V c i * arr24 V c i) j (n + 1) + ·) ?_
    unfold Cert.Val.blockSum
    exact Finset.sum_congr rfl fun r _ => by rw [iblk1_apply V c (n + 1) hn h r j]

/-! ## What the region leaves, as the specification's column sums -/

/-- The first output array ends holding the column sums of the input array, accumulated block by block. -/
theorem sum_array (c : Dev nD) : (dat1 (F := Ideal) V c).arrAt 1 cfg1.N = Cert.Val.colsum (V c main_v24) := by
  rw [arrAt1_out1]
  funext i
  rw [eq_ix2 i]
  exact acc1_eq V c 19 _ (i 0) (i 1)

/-- The second ends holding the column sums of its squares. -/
theorem sumsq_array (c : Dev nD) : (dat1 (F := Ideal) V c).arrAt 2 cfg1.N = Cert.Val.colsumsq (V c main_v24) := by
  rw [arrAt1_out2]
  funext i
  rw [eq_ix2 i]
  exact accsq1_eq V c 19 _ (i 0) (i 1)

end Cert.KernelIdeal.HandVal

end
-- ==== Proof.KI.Val2.lean ====
/-
  The normalisation as one function of whole arrays. The region walks 20 blocks of 5000 rows; at block t the body
  stores max((((h − mean) · rsqrt(var + eps)) · scale) + shift, 0) into rows 5000t … 5000t + 4999 of the output, the
  mean, variance, scale and shift each one row laid along every row of the block. Entry (p, q) of a block depends on
  entry (p, q) of the row block and on entry q of the four rows; row p of block t is row 5000t + p of the array. So
  every block written back is the restriction of one function of the five input arrays, and the 20 blocks cover the
  output: after the region the output array is that function.
-/
import proofs.«129360_j3092376453140_1_alg».proof.Proof.KI.R2
import proofs.«129360_j3092376453140_1_alg».proof.Proof.Val.Spec
import proofs.«129360_j3092376453140_1_alg».proof.Proof.KI.ValBase

set_option maxRecDepth 16384

noncomputable section

namespace Cert.KernelIdeal.HandVal

open Cert.KernelIdeal Cert.KernelIdeal.Gen Cert.KernelIdeal.GenP Cert.KernelIdeal.Hand
open Idealize.ShloMosaic Idealize.ShloMosaic.TcCoe Idealize.ShloMosaic.ValueIdx
open Idealize.ShloMosaic.Pipeline (Dat)
open scoped BigOperators

/-! ## The body's value at one entry -/

/-- The normalised and clamped value on five blocks at entry (p, q): the row block's entry less the mean row's entry
    q, times the reciprocal root of the variance row's entry q plus eps, times the scale row's entry q, plus the shift
    row's entry q, and then the larger of that and zero. -/
theorem norm_pay_apply (h : Vec Ideal S5000x64 .f32) (var mean scale shift : Vec Ideal S1x64 .f32)
    (p : Fin 5000) (q : Fin 64) :
    k2_pay1 (F := Ideal) h var mean scale shift (ix2 p q)
      = max ((((h (ix2 p q) - mean (ix2 0 q)) * Ideal.rsqrt (var (ix2 0 q) + Ideal.ofBits .f32 0x3727C5AC#32))
          * scale (ix2 0 q)) + shift (ix2 0 q)) 0 := by
  unfold k2_pay1
  simp only [shapeCast_self]
  rw [maximumf_apply, addf_apply, mulf_apply, mulf_apply, subf_apply]
  rw [rowBroadcast_apply (m := 5000) (n := 64) mean, rowBroadcast_apply (m := 5000) (n := 64) scale,
    rowBroadcast_apply (m := 5000) (n := 64) shift, rowBroadcast_apply (m := 5000) (n := 64)]
  show max ((((h (ix2 p q) - mean (ix2 0 q)) * Ideal.rsqrt (var (ix2 0 q) + Ideal.ofBits .f32 0x3727C5AC#32))
      * scale (ix2 0 q)) + shift (ix2 0 q)) (Ideal.ofBits .f32 0x00000000#32) = _
  rw [Ideal.ofBits_zero_f32]

/-- The same entry against whole arrays: when entry (p, q) of the row block is entry (r, q) of the array H, and the
    four row blocks are the arrays in column q, the body's entry (p, q) is the normalisation's entry (r, q). -/
theorem norm_entry (H : Cert.Val.S100000x64.Idx → EReal) (Mean Var Scale Shift : Cert.Val.S1x64.Idx → EReal)
    (h : Vec Ideal S5000x64 .f32) (var mean scale shift : Vec Ideal S1x64 .f32)
    (p : Fin 5000) (q : Fin 64) (r : Fin 100000)
    (hh : h (ix2 p q) = H (ix2 r q)) (hmean : mean (ix2 0 q) = Mean (ix2 0 q)) (hvar : var (ix2 0 q) = Var (ix2 0 q))
    (hscale : scale (ix2 0 q) = Scale (ix2 0 q)) (hshift : shift (ix2 0 q) = Shift (ix2 0 q)) :
    k2_pay1 (F := Ideal) h var mean scale shift (ix2 p q) = Cert.Val.bnrelu H Mean Var Scale Shift (ix2 r q) := by
  rw [norm_pay_apply, hh, hmean, hvar, hscale, hshift]
  rfl

/-! ## From blocks to the array -/

variable (V : (c : Dev nD) → (b : Ref sig .tc) → Buf (Elt Ideal) ((c : Thread nD τ).loc b))

/-- Where each window's block sits at grid point t, decided over the 20 points: the row-blocked input and the output
    at block (t, 0); the four rows at block (0, 0). -/
theorem norm_blocks_at : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t — rows 5000t … 5000t + 4999 — of the normalisation of the arrays as the
    region finds them. -/
theorem norm_flushed (c : Dev nD) (t : Fin cfg2.N) :
    (dat2 (F := Ideal) V c).flushed 5 t
      = ((cfg2.win 5).blk t).view.read (Elt Ideal)
          (Cert.Val.bnrelu (V c main_v24) (V c main_v27) (V c main_v33) (V c main_v34) (V c main_v35)) := by
  show (cfg2.win 5).cut (grid2.coords t) ((dat2 V c).after 5 t) = _
  rw [after2_5]
  unfold normBlock
  rw [View.canon_unit_zero origin2]
  simp only [View.ld_unit_zero (S := S5000x64) origin2, View.ld_unit_zero (S := S1x64) origin2]
  obtain ⟨e00, e01, e10, e11, e20, e21, e30, e31, e40, e41, e50, e51⟩ := norm_blocks_at t
  have hN : t.val < 20 := Nat.lt_of_lt_of_eq t.isLt N_2
  funext j
  have hp : (j 0).val < 5000 := (j 0).isLt
  have hq : (j 1).val < 64 := (j 1).isLt
  have hj : (cfg2.win 5).xinj (grid2.coords t) j = ix2 (⟨(j 0).val, hp⟩ : Fin 5000) (⟨(j 1).val, hq⟩ : Fin 64) :=
    funext fun a => match a with | ⟨0, _⟩ => rfl | ⟨1, _⟩ => rfl
  have hi : ((cfg2.win 5).blk t).view.emb j
      = ix2 (⟨5000 * t.val + (j 0).val, by omega⟩ : Fin 100000) (⟨(j 1).val, hq⟩ : Fin 64) :=
    funext fun a => Fin.ext (by
      match a with
      | ⟨0, _⟩ => show win2_5.index t (0 : Fin 2) * 5000 + 1 * (j 0).val = 5000 * t.val + (j 0).val; omega
      | ⟨1, _⟩ => show win2_5.index t (1 : Fin 2) * 64 + 1 * (j 1).val = (j 1).val; omega)
  show k2_pay1 (rows2 V c 0 t) (rows2 V c 2 t) (rows2 V c 1 t) (rows2 V c 3 t) (rows2 V c 4 t)
      ((cfg2.win 5).xinj (grid2.coords t) j)
    = Cert.Val.bnrelu (V c main_v24) (V c main_v27) (V c main_v33) (V c main_v34) (V c main_v35)
      (((cfg2.win 5).blk t).view.emb j)
  rw [hj, hi]
  refine norm_entry _ _ _ _ _ _ _ _ _ _ _ _ _ ?_ ?_ ?_ ?_ ?_
  · show V c main_v24 (((cfg2.win 0).blk t).view.emb (ix2 (⟨(j 0).val, hp⟩ : Fin 5000) (⟨(j 1).val, hq⟩ : Fin 64))) = _
    refine congrArg (V c main_v24) (funext fun a => Fin.ext ?_)
    match a with
    | ⟨0, _⟩ => show win2_0.index t (0 : Fin 2) * 5000 + 1 * (j 0).val = 5000 * t.val + (j 0).val; omega
    | ⟨1, _⟩ => show win2_0.index t (1 : Fin 2) * 64 + 1 * (j 1).val = (j 1).val; omega
  · show V c main_v27 (((cfg2.win 1).blk t).view.emb (ix2 (0 : Fin 1) (⟨(j 1).val, hq⟩ : Fin 64))) = _
    refine congrArg (V c main_v27) (funext fun a => Fin.ext ?_)
    match a with
    | ⟨0, _⟩ => show win2_1.index t (0 : Fin 2) * 1 + 1 * 0 = 0; omega
    | ⟨1, _⟩ => show win2_1.index t (1 : Fin 2) * 64 + 1 * (j 1).val = (j 1).val; omega
  · show V c main_v33 (((cfg2.win 2).blk t).view.emb (ix2 (0 : Fin 1) (⟨(j 1).val, hq⟩ : Fin 64))) = _
    refine congrArg (V c main_v33) (funext fun a => Fin.ext ?_)
    match a with
    | ⟨0, _⟩ => show win2_2.index t (0 : Fin 2) * 1 + 1 * 0 = 0; omega
    | ⟨1, _⟩ => show win2_2.index t (1 : Fin 2) * 64 + 1 * (j 1).val = (j 1).val; omega
  · show V c main_v34 (((cfg2.win 3).blk t).view.emb (ix2 (0 : Fin 1) (⟨(j 1).val, hq⟩ : Fin 64))) = _
    refine congrArg (V c main_v34) (funext fun a => Fin.ext ?_)
    match a with
    | ⟨0, _⟩ => show win2_3.index t (0 : Fin 2) * 1 + 1 * 0 = 0; omega
    | ⟨1, _⟩ => show win2_3.index t (1 : Fin 2) * 64 + 1 * (j 1).val = (j 1).val; omega
  · show V c main_v35 (((cfg2.win 4).blk t).view.emb (ix2 (0 : Fin 1) (⟨(j 1).val, hq⟩ : Fin 64))) = _
    refine congrArg (V c main_v35) (funext fun a => Fin.ext ?_)
    match a with
    | ⟨0, _⟩ => show win2_4.index t (0 : Fin 2) * 1 + 1 * 0 = 0; omega
    | ⟨1, _⟩ => show win2_4.index t (1 : Fin 2) * 64 + 1 * (j 1).val = (j 1).val; omega

/-- An index of the output is in point t's block iff each coordinate is in the block's range on its axis. -/
theorem norm_mem_block (t : Fin cfg2.N) (i : S100000x64.Idx) :
    i ∈ ((cfg2.win 5).blk t).view.set
      ↔ ∀ a : Fin 2, win2_5.index t a * S5000x64.size a ≤ (i a).val
          ∧ (i a).val < win2_5.index t a * S5000x64.size a + S5000x64.size a := by
  show i ∈ ((View.whole main_v36).slice (win2_5.rect t)).set ↔ _
  rw [View.set_slice_whole, Rect.mem_set_unit]
  exact Iff.rfl

/-- Row r of the output lies in the block of point r / 5000, and every point writes its block back. -/
theorem norm_cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have ht : (i 0).val / 5000 < cfg2.N := by rw [show cfg2.N = 20 from N_2]; omega
  obtain ⟨-, -, -, -, -, -, -, -, -, -, e50, e51⟩ := norm_blocks_at ⟨(i 0).val / 5000, ht⟩
  refine ⟨⟨(i 0).val / 5000, ht⟩, flush2_5 _, ?_⟩
  rw [norm_mem_block]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win2_5.index ⟨(i 0).val / 5000, ht⟩ (1 : Fin 2) * 64 ≤ (i 1).val
      ∧ (i 1).val < win2_5.index ⟨(i 0).val / 5000, ht⟩ (1 : Fin 2) * 64 + 64
    rw [e51]
    omega

/-- After the region the output array is the normalisation of the five input arrays as the region finds them. -/
theorem norm_array (c : Dev nD) :
    (dat2 (F := Ideal) V c).arrAt 5 cfg2.N
      = Cert.Val.bnrelu (V c main_v24) (V c main_v27) (V c main_v33) (V c main_v34) (V c main_v35) :=
  (dat2 (F := Ideal) V c).arrAt_eq_of_cover 5
    (Cert.Val.bnrelu (V c main_v24) (V c main_v27) (V c main_v33) (V c main_v34) (V c main_v35))
    (fun t _ => norm_flushed V c t) norm_cover

end Cert.KernelIdeal.HandVal

end
-- ==== Proof.KI.Val3.lean ====
/-
  The second dense layer and the classifier as functions of whole arrays. The region walks 20 blocks of 5000 rows; at
  block t the body stores (aggregated rows · left weights + hidden rows · right weights) + bias into rows 5000t …
  5000t + 4999 of the embedding, and that same value times the classifier's weights, plus the classifier's bias, into
  the same rows of the logits. Entry (p, q) of an embedding block depends on row p of the two row blocks, column q of
  the two weight matrices and entry q of the bias row; entry (p, q) of a logits block depends on the whole of row p of
  the embedding block, column q of the classifier's weights and entry q of its bias row. Row p of block t is row
  5000t + p of the array. So every block written back is the restriction of one function of the input arrays, and the
  20 blocks cover each output: after the region the two output arrays are those functions.
-/
import proofs.«129360_j3092376453140_1_alg».proof.Proof.KI.R3
import proofs.«129360_j3092376453140_1_alg».proof.Proof.Val.Spec
import proofs.«129360_j3092376453140_1_alg».proof.Proof.KI.ValBase

set_option maxRecDepth 16384

noncomputable section

namespace Cert.KernelIdeal.HandVal

open Cert.KernelIdeal Cert.KernelIdeal.Gen Cert.KernelIdeal.GenP Cert.KernelIdeal.Hand
open Idealize.ShloMosaic Idealize.ShloMosaic.TcCoe Idealize.ShloMosaic.ValueIdx
open Idealize.ShloMosaic.Pipeline (Dat)
open scoped BigOperators

/-! ## The body's values at one entry -/

/-- The layer's value on five blocks at entry (p, q): row p of the aggregated block times column q of the left
    weights, plus row p of the hidden block times column q of the right weights, plus entry q of the bias row.
    Rounding the operands to the narrower format changes nothing at the ideal values. -/
theorem emb_pay_apply (a h : Vec Ideal S5000x64 .f32) (wl wr : Vec Ideal S64x16 .f32) (b : Vec Ideal S1x16 .f32)
    (p : Fin 5000) (q : Fin 16) :
    k3_pay1 (F := Ideal) a h wl wr b (ix2 p q)
      = ((∑ k : Fin 64, a (ix2 p k) * wl (ix2 k q)) + (∑ k : Fin 64, h (ix2 p k) * wr (ix2 k q))) + b (ix2 0 q) := by
  unfold k3_pay1
  simp only [shapeCast_self]
  rw [addf_apply, addf_apply]
  refine congrArg₂ (· + ·) (congrArg₂ (· + ·) ?_ ?_) ?_
  · exact matmul_plain_zero_apply (m := 5000) (k := 64) (n := 16) none (truncf .bf16 a bitsLt_bf16_f32) (truncf .bf16 wl bitsLt_bf16_f32) p q
  · exact matmul_plain_zero_apply (m := 5000) (k := 64) (n := 16) none (truncf .bf16 h bitsLt_bf16_f32) (truncf .bf16 wr bitsLt_bf16_f32) p q
  · exact rowBroadcast_apply (m := 5000) (n := 16) b broadcasts_S1x16_S5000x16 p q

/-- The classifier's value at entry (p, q): row p of the layer's value times column q of the classifier's weights,
    plus entry q of the classifier's bias row. -/
theorem logit_pay_apply (a h : Vec Ideal S5000x64 .f32) (wl wr : Vec Ideal S64x16 .f32) (b : Vec Ideal S1x16 .f32)
    (wc : Vec Ideal S16x2 .f32) (bc : Vec Ideal S1x2 .f32) (p : Fin 5000) (q : Fin 2) :
    k3_pay2 (F := Ideal) a h wl wr b wc bc (ix2 p q)
      = (∑ k : Fin 16, k3_pay1 (F := Ideal) a h wl wr b (ix2 p k) * wc (ix2 k q)) + bc (ix2 0 q) := by
  unfold k3_pay2
  simp only [shapeCast_self]
  rw [addf_apply]
  refine congrArg₂ (· + ·) ?_ ?_
  · exact matmul_plain_zero_apply (m := 5000) (k := 16) (n := 2) none
      (truncf .bf16 (k3_pay1 (F := Ideal) a h wl wr b) bitsLt_bf16_f32) (truncf .bf16 wc bitsLt_bf16_f32) p q
  · exact rowBroadcast_apply (m := 5000) (n := 2) bc broadcasts_S1x2_S5000x2 p q

/-- The layer's entry against whole arrays: when row p of the two row blocks is row r of the arrays A and H, and the
    weight and bias blocks are the arrays Wl, Wr, B in column q, the body's entry (p, q) is the layer's entry (r, q). -/
theorem emb_entry (A H : Cert.Val.S100000x64.Idx → EReal) (Wl Wr : Cert.Val.S64x16.Idx → EReal) (B : Cert.Val.S1x16.Idx → EReal)
    (a h : Vec Ideal S5000x64 .f32) (wl wr : Vec Ideal S64x16 .f32) (b : Vec Ideal S1x16 .f32)
    (p : Fin 5000) (q : Fin 16) (r : Fin 100000)
    (ha : ∀ k : Fin 64, a (ix2 p k) = A (ix2 r k)) (hh : ∀ k : Fin 64, h (ix2 p k) = H (ix2 r k))
    (hwl : ∀ k : Fin 64, wl (ix2 k q) = Wl (ix2 k q)) (hwr : ∀ k : Fin 64, wr (ix2 k q) = Wr (ix2 k q))
    (hb : b (ix2 0 q) = B (ix2 0 q)) :
    k3_pay1 (F := Ideal) a h wl wr b (ix2 p q) = Cert.Val.lin2 A H Wl Wr B (ix2 r q) := by
  rw [emb_pay_apply]
  show _ = ((∑ k : Fin 64, A (ix2 r k) * Wl (ix2 k q)) + (∑ k : Fin 64, H (ix2 r k) * Wr (ix2 k q))) + B (ix2 0 q)
  rw [hb]
  refine congrArg₂ (· + ·) (congrArg₂ (· + ·) ?_ ?_) rfl
  · exact Finset.sum_congr rfl fun k _ => by rw [ha k, hwl k]
  · exact Finset.sum_congr rfl fun k _ => by rw [hh k, hwr k]

/-- The classifier's entry against whole arrays: with the layer's blocks as above in every column, and the
    classifier's weight and bias blocks the arrays Wc, Bc in column q, the body's entry (p, q) is the classifier of
    the layer at entry (r, q). -/
theorem logit_entry (A H : Cert.Val.S100000x64.Idx → EReal) (Wl Wr : Cert.Val.S64x16.Idx → EReal) (B : Cert.Val.S1x16.Idx → EReal)
    (Wc : Cert.Val.S16x2.Idx → EReal) (Bc : Cert.Val.S1x2.Idx → EReal)
    (a h : Vec Ideal S5000x64 .f32) (wl wr : Vec Ideal S64x16 .f32) (b : Vec Ideal S1x16 .f32)
    (wc : Vec Ideal S16x2 .f32) (bc : Vec Ideal S1x2 .f32)
    (p : Fin 5000) (q : Fin 2) (r : Fin 100000)
    (ha : ∀ k : Fin 64, a (ix2 p k) = A (ix2 r k)) (hh : ∀ k : Fin 64, h (ix2 p k) = H (ix2 r k))
    (hwl : ∀ (k : Fin 64) (n : Fin 16), wl (ix2 k n) = Wl (ix2 k n))
    (hwr : ∀ (k : Fin 64) (n : Fin 16), wr (ix2 k n) = Wr (ix2 k n))
    (hb : ∀ n : Fin 16, b (ix2 0 n) = B (ix2 0 n))
    (hwc : ∀ k : Fin 16, wc (ix2 k q) = Wc (ix2 k q)) (hbc : bc (ix2 0 q) = Bc (ix2 0 q)) :
    k3_pay2 (F := Ideal) a h wl wr b wc bc (ix2 p q)
      = Cert.Val.cls (Cert.Val.lin2 A H Wl Wr B) Wc Bc (ix2 r q) := by
  rw [logit_pay_apply]
  show _ = (∑ k : Fin 16, Cert.Val.lin2 A H Wl Wr B (ix2 r k) * Wc (ix2 k q)) + Bc (ix2 0 q)
  rw [hbc]
  refine congrArg₂ (· + ·) ?_ rfl
  exact Finset.sum_congr rfl fun k _ => by
    rw [emb_entry A H Wl Wr B a h wl wr b p k r ha hh (fun k' => hwl k' k) (fun k' => hwr k' k) (hb k), hwc k]

/-! ## The input blocks as parts of their arrays -/

variable (V : (c : Dev nD) → (b : Ref sig .tc) → Buf (Elt Ideal) ((c : Thread nD τ).loc b))

/-- Where each window's block sits at grid point t, decided over the 20 points: the two row-blocked inputs and the
    two outputs at block (t, 0); the weights and the bias rows at block (0, 0). -/
theorem layer2_blocks_at : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0
    ∧ win3_8.index t (0 : Fin 2) = t.val ∧ win3_8.index t (1 : Fin 2) = 0 :=
  (by decide +kernel : ∀ t : Fin grid3.N, _)

/-- There are 20 grid points. -/
theorem layer2_point_lt (t : Fin cfg3.N) : t.val < 20 := Nat.lt_of_lt_of_eq t.isLt N_3

/-- Row p of the aggregated block at point t is row 5000t + p of the aggregated array. -/
theorem agg2_rows (c : Dev nD) (t : Fin cfg3.N) (p : Fin 5000) (k : Fin 64) (r : Fin 100000)
    (hr : r.val = 5000 * t.val + p.val) : rows3 V c 0 t (ix2 p k) = V c main_v48 (ix2 r k) := by
  obtain ⟨e00, e01, -⟩ := layer2_blocks_at t
  show V c main_v48 (((cfg3.win 0).blk t).view.emb (ix2 p k)) = _
  refine congrArg (V c main_v48) (funext fun a => Fin.ext ?_)
  match a with
  | ⟨0, _⟩ => show win3_0.index t (0 : Fin 2) * 5000 + 1 * p.val = r.val; omega
  | ⟨1, _⟩ => show win3_0.index t (1 : Fin 2) * 64 + 1 * k.val = k.val; omega

/-- Row p of the hidden block at point t is row 5000t + p of the hidden array. -/
theorem hidden_rows (c : Dev nD) (t : Fin cfg3.N) (p : Fin 5000) (k : Fin 64) (r : Fin 100000)
    (hr : r.val = 5000 * t.val + p.val) : rows3 V c 1 t (ix2 p k) = V c main_v36 (ix2 r k) := by
  obtain ⟨-, -, e10, e11, -⟩ := layer2_blocks_at t
  show V c main_v36 (((cfg3.win 1).blk t).view.emb (ix2 p k)) = _
  refine congrArg (V c main_v36) (funext fun a => Fin.ext ?_)
  match a with
  | ⟨0, _⟩ => show win3_1.index t (0 : Fin 2) * 5000 + 1 * p.val = r.val; omega
  | ⟨1, _⟩ => show win3_1.index t (1 : Fin 2) * 64 + 1 * k.val = k.val; omega

/-- The left weights' block is the whole array at every point. -/
theorem left2_whole (c : Dev nD) (t : Fin cfg3.N) (k : Fin 64) (n : Fin 16) :
    rows3 V c 2 t (ix2 k n) = V c main_v49 (ix2 k n) := by
  obtain ⟨-, -, -, -, e20, e21, -⟩ := layer2_blocks_at t
  show V c main_v49 (((cfg3.win 2).blk t).view.emb (ix2 k n)) = _
  refine congrArg (V c main_v49) (funext fun a => Fin.ext ?_)
  match a with
  | ⟨0, _⟩ => show win3_2.index t (0 : Fin 2) * 64 + 1 * k.val = k.val; omega
  | ⟨1, _⟩ => show win3_2.index t (1 : Fin 2) * 16 + 1 * n.val = n.val; omega

/-- The bias row's block is the whole array at every point. -/
theorem bias2_whole (c : Dev nD) (t : Fin cfg3.N) (n : Fin 16) :
    rows3 V c 3 t (ix2 (0 : Fin 1) n) = V c main_v52 (ix2 (0 : Fin 1) n) := by
  obtain ⟨-, -, -, -, -, -, e30, e31, -⟩ := layer2_blocks_at t
  show V c main_v52 (((cfg3.win 3).blk t).view.emb (ix2 (0 : Fin 1) n)) = _
  refine congrArg (V c main_v52) (funext fun a => Fin.ext ?_)
  match a with
  | ⟨0, _⟩ => show win3_3.index t (0 : Fin 2) * 1 + 1 * 0 = 0; omega
  | ⟨1, _⟩ => show win3_3.index t (1 : Fin 2) * 16 + 1 * n.val = n.val; omega

/-- The right weights' block is the whole array at every point. -/
theorem right2_whole (c : Dev nD) (t : Fin cfg3.N) (k : Fin 64) (n : Fin 16) :
    rows3 V c 4 t (ix2 k n) = V c main_v50 (ix2 k n) := by
  obtain ⟨-, -, -, -, -, -, -, -, e40, e41, -⟩ := layer2_blocks_at t
  show V c main_v50 (((cfg3.win 4).blk t).view.emb (ix2 k n)) = _
  refine congrArg (V c main_v50) (funext fun a => Fin.ext ?_)
  match a with
  | ⟨0, _⟩ => show win3_4.index t (0 : Fin 2) * 64 + 1 * k.val = k.val; omega
  | ⟨1, _⟩ => show win3_4.index t (1 : Fin 2) * 16 + 1 * n.val = n.val; omega

/-- The classifier's weights' block is the whole array at every point. -/
theorem cls_weights_whole (c : Dev nD) (t : Fin cfg3.N) (k : Fin 16) (n : Fin 2) :
    rows3 V c 5 t (ix2 k n) = V c main_v51 (ix2 k n) := by
  obtain ⟨-, -, -, -, -, -, -, -, -, -, e50, e51, -⟩ := layer2_blocks_at t
  show V c main_v51 (((cfg3.win 5).blk t).view.emb (ix2 k n)) = _
  refine congrArg (V c main_v51) (funext fun a => Fin.ext ?_)
  match a with
  | ⟨0, _⟩ => show win3_5.index t (0 : Fin 2) * 16 + 1 * k.val = k.val; omega
  | ⟨1, _⟩ => show win3_5.index t (1 : Fin 2) * 2 + 1 * n.val = n.val; omega

/-- The classifier's bias row's block is the whole array at every point. -/
theorem cls_bias_whole (c : Dev nD) (t : Fin cfg3.N) (n : Fin 2) :
    rows3 V c 6 t (ix2 (0 : Fin 1) n) = V c main_v53 (ix2 (0 : Fin 1) n) := by
  obtain ⟨-, -, -, -, -, -, -, -, -, -, -, -, e60, e61, -⟩ := layer2_blocks_at t
  show V c main_v53 (((cfg3.win 6).blk t).view.emb (ix2 (0 : Fin 1) n)) = _
  refine congrArg (V c main_v53) (funext fun a => Fin.ext ?_)
  match a with
  | ⟨0, _⟩ => show win3_6.index t (0 : Fin 2) * 1 + 1 * 0 = 0; omega
  | ⟨1, _⟩ => show win3_6.index t (1 : Fin 2) * 2 + 1 * n.val = n.val; omega

/-! ## From blocks to the arrays -/

/-- What point t writes back to the embedding is block t — rows 5000t … 5000t + 4999 — of the layer of the arrays
    as the region finds them. -/
theorem emb_flushed (c : Dev nD) (t : Fin cfg3.N) :
    (dat3 (F := Ideal) V c).flushed 7 t
      = ((cfg3.win 7).blk t).view.read (Elt Ideal)
          (Cert.Val.lin2 (V c main_v48) (V c main_v36) (V c main_v49) (V c main_v50) (V c main_v52)) := by
  show (cfg3.win 7).cut (grid3.coords t) ((dat3 V c).after 7 t) = _
  rw [after3_7]
  unfold embBlock
  rw [View.canon_unit_zero origin2]
  simp only [View.ld_unit_zero (S := S5000x64) origin2, View.ld_unit_zero (S := S64x16) origin2,
    View.ld_unit_zero (S := S1x16) origin2]
  obtain ⟨-, -, -, -, -, -, -, -, -, -, -, -, -, -, e70, e71, -⟩ := layer2_blocks_at t
  have hN : t.val < 20 := layer2_point_lt t
  funext j
  have hp : (j 0).val < 5000 := (j 0).isLt
  have hq : (j 1).val < 16 := (j 1).isLt
  have hj : (cfg3.win 7).xinj (grid3.coords t) j = ix2 (⟨(j 0).val, hp⟩ : Fin 5000) (⟨(j 1).val, hq⟩ : Fin 16) :=
    funext fun a => match a with | ⟨0, _⟩ => rfl | ⟨1, _⟩ => rfl
  have hi : ((cfg3.win 7).blk t).view.emb j
      = ix2 (⟨5000 * t.val + (j 0).val, by omega⟩ : Fin 100000) (⟨(j 1).val, hq⟩ : Fin 16) :=
    funext fun a => Fin.ext (by
      match a with
      | ⟨0, _⟩ => show win3_7.index t (0 : Fin 2) * 5000 + 1 * (j 0).val = 5000 * t.val + (j 0).val; omega
      | ⟨1, _⟩ => show win3_7.index t (1 : Fin 2) * 16 + 1 * (j 1).val = (j 1).val; omega)
  show k3_pay1 (rows3 V c 0 t) (rows3 V c 1 t) (rows3 V c 2 t) (rows3 V c 4 t) (rows3 V c 3 t)
      ((cfg3.win 7).xinj (grid3.coords t) j)
    = Cert.Val.lin2 (V c main_v48) (V c main_v36) (V c main_v49) (V c main_v50) (V c main_v52)
      (((cfg3.win 7).blk t).view.emb j)
  rw [hj, hi]
  exact emb_entry _ _ _ _ _ _ _ _ _ _ _ _ _
    (fun k => agg2_rows V c t _ k _ rfl) (fun k => hidden_rows V c t _ k _ rfl)
    (fun k => left2_whole V c t k _) (fun k => right2_whole V c t k _) (bias2_whole V c t _)

/-- What point t writes back to the logits is block t of the classifier of that layer. -/
theorem logit_flushed (c : Dev nD) (t : Fin cfg3.N) :
    (dat3 (F := Ideal) V c).flushed 8 t
      = ((cfg3.win 8).blk t).view.read (Elt Ideal)
          (Cert.Val.cls (Cert.Val.lin2 (V c main_v48) (V c main_v36) (V c main_v49) (V c main_v50) (V c main_v52))
            (V c main_v51) (V c main_v53)) := by
  show (cfg3.win 8).cut (grid3.coords t) ((dat3 V c).after 8 t) = _
  rw [after3_8]
  unfold logitBlock
  rw [View.canon_unit_zero origin2]
  simp only [View.ld_unit_zero (S := S5000x64) origin2, View.ld_unit_zero (S := S64x16) origin2,
    View.ld_unit_zero (S := S1x16) origin2, View.ld_unit_zero (S := S16x2) origin2,
    View.ld_unit_zero (S := S1x2) origin2]
  obtain ⟨-, -, -, -, -, -, -, -, -, -, -, -, -, -, -, -, e80, e81⟩ := layer2_blocks_at t
  have hN : t.val < 20 := layer2_point_lt t
  funext j
  have hp : (j 0).val < 5000 := (j 0).isLt
  have hq : (j 1).val < 2 := (j 1).isLt
  have hj : (cfg3.win 8).xinj (grid3.coords t) j = ix2 (⟨(j 0).val, hp⟩ : Fin 5000) (⟨(j 1).val, hq⟩ : Fin 2) :=
    funext fun a => match a with | ⟨0, _⟩ => rfl | ⟨1, _⟩ => rfl
  have hi : ((cfg3.win 8).blk t).view.emb j
      = ix2 (⟨5000 * t.val + (j 0).val, by omega⟩ : Fin 100000) (⟨(j 1).val, hq⟩ : Fin 2) :=
    funext fun a => Fin.ext (by
      match a with
      | ⟨0, _⟩ => show win3_8.index t (0 : Fin 2) * 5000 + 1 * (j 0).val = 5000 * t.val + (j 0).val; omega
      | ⟨1, _⟩ => show win3_8.index t (1 : Fin 2) * 2 + 1 * (j 1).val = (j 1).val; omega)
  show k3_pay2 (rows3 V c 0 t) (rows3 V c 1 t) (rows3 V c 2 t) (rows3 V c 4 t) (rows3 V c 3 t) (rows3 V c 5 t)
      (rows3 V c 6 t) ((cfg3.win 8).xinj (grid3.coords t) j)
    = Cert.Val.cls (Cert.Val.lin2 (V c main_v48) (V c main_v36) (V c main_v49) (V c main_v50) (V c main_v52))
        (V c main_v51) (V c main_v53) (((cfg3.win 8).blk t).view.emb j)
  rw [hj, hi]
  exact logit_entry _ _ _ _ _ _ _ _ _ _ _ _ _ _ _ _ _
    (fun k => agg2_rows V c t _ k _ rfl) (fun k => hidden_rows V c t _ k _ rfl)
    (fun k n => left2_whole V c t k n) (fun k n => right2_whole V c t k n) (fun n => bias2_whole V c t n)
    (fun k => cls_weights_whole V c t k _) (cls_bias_whole V c t _)

/-- An index of the embedding is in point t's block iff each coordinate is in the block's range on its axis. -/
theorem emb_mem_block (t : Fin cfg3.N) (i : S100000x16.Idx) :
    i ∈ ((cfg3.win 7).blk t).view.set
      ↔ ∀ a : Fin 2, win3_7.index t a * S5000x16.size a ≤ (i a).val
          ∧ (i a).val < win3_7.index t a * S5000x16.size a + S5000x16.size a := by
  show i ∈ ((View.whole main_v54_0).slice (win3_7.rect t)).set ↔ _
  rw [View.set_slice_whole, Rect.mem_set_unit]
  exact Iff.rfl

/-- The same for the logits. -/
theorem logit_mem_block (t : Fin cfg3.N) (i : S100000x2.Idx) :
    i ∈ ((cfg3.win 8).blk t).view.set
      ↔ ∀ a : Fin 2, win3_8.index t a * S5000x2.size a ≤ (i a).val
          ∧ (i a).val < win3_8.index t a * S5000x2.size a + S5000x2.size a := by
  show i ∈ ((View.whole main_v54_1).slice (win3_8.rect t)).set ↔ _
  rw [View.set_slice_whole, Rect.mem_set_unit]
  exact Iff.rfl

/-- Row r of the embedding lies in the block of point r / 5000, and every point writes its block back. -/
theorem emb_cover (i : S100000x16.Idx) :
    ∃ t : Fin cfg3.N, (cfg3.win 7).flush t = true ∧ i ∈ ((cfg3.win 7).blk t).view.set := by
  have hi0 : (i 0).val < 100000 := (i 0).isLt
  have hi1 : (i 1).val < 16 := (i 1).isLt
  have ht : (i 0).val / 5000 < cfg3.N := by rw [show cfg3.N = 20 from N_3]; omega
  obtain ⟨-, -, -, -, -, -, -, -, -, -, -, -, -, -, e70, e71, -⟩ := layer2_blocks_at ⟨(i 0).val / 5000, ht⟩
  refine ⟨⟨(i 0).val / 5000, ht⟩, flush3_7 _, ?_⟩
  rw [emb_mem_block]
  intro a
  match a with
  | ⟨0, _⟩ =>
    show win3_7.index ⟨(i 0).val / 5000, ht⟩ (0 : Fin 2) * 5000 ≤ (i 0).val
      ∧ (i 0).val < win3_7.index ⟨(i 0).val / 5000, ht⟩ (0 : Fin 2) * 5000 + 5000
    rw [e70]
    show (i 0).val / 5000 * 5000 ≤ (i 0).val ∧ (i 0).val < (i 0).val / 5000 * 5000 + 5000
    omega
  | ⟨1, _⟩ =>
    show win3_7.index ⟨(i 0).val / 5000, ht⟩ (1 : Fin 2) * 16 ≤ (i 1).val
      ∧ (i 1).val < win3_7.index ⟨(i 0).val / 5000, ht⟩ (1 : Fin 2) * 16 + 16
    rw [e71]
    omega

/-- The same for the logits. -/
theorem logit_cover (i : S100000x2.Idx) :
    ∃ t : Fin cfg3.N, (cfg3.win 8).flush t = true ∧ i ∈ ((cfg3.win 8).blk t).view.set := by
  have hi0 : (i 0).val < 100000 := (i 0).isLt
  have hi1 : (i 1).val < 2 := (i 1).isLt
  have ht : (i 0).val / 5000 < cfg3.N := by rw [show cfg3.N = 20 from N_3]; omega
  obtain ⟨-, -, -, -, -, -, -, -, -, -, -, -, -, -, -, -, e80, e81⟩ := layer2_blocks_at ⟨(i 0).val / 5000, ht⟩
  refine ⟨⟨(i 0).val / 5000, ht⟩, flush3_8 _, ?_⟩
  rw [logit_mem_block]
  intro a
  match a with
  | ⟨0, _⟩ =>
    show win3_8.index ⟨(i 0).val / 5000, ht⟩ (0 : Fin 2) * 5000 ≤ (i 0).val
      ∧ (i 0).val < win3_8.index ⟨(i 0).val / 5000, ht⟩ (0 : Fin 2) * 5000 + 5000
    rw [e80]
    show (i 0).val / 5000 * 5000 ≤ (i 0).val ∧ (i 0).val < (i 0).val / 5000 * 5000 + 5000
    omega
  | ⟨1, _⟩ =>
    show win3_8.index ⟨(i 0).val / 5000, ht⟩ (1 : Fin 2) * 2 ≤ (i 1).val
      ∧ (i 1).val < win3_8.index ⟨(i 0).val / 5000, ht⟩ (1 : Fin 2) * 2 + 2
    rw [e81]
    omega

/-- After the region the embedding is the layer of the five input arrays as the region finds them. -/
theorem emb_array (c : Dev nD) :
    (dat3 (F := Ideal) V c).arrAt 7 cfg3.N
      = Cert.Val.lin2 (V c main_v48) (V c main_v36) (V c main_v49) (V c main_v50) (V c main_v52) :=
  (dat3 (F := Ideal) V c).arrAt_eq_of_cover 7
    (Cert.Val.lin2 (V c main_v48) (V c main_v36) (V c main_v49) (V c main_v50) (V c main_v52))
    (fun t _ => emb_flushed V c t) emb_cover

/-- After the region the logits are the classifier of that layer. -/
theorem logit_array (c : Dev nD) :
    (dat3 (F := Ideal) V c).arrAt 8 cfg3.N
      = Cert.Val.cls (Cert.Val.lin2 (V c main_v48) (V c main_v36) (V c main_v49) (V c main_v50) (V c main_v52))
          (V c main_v51) (V c main_v53) :=
  (dat3 (F := Ideal) V c).arrAt_eq_of_cover 8
    (Cert.Val.cls (Cert.Val.lin2 (V c main_v48) (V c main_v36) (V c main_v49) (V c main_v50) (V c main_v52))
      (V c main_v51) (V c main_v53))
    (fun t _ => logit_flushed V c t) logit_cover

end Cert.KernelIdeal.HandVal

end
-- ==== Proof.Val.Law.lean ====
/-
  The algebra on which the two programs' batch statistics agree.

  * a finite sum of real numbers, read in the extended reals, is the real sum;
  * a sum over 100000 consecutive rows is the sum over 20 blocks of the sums over the 5000 rows of each block,
    and so the block-by-block accumulation from zero is the one sum over all rows;
  * the variance law over the reals: with μ the mean of f over n > 0 points,
    (Σ (f − μ)²)/n = (Σ f²)/n − μ², and this number is not negative;
  * the same in the extended reals for a real-valued column, with the division by the float word of 100000
    and the clamp at zero that the one-pass form carries.
-/
import proofs.«129360_j3092376453140_1_alg».proof.Proof.Val.Spec
import Mathlib.Tactic

noncomputable section

open scoped BigOperators

namespace Cert.Val

open Idealize.ShloMosaic Idealize.ShloMosaic.ValueIdx

/-- The float word of the divisor denotes the real number 100000. -/
theorem ofBits_1e5 : Ideal.ofBits .f32 0x47C35000#32 = ((100000 : ℝ) : EReal) := by
  simp [Ideal.ofBits, Ideal.ieee, -EReal.coe_mul]; norm_num

/-- The float word of one denotes the real number one. -/
theorem ofBits_one : Ideal.ofBits .f32 0x3F800000#32 = 1 := by
  simp [Ideal.ofBits, Ideal.ieee, -EReal.coe_mul]; norm_num

/-- A finite sum of real numbers, read in the extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum over m·n consecutive places is the sum over the m blocks of the sums over each block's n places. -/
theorem sum_blocks {M : Type*} [AddCommMonoid M] (m n : ℕ) (f : Fin (m * n) → M) :
    ∑ t : Fin m, ∑ r : Fin n, f (finProdFinEquiv (t, r)) = ∑ i, f i := by
  rw [← Equiv.sum_comp finProdFinEquiv f, Fintype.sum_prod_type]

/-- The 100000 rows as 20 blocks of 5000. -/
theorem sum_blocks_rows {M : Type*} [AddCommMonoid M] (f : Fin 100000 → M) :
    ∑ t : Fin 20, ∑ r : Fin 5000,
        f ⟨5000 * t.val + r.val, by have := t.isLt; have := r.isLt; omega⟩ = ∑ i, f i := by
  rw [← sum_blocks 20 5000 f]
  refine Finset.sum_congr rfl fun t _ => Finset.sum_congr rfl fun r _ => ?_
  congr 1
  apply Fin.ext
  show 5000 * t.val + r.val = (finProdFinEquiv (t, r)).val
  rw [finProdFinEquiv_apply_val]
  show 5000 * t.val + r.val = r.val + 5000 * t.val
  omega

/-- The accumulator after n blocks is the sum of the first n block sums. -/
theorem colAcc_eq_sum (h : S100000x64.Idx → EReal) (j : Fin 64) : ∀ n : ℕ,
    colAcc h j n = ∑ t ∈ Finset.range n, (if ht : t < 20 then blockSum h ⟨t, ht⟩ j else 0)
  | 0 => by simp [colAcc]
  | n + 1 => by rw [colAcc, colAcc_eq_sum h j n, Finset.sum_range_succ]

/-- The block-by-block accumulation is the one sum over all rows. -/
theorem colsum_eq (h : S100000x64.Idx → EReal) (i : S1x64.Idx) :
    colsum h i = ∑ r : Fin 100000, h (ix2 r (i 1)) := by
  show colAcc h (i 1) 20 = _
  refine (colAcc_eq_sum h (i 1) 20).trans ?_
  refine (Fin.sum_univ_eq_sum_range (fun t => if ht : t < 20 then blockSum h ⟨t, ht⟩ (i 1) else 0) 20).symm.trans ?_
  refine Eq.trans ?_ (sum_blocks_rows (fun r => h (ix2 r (i 1))))
  refine Finset.sum_congr rfl fun t _ => ?_
  exact (dif_pos t.isLt).trans rfl

/-- The same for the squares. -/
theorem colsumsq_eq (h : S100000x64.Idx → EReal) (i : S1x64.Idx) :
    colsumsq h i = ∑ r : Fin 100000, h (ix2 r (i 1)) * h (ix2 r (i 1)) := by
  exact colsum_eq (fun i => h i * h i) i

/-- The variance law over the reals: the two-pass value is the one-pass value. -/
theorem var_real (n : ℕ) (N : ℝ) (hN : (n : ℝ) = N) (hn : N ≠ 0) (f : Fin n → ℝ) :
    (∑ i, (f i - (∑ i, f i) / N) * (f i - (∑ i, f i) / N)) / N
      = (∑ i, f i * f i) / N - ((∑ i, f i) / N) * ((∑ i, f i) / N) := by
  have e : ∑ i, (f i - (∑ i, f i) / N) * (f i - (∑ i, f i) / N)
      = (∑ i, f i * f i) - 2 * ((∑ i, f i) / N) * (∑ i, f i) + N * (((∑ i, f i) / N) * ((∑ i, f i) / N)) := by
    have hpt : ∀ i, (f i - (∑ i, f i) / N) * (f i - (∑ i, f i) / N)
        = f i * f i - 2 * ((∑ i, f i) / N) * f i + ((∑ i, f i) / N) * ((∑ i, f i) / N) := fun i => by ring
    rw [Finset.sum_congr rfl fun i _ => hpt i, Finset.sum_add_distrib, Finset.sum_sub_distrib, ← Finset.mul_sum,
      Finset.sum_const, Finset.card_univ, Fintype.card_fin, nsmul_eq_mul, hN]
  rw [e]
  field_simp
  ring

/-- The two-pass value is not negative. -/
theorem var_real_nonneg (n : ℕ) (N : ℝ) (hN : 0 ≤ N) (f : Fin n → ℝ) (μ : ℝ) :
    0 ≤ (∑ i, (f i - μ) * (f i - μ)) / N :=
  div_nonneg (Finset.sum_nonneg fun i _ => mul_self_nonneg _) hN

/-- THE LAW in the extended reals, for a real-valued column of 100000 entries: the one-pass variance clamped
    at zero is the two-pass variance, both divisions by the float word of 100000. -/
theorem var_bridge (c : Fin 100000 → EReal) (hc : ∀ r, ∃ x : ℝ, c r = (x : EReal)) :
    max (Ideal.div (∑ r, c r * c r) (Ideal.ofBits .f32 0x47C35000#32)
          - Ideal.div (∑ r, c r) (Ideal.ofBits .f32 0x47C35000#32) * Ideal.div (∑ r, c r) (Ideal.ofBits .f32 0x47C35000#32)) 0
      = Ideal.div (∑ r, (c r - Ideal.div (∑ r, c r) (Ideal.ofBits .f32 0x47C35000#32))
                        * (c r - Ideal.div (∑ r, c r) (Ideal.ofBits .f32 0x47C35000#32))) (Ideal.ofBits .f32 0x47C35000#32) := by
  obtain ⟨f, rfl⟩ : ∃ f : Fin 100000 → ℝ, c = fun r => (f r : EReal) :=
    ⟨fun r => (hc r).choose, funext fun r => (hc r).choose_spec⟩
  have hW : (100000 : ℝ) ≠ 0 := by norm_num
  rw [ofBits_1e5]
  have hdiv : ∀ a : ℝ, Ideal.div (a : EReal) ((100000 : ℝ) : EReal) = ((a / 100000 : ℝ) : EReal) := fun a => by
    rw [Ideal.div_coe hW, ← EReal.coe_mul, mul_one_div]
  have hS : (∑ r, ((f r : ℝ) : EReal)) = ((∑ r, f r : ℝ) : EReal) := coe_sum _ _
  have hQ : (∑ r, ((f r : ℝ) : EReal) * ((f r : ℝ) : EReal)) = ((∑ r, f r * f r : ℝ) : EReal) := by
    rw [← coe_sum]; exact Finset.sum_congr rfl fun r _ => (EReal.coe_mul _ _).symm
  simp only []
  rw [hS, hdiv, hQ, hdiv]
  have hD : (∑ r, (((f r : ℝ) : EReal) - (((∑ r, f r) / 100000 : ℝ) : EReal)) * (((f r : ℝ) : EReal) - (((∑ r, f r) / 100000 : ℝ) : EReal)))
      = ((∑ r, (f r - (∑ r, f r) / 100000) * (f r - (∑ r, f r) / 100000) : ℝ) : EReal) := by
    rw [← coe_sum]; exact Finset.sum_congr rfl fun r _ => by rw [← EReal.coe_sub, ← EReal.coe_mul]
  rw [hD, hdiv, ← EReal.coe_mul, ← EReal.coe_sub]
  have law := var_real 100000 100000 (by norm_num) hW f
  rw [← law, max_eq_left]
  exact EReal.coe_nonneg.mpr (var_real_nonneg 100000 100000 (by norm_num) f _)

end Cert.Val

end
-- ==== Proof.Val.Stats.lean ====
/-
  The batch statistics in the two orders, and their agreement.

  One-pass form (from the accumulated column sums `s` and sums of squares `sq`): mean = s / n and
  variance = max(sq / n − mean·mean, 0).  Two-pass form (from the array itself): mean = (0 + Σ h)/n and
  variance = (0 + Σ (h − mean)²)/n.  The means agree for every array; the variances agree when every
  entry of the array is a real number.  Also the linear layers in the two orders of their three summands,
  which agree for every array.
-/
import proofs.«129360_j3092376453140_1_alg».proof.Proof.Val.Law
import Idealize.ShloMosaic.PureOps.Ideal.Laws

noncomputable section

open scoped BigOperators

namespace Cert.Val

open Idealize.ShloMosaic Idealize.ShloMosaic.ValueIdx

/-- The mean from the accumulated column sums. -/
def kmean (s : S1x64.Idx → EReal) : S1x64.Idx → EReal := fun i =>
  Ideal.div (s i) (Ideal.ofBits .f32 0x47C35000#32)

/-- The one-pass variance from the accumulated column sums and sums of squares, clamped at zero. -/
def kvar (s sq : S1x64.Idx → EReal) : S1x64.Idx → EReal := fun i =>
  max (Ideal.div (sq i) (Ideal.ofBits .f32 0x47C35000#32) - kmean s i * kmean s i) (Ideal.ofBits .f32 0x00000000#32)

/-- The mean of column `j` as one sum over all rows, from the zero word. -/
def rmean (h : S100000x64.Idx → EReal) (j : Fin 64) : EReal :=
  Ideal.div (Ideal.ofBits .f32 0x00000000#32 + ∑ r : Fin 100000, h (ix2 r j)) (Ideal.ofBits .f32 0x47C35000#32)

/-- The two-pass variance of column `j`. -/
def rvar (h : S100000x64.Idx → EReal) (j : Fin 64) : EReal :=
  Ideal.div (Ideal.ofBits .f32 0x00000000#32 + ∑ r : Fin 100000, (h (ix2 r j) - rmean h j) * (h (ix2 r j) - rmean h j))
    (Ideal.ofBits .f32 0x47C35000#32)

/-- The means agree, for every array. -/
theorem kmean_colsum (h : S100000x64.Idx → EReal) (i : S1x64.Idx) : kmean (colsum h) i = rmean h (i 1) := by
  unfold kmean rmean
  rw [colsum_eq, Ideal.ofBits_zero_f32, zero_add]

/-- The variances agree, for an array of real numbers. -/
theorem kvar_colsum (h : S100000x64.Idx → EReal) (hreal : ∀ i, ∃ x : ℝ, h i = (x : EReal)) (i : S1x64.Idx) :
    kvar (colsum h) (colsumsq h) i = rvar h (i 1) := by
  unfold kvar rvar
  rw [kmean_colsum]
  unfold rmean
  rw [colsumsq_eq, Ideal.ofBits_zero_f32, zero_add, zero_add]
  exact var_bridge (fun r => h (ix2 r (i 1))) (fun r => hreal _)

/-- The first linear layer with the bias added before the second product. -/
def rlin1 (agg x : S100000x128.Idx → EReal) (wl wr : S128x64.Idx → EReal) (b : S1x64.Idx → EReal) :
    S100000x64.Idx → EReal := fun i =>
  ((∑ k : Fin 128, agg (ix2 (i 0) k) * wl (ix2 k (i 1))) + b (ix2 0 (i 1)))
    + (∑ k : Fin 128, x (ix2 (i 0) k) * wr (ix2 k (i 1)))

/-- The second linear layer with the bias added before the second product. -/
def rlin2 (agg h : S100000x64.Idx → EReal) (wl wr : S64x16.Idx → EReal) (b : S1x16.Idx → EReal) :
    S100000x16.Idx → EReal := fun i =>
  ((∑ k : Fin 64, agg (ix2 (i 0) k) * wl (ix2 k (i 1))) + b (ix2 0 (i 1)))
    + (∑ k : Fin 64, h (ix2 (i 0) k) * wr (ix2 k (i 1)))

theorem rlin1_eq (agg x : S100000x128.Idx → EReal) (wl wr : S128x64.Idx → EReal) (b : S1x64.Idx → EReal) :
    rlin1 agg x wl wr b = lin1 agg x wl wr b := by
  funext i
  exact add_right_comm _ _ _

theorem rlin2_eq (agg h : S100000x64.Idx → EReal) (wl wr : S64x16.Idx → EReal) (b : S1x16.Idx → EReal) :
    rlin2 agg h wl wr b = lin2 agg h wl wr b := by
  funext i
  exact add_right_comm _ _ _

end Cert.Val

end
-- ==== Proof.Val.HostK.lean ====
/-
  The host stretches of the kernel program read as terms of the arrays they start from.

  The two chains that both programs share are named once and never opened: `dinvCol` (one over the larger of
  the in-degree count and one, as a column) and `aggX` / `aggH` (gather the rows at the source nodes, add
  them up at the destination nodes, scale each row by its column entry).  For each stretch and each array a
  later region reads, the array after the stretch is the named term of the arrays before it, for every
  valuation of the buffers.
-/
import proofs.«129360_j3092376453140_1_alg».proof.Proof.KI.LaunchP
import Idealize.ShloMosaic.Lib.StableHlo.Run
import Idealize.ShloMosaic.PureOps.Ideal.Laws
import proofs.«129360_j3092376453140_1_alg».proof.Proof.Val.Stats

noncomputable section

namespace Cert.KernelIdeal.HostK

open Cert.KernelIdeal Cert.KernelIdeal.Gen Cert.KernelIdeal.GenP Idealize.ShloMosaic Idealize.ShloMosaic.TcCoe Idealize.ShloMosaic.StableHlo

/-- One over the larger of the in-degree count and one, as a column. -/
def dinvCol (dst : (⟨S1600000, .i32⟩ : BufTy).Contents (Elt Ideal)) : (⟨S100000x1, .f32⟩ : BufTy).Contents (Elt Ideal) :=
  broadcastInDim S100000x1 ![0] bcast_S100000_S100000x1_0
    (Host.divf (F := Ideal)
      (broadcastInDim S100000 ![] bcast_S_S100000 (constant (F := Ideal) S_ .f32 0x3F800000#32))
      (maximumf (F := Ideal)
        (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 dst)
          (broadcastInDim S1600000 ![] bcast_S_S1600000 (constant (F := Ideal) S_ .f32 0x3F800000#32)))
        (broadcastInDim S100000 ![] bcast_S_S100000 (constant (F := Ideal) S_ .f32 0x3F800000#32))))

/-- The source indices with a negative one wrapped around, as a column of start indices. -/
def srcIdx (src : (⟨S1600000, .i32⟩ : BufTy).Contents (Elt Ideal)) : (⟨S1600000x1, .i32⟩ : BufTy).Contents (Elt Ideal) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32)))
      src)

/-- Mean aggregation of a 128-column array: gather at the sources, add up at the destinations, scale by the column. -/
def aggX (x : (⟨S100000x128, .f32⟩ : BufTy).Contents (Elt Ideal)) (src dst : (⟨S1600000, .i32⟩ : BufTy).Contents (Elt Ideal))
    (dcol : (⟨S100000x1, .f32⟩ : BufTy).Contents (Elt Ideal)) : (⟨S100000x128, .f32⟩ : BufTy).Contents (Elt Ideal) :=
  mulf (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 x (srcIdx src)))
    (broadcastInDim S100000x128 ![0, 1] bcast_S100000x1_S100000x128_0_1 dcol)

/-- Mean aggregation of a 64-column array. -/
def aggH (h : (⟨S100000x64, .f32⟩ : BufTy).Contents (Elt Ideal)) (src dst : (⟨S1600000, .i32⟩ : BufTy).Contents (Elt Ideal))
    (dcol : (⟨S100000x1, .f32⟩ : BufTy).Contents (Elt Ideal)) : (⟨S100000x64, .f32⟩ : BufTy).Contents (Elt Ideal) :=
  mulf (F := Ideal)
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 h (srcIdx src)))
    (broadcastInDim S100000x64 ![0, 1] bcast_S100000x1_S100000x64_0_1 dcol)

variable (W : Valuation τ sig (Elt Ideal))

/-! ## Stretch 0 -/

theorem h0_v8 : StableHlo.after (hostOps0 (F := Ideal)) W (Proc.devRef .tc main_v8)
    = dinvCol (W (Proc.devRef .tc main_arg2)) := by
  after_results_simp
  rfl

theorem h0_v20 : StableHlo.after (hostOps0 (F := Ideal)) W (Proc.devRef .tc main_v20)
    = aggX (W (Proc.devRef .tc main_arg0)) (W (Proc.devRef .tc main_arg1)) (W (Proc.devRef .tc main_arg2))
        (dinvCol (W (Proc.devRef .tc main_arg2))) := by
  after_results_simp
  rfl

theorem h0_v21 : StableHlo.after (hostOps0 (F := Ideal)) W (Proc.devRef .tc main_v21)
    = transpose S128x64 [1, 0] (W (Proc.devRef .tc main_arg3)) transposes_S64x128_S128x64_1_0 := by
  after_results_simp

theorem h0_v22 : StableHlo.after (hostOps0 (F := Ideal)) W (Proc.devRef .tc main_v22)
    = transpose S128x64 [1, 0] (W (Proc.devRef .tc main_arg5)) transposes_S64x128_S128x64_1_0 := by
  after_results_simp

theorem h0_v23 : StableHlo.after (hostOps0 (F := Ideal)) W (Proc.devRef .tc main_v23)
    = shapeCast S1x64 (W (Proc.devRef .tc main_arg4)) shapeCasts_S64_S1x64 := by
  after_results_simp
  rfl

/-- Stretch 0 writes no argument array. -/
theorem h0_arg0 : StableHlo.after (hostOps0 (F := Ideal)) W (Proc.devRef .tc main_arg0) = W (Proc.devRef .tc main_arg0) := by
  after_results_simp

/-! ## Stretch 2 -/

/-- The mean from the accumulated sums, as the host computes it. -/
theorem h2_v27 : StableHlo.after (hostOps2 (F := Ideal)) W (Proc.devRef .tc main_v27)
    = Cert.Val.kmean (W (Proc.devRef .tc main_v25_0)) := by
  after_results_simp
  rfl

/-- The clamped one-pass variance, as the host computes it. -/
theorem h2_v33 : StableHlo.after (hostOps2 (F := Ideal)) W (Proc.devRef .tc main_v33)
    = Cert.Val.kvar (W (Proc.devRef .tc main_v25_0)) (W (Proc.devRef .tc main_v25_1)) := by
  after_results_simp
  rfl

theorem h2_v34 : StableHlo.after (hostOps2 (F := Ideal)) W (Proc.devRef .tc main_v34)
    = shapeCast S1x64 (W (Proc.devRef .tc main_arg6)) shapeCasts_S64_S1x64 := by
  after_results_simp
  rfl

theorem h2_v35 : StableHlo.after (hostOps2 (F := Ideal)) W (Proc.devRef .tc main_v35)
    = shapeCast S1x64 (W (Proc.devRef .tc main_arg7)) shapeCasts_S64_S1x64 := by
  after_results_simp
  rfl

/-- Stretch 2 leaves the first layer's pre-activation where it is. -/
theorem h2_v24 : StableHlo.after (hostOps2 (F := Ideal)) W (Proc.devRef .tc main_v24) = W (Proc.devRef .tc main_v24) := by
  after_results_simp

/-! ## Stretch 3 -/

theorem h3_v48 : StableHlo.after (hostOps3 (F := Ideal)) W (Proc.devRef .tc main_v48)
    = aggH (W (Proc.devRef .tc main_v36)) (W (Proc.devRef .tc main_arg1)) (W (Proc.devRef .tc main_arg2))
        (W (Proc.devRef .tc main_v8)) := by
  after_results_simp
  rfl

theorem h3_v49 : StableHlo.after (hostOps3 (F := Ideal)) W (Proc.devRef .tc main_v49)
    = transpose S64x16 [1, 0] (W (Proc.devRef .tc main_arg8)) transposes_S16x64_S64x16_1_0 := by
  after_results_simp

theorem h3_v50 : StableHlo.after (hostOps3 (F := Ideal)) W (Proc.devRef .tc main_v50)
    = transpose S64x16 [1, 0] (W (Proc.devRef .tc main_arg10)) transposes_S16x64_S64x16_1_0 := by
  after_results_simp

theorem h3_v51 : StableHlo.after (hostOps3 (F := Ideal)) W (Proc.devRef .tc main_v51)
    = transpose S16x2 [1, 0] (W (Proc.devRef .tc main_arg11)) transposes_S2x16_S16x2_1_0 := by
  after_results_simp

theorem h3_v52 : StableHlo.after (hostOps3 (F := Ideal)) W (Proc.devRef .tc main_v52)
    = shapeCast S1x16 (W (Proc.devRef .tc main_arg9)) shapeCasts_S16_S1x16 := by
  after_results_simp
  rfl

theorem h3_v53 : StableHlo.after (hostOps3 (F := Ideal)) W (Proc.devRef .tc main_v53)
    = shapeCast S1x2 (W (Proc.devRef .tc main_arg12)) shapeCasts_S2_S1x2 := by
  after_results_simp
  rfl

theorem h3_v36 : StableHlo.after (hostOps3 (F := Ideal)) W (Proc.devRef .tc main_v36) = W (Proc.devRef .tc main_v36) := by
  after_results_simp

/-! ## The kernel program's results as one term of its thirteen argument arrays -/

section Term

variable (x0 : (⟨S100000x128, .f32⟩ : BufTy).Contents (Elt Ideal)) (x1 x2 : (⟨S1600000, .i32⟩ : BufTy).Contents (Elt Ideal))
  (x3 : (⟨S64x128, .f32⟩ : BufTy).Contents (Elt Ideal)) (x4 : (⟨S64, .f32⟩ : BufTy).Contents (Elt Ideal))
  (x5 : (⟨S64x128, .f32⟩ : BufTy).Contents (Elt Ideal)) (x6 x7 : (⟨S64, .f32⟩ : BufTy).Contents (Elt Ideal))
  (x8 : (⟨S16x64, .f32⟩ : BufTy).Contents (Elt Ideal)) (x9 : (⟨S16, .f32⟩ : BufTy).Contents (Elt Ideal))
  (x10 : (⟨S16x64, .f32⟩ : BufTy).Contents (Elt Ideal)) (x11 : (⟨S2x16, .f32⟩ : BufTy).Contents (Elt Ideal))
  (x12 : (⟨S2, .f32⟩ : BufTy).Contents (Elt Ideal))

/-- The first layer before normalisation. -/
def kH : (⟨S100000x64, .f32⟩ : BufTy).Contents (Elt Ideal) :=
  Cert.Val.lin1 (aggX x0 x1 x2 (dinvCol x2)) x0 (transpose S128x64 [1, 0] x3 transposes_S64x128_S128x64_1_0)
    (transpose S128x64 [1, 0] x5 transposes_S64x128_S128x64_1_0) (shapeCast S1x64 x4 shapeCasts_S64_S1x64)

/-- The first layer after normalisation by the one-pass statistics. -/
def kHH : (⟨S100000x64, .f32⟩ : BufTy).Contents (Elt Ideal) :=
  Cert.Val.bnrelu (kH x0 x1 x2 x3 x4 x5)
    (Cert.Val.kmean (Cert.Val.colsum (kH x0 x1 x2 x3 x4 x5)))
    (Cert.Val.kvar (Cert.Val.colsum (kH x0 x1 x2 x3 x4 x5)) (Cert.Val.colsumsq (kH x0 x1 x2 x3 x4 x5)))
    (shapeCast S1x64 x6 shapeCasts_S64_S1x64) (shapeCast S1x64 x7 shapeCasts_S64_S1x64)

/-- The embedding. -/
def kEmb : (⟨S100000x16, .f32⟩ : BufTy).Contents (Elt Ideal) :=
  Cert.Val.lin2 (aggH (kHH x0 x1 x2 x3 x4 x5 x6 x7) x1 x2 (dinvCol x2)) (kHH x0 x1 x2 x3 x4 x5 x6 x7)
    (transpose S64x16 [1, 0] x8 transposes_S16x64_S64x16_1_0) (transpose S64x16 [1, 0] x10 transposes_S16x64_S64x16_1_0)
    (shapeCast S1x16 x9 shapeCasts_S16_S1x16)

/-- The logits. -/
def kLogits : (⟨S100000x2, .f32⟩ : BufTy).Contents (Elt Ideal) :=
  Cert.Val.cls (kEmb x0 x1 x2 x3 x4 x5 x6 x7 x8 x9 x10) (transpose S16x2 [1, 0] x11 transposes_S2x16_S16x2_1_0)
    (shapeCast S1x2 x12 shapeCasts_S2_S1x2)

end Term

end Cert.KernelIdeal.HostK

end
-- ==== Proof.KI.Results.lean ====
/-
  The arrays the program leaves, as terms of the launch memory, at the exact instance. Walking the fold backwards: the
  embedding and the logits are the last region's value of the aggregated hidden features, the hidden features, the second
  layer's weights and the classifier's; the hidden features are the normalisation's value of the first layer's output, of
  the mean and the clamped one-pass variance the host makes of the accumulated sums, and of the scale and shift; the sums
  are the column sums of the first layer's output and of its squares; the first layer's output is the layer's value of the
  aggregated node features, the node features and the first layer's weights. The aggregation and the degree column are
  the host's shared chains, named and never opened. A buffer that no segment writes holds its launch contents wherever
  it is read.
-/
import proofs.«129360_j3092376453140_1_alg».proof.Proof.KI.Run
import proofs.«129360_j3092376453140_1_alg».proof.Proof.KI.Val0
import proofs.«129360_j3092376453140_1_alg».proof.Proof.KI.Val1
import proofs.«129360_j3092376453140_1_alg».proof.Proof.KI.Val2
import proofs.«129360_j3092376453140_1_alg».proof.Proof.KI.Val3
import proofs.«129360_j3092376453140_1_alg».proof.Proof.Val.HostK

set_option maxRecDepth 16384

noncomputable section

namespace Cert.KernelIdeal.Hand

open Cert.KernelIdeal Cert.KernelIdeal.Gen Cert.KernelIdeal.GenP
open Idealize.ShloMosaic Idealize.ShloMosaic.TcCoe

section Generic
variable {F : FTy → Type} [FloatOps F]
variable (m : (ℓ : Loc nD τ sig) → Buf (Elt F) ℓ)

/-! ## Buffers no segment writes keep their launch contents through the fold -/

/-- No host stretch writes the buffer and it is no array of a window of the first three regions. -/
def Inert (b : Ref sig .tc) : Prop :=
  b ∉ hostOps0_W ∧ b ∉ hostOps2_W ∧ b ∉ hostOps3_W
    ∧ (∀ w, Pipeline.arrRef spec0 w ≠ b) ∧ (∀ w, Pipeline.arrRef spec1 w ≠ b) ∧ (∀ w, Pipeline.arrRef spec2 w ≠ b)

theorem inert_arg1 : Inert main_arg1 := ⟨by decide, by decide, by decide, by decide, by decide, by decide⟩
theorem inert_arg2 : Inert main_arg2 := ⟨by decide, by decide, by decide, by decide, by decide, by decide⟩
theorem inert_arg3 : Inert main_arg3 := ⟨by decide, by decide, by decide, by decide, by decide, by decide⟩
theorem inert_arg4 : Inert main_arg4 := ⟨by decide, by decide, by decide, by decide, by decide, by decide⟩
theorem inert_arg5 : Inert main_arg5 := ⟨by decide, by decide, by decide, by decide, by decide, by decide⟩
theorem inert_arg6 : Inert main_arg6 := ⟨by decide, by decide, by decide, by decide, by decide, by decide⟩
theorem inert_arg7 : Inert main_arg7 := ⟨by decide, by decide, by decide, by decide, by decide, by decide⟩
theorem inert_arg8 : Inert main_arg8 := ⟨by decide, by decide, by decide, by decide, by decide, by decide⟩
theorem inert_arg9 : Inert main_arg9 := ⟨by decide, by decide, by decide, by decide, by decide, by decide⟩
theorem inert_arg10 : Inert main_arg10 := ⟨by decide, by decide, by decide, by decide, by decide, by decide⟩
theorem inert_arg11 : Inert main_arg11 := ⟨by decide, by decide, by decide, by decide, by decide, by decide⟩
theorem inert_arg12 : Inert main_arg12 := ⟨by decide, by decide, by decide, by decide, by decide, by decide⟩

/-- Such a buffer holds its launch contents at every boundary up to the last region's entry. -/
theorem untouched (c : Dev nD) (b : Ref sig .tc) (hb : Inert b) :
    W1 m c (Proc.devRef .tc b) = m ((c : Thread nD τ).loc b) ∧ W2 m c (Proc.devRef .tc b) = m ((c : Thread nD τ).loc b)
    ∧ W3 m c (Proc.devRef .tc b) = m ((c : Thread nD τ).loc b) ∧ W4 m c (Proc.devRef .tc b) = m ((c : Thread nD τ).loc b)
    ∧ W5 m c (Proc.devRef .tc b) = m ((c : Thread nD τ).loc b) ∧ W6 m c (Proc.devRef .tc b) = m ((c : Thread nD τ).loc b) := by
  obtain ⟨h0, h2, h3, r0, r1, r2⟩ := hb
  have e1 : W1 m c (Proc.devRef .tc b) = m ((c : Thread nD τ).loc b) := StableHlo.after_of_writes_sub hostOps0 _ hostOps0_writes h0
  have e2 : W2 m c (Proc.devRef .tc b) = m ((c : Thread nD τ).loc b) := (W2_of_ne m c b r0).trans e1
  have e3 : W3 m c (Proc.devRef .tc b) = m ((c : Thread nD τ).loc b) := (W3_of_ne m c b r1).trans e2
  have e4 : W4 m c (Proc.devRef .tc b) = m ((c : Thread nD τ).loc b) := (StableHlo.after_of_writes_sub hostOps2 _ hostOps2_writes h2).trans e3
  have e5 : W5 m c (Proc.devRef .tc b) = m ((c : Thread nD τ).loc b) := (W5_of_ne m c b r2).trans e4
  have e6 : W6 m c (Proc.devRef .tc b) = m ((c : Thread nD τ).loc b) := (StableHlo.after_of_writes_sub hostOps3 _ hostOps3_writes h3).trans e5
  exact ⟨e1, e2, e3, e4, e5, e6⟩

/-- The node features are an input window of the first region, which hands them back as it found them. -/
theorem W1_arg0 (c : Dev nD) : W1 m c (Proc.devRef .tc main_arg0) = m ((c : Thread nD τ).loc main_arg0) :=
  StableHlo.after_of_writes_sub hostOps0 _ hostOps0_writes (by decide)

/-- The degree column is written by the first host stretch and by nothing after it. -/
theorem W5_v8 (c : Dev nD) : W5 m c (Proc.devRef .tc main_v8) = W1 m c (Proc.devRef .tc main_v8) :=
  (W5_of_ne m c main_v8 (by decide)).trans <| (StableHlo.after_of_writes_sub hostOps2 _ hostOps2_writes (by decide)).trans <|
    (W3_of_ne m c main_v8 (by decide)).trans (W2_of_ne m c main_v8 (by decide))

end Generic

/-! ## The arrays at the boundaries, at the exact instance, as terms of the launch memory -/

section Exact

variable (m : (ℓ : Loc nD τ sig) → Buf (Elt Ideal) ℓ)

open Cert.KernelIdeal.HostK Cert.KernelIdeal.HandVal

/-- After the first region, the first layer's output array is the layer's value of the launch arrays. -/
theorem layer1_out (c : Dev nD) : W2 m c (Proc.devRef .tc main_v24)
    = kH (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W2_arr m c 5).trans ?_
  rw [layer1_array (V1 m) c]
  unfold kH
  have e20 := h0_v20 (W0 m c)
  have e21 := h0_v21 (W0 m c)
  have e22 := h0_v22 (W0 m c)
  have e23 := h0_v23 (W0 m c)
  have e0 := h0_arg0 (W0 m c)
  exact congr (congr (congr (congr (congrArg Cert.Val.lin1 e20) e0) e21) e22) e23

/-- The statistics' region hands the first layer's output back as it found it. -/
theorem layer1_kept (c : Dev nD) : W3 m c (Proc.devRef .tc main_v24) = W2 m c (Proc.devRef .tc main_v24) :=
  (W3_arr m c 0).trans (arrAt1_in (V2 m) c)

/-- After the statistics' region its two outputs are the column sums and the column sums of squares. -/
theorem sums_out (c : Dev nD) : W3 m c (Proc.devRef .tc main_v25_0) = Cert.Val.colsum (W2 m c (Proc.devRef .tc main_v24)) :=
  (W3_arr m c 1).trans (sum_array (V2 m) c)
theorem sumsq_out (c : Dev nD) : W3 m c (Proc.devRef .tc main_v25_1) = Cert.Val.colsumsq (W2 m c (Proc.devRef .tc main_v24)) :=
  (W3_arr m c 2).trans (sumsq_array (V2 m) c)

/-- After the normalisation's region, the hidden features are the normalised value of the launch arrays. -/
theorem hidden_out (c : Dev nD) : W5 m c (Proc.devRef .tc main_v36)
    = kHH (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W5_arr m c 5).trans ?_
  rw [norm_array (V4 m) c]
  unfold kHH
  have e24 : V4 m c main_v24 = kH (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
    (h2_v24 (W3 m c)).trans ((layer1_kept m c).trans (layer1_out m c))
  have es : W3 m c (Proc.devRef .tc main_v25_0) = Cert.Val.colsum (kH (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) :=
    (sums_out m c).trans (congrArg Cert.Val.colsum (layer1_out m c))
  have esq : W3 m c (Proc.devRef .tc main_v25_1) = Cert.Val.colsumsq (kH (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) :=
    (sumsq_out m c).trans (congrArg Cert.Val.colsumsq (layer1_out m c))
  have e27 : V4 m c main_v27 = Cert.Val.kmean (Cert.Val.colsum (kH (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)))) :=
    (h2_v27 (W3 m c)).trans (congrArg Cert.Val.kmean es)
  have e33 : V4 m c main_v33 = Cert.Val.kvar (Cert.Val.colsum (kH (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))))
      (Cert.Val.colsumsq (kH (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)))) :=
    (h2_v33 (W3 m c)).trans (congr (congrArg Cert.Val.kvar es) esq)
  have e34 : V4 m c main_v34 = shapeCast S1x64 (m ((c : Thread nD τ).loc main_arg6)) shapeCasts_S64_S1x64 :=
    (h2_v34 (W3 m c)).trans (congrArg (fun z => shapeCast S1x64 z shapeCasts_S64_S1x64) (untouched m c main_arg6 inert_arg6).2.2.1)
  have e35 : V4 m c main_v35 = shapeCast S1x64 (m ((c : Thread nD τ).loc main_arg7)) shapeCasts_S64_S1x64 :=
    (h2_v35 (W3 m c)).trans (congrArg (fun z => shapeCast S1x64 z shapeCasts_S64_S1x64) (untouched m c main_arg7 inert_arg7).2.2.1)
  exact congr (congr (congr (congr (congrArg Cert.Val.bnrelu e24) e27) e33) e34) e35

/-- The aggregated hidden features and the weights as the last region finds them. -/
theorem emb_out (c : Dev nD) : W7 m c (Proc.devRef .tc main_v54_0)
    = kEmb (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (W7_arr m c 7).trans ?_
  rw [emb_array (V6 m) c]
  unfold kEmb
  have e36 : V6 m c main_v36 = kHH (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
    (h3_v36 (W5 m c)).trans (hidden_out m c)
  have e8 : W5 m c (Proc.devRef .tc main_v8) = dinvCol (m ((c : Thread nD τ).loc main_arg2)) :=
    (W5_v8 m c).trans (h0_v8 (W0 m c))
  have e48 : V6 m c main_v48 = aggH (kHH (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))) (m ((c : Thread nD τ).loc main_arg1)) (m ((c : Thread nD τ).loc main_arg2))
        (dinvCol (m ((c : Thread nD τ).loc main_arg2))) :=
    (h3_v48 (W5 m c)).trans (congr (congr (congr (congrArg aggH (hidden_out m c)) (untouched m c main_arg1 inert_arg1).2.2.2.2.1) (untouched m c main_arg2 inert_arg2).2.2.2.2.1) e8)
  have e49 : V6 m c main_v49 = transpose S64x16 [1, 0] (m ((c : Thread nD τ).loc main_arg8)) transposes_S16x64_S64x16_1_0 :=
    (h3_v49 (W5 m c)).trans (congrArg (fun z => transpose S64x16 [1, 0] z transposes_S16x64_S64x16_1_0) (untouched m c main_arg8 inert_arg8).2.2.2.2.1)
  have e50 : V6 m c main_v50 = transpose S64x16 [1, 0] (m ((c : Thread nD τ).loc main_arg10)) transposes_S16x64_S64x16_1_0 :=
    (h3_v50 (W5 m c)).trans (congrArg (fun z => transpose S64x16 [1, 0] z transposes_S16x64_S64x16_1_0) (untouched m c main_arg10 inert_arg10).2.2.2.2.1)
  have e52 : V6 m c main_v52 = shapeCast S1x16 (m ((c : Thread nD τ).loc main_arg9)) shapeCasts_S16_S1x16 :=
    (h3_v52 (W5 m c)).trans (congrArg (fun z => shapeCast S1x16 z shapeCasts_S16_S1x16) (untouched m c main_arg9 inert_arg9).2.2.2.2.1)
  exact congr (congr (congr (congr (congrArg Cert.Val.lin2 e48) e36) e49) e50) e52

/-- The logits: the classifier applied to the embedding. -/
theorem logits_out (c : Dev nD) : W7 m c (Proc.devRef .tc main_v54_1)
    = kLogits (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) := by
  refine (W7_arr m c 8).trans ?_
  rw [logit_array (V6 m) c, ← emb_array (V6 m) c]
  unfold kLogits
  have eE : (dat3 (F := Ideal) (V6 m) c).arrAt 7 cfg3.N = kEmb (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) :=
    (W7_arr m c 7).symm.trans (emb_out m c)
  have e51 : V6 m c main_v51 = transpose S16x2 [1, 0] (m ((c : Thread nD τ).loc main_arg11)) transposes_S2x16_S16x2_1_0 :=
    (h3_v51 (W5 m c)).trans (congrArg (fun z => transpose S16x2 [1, 0] z transposes_S2x16_S16x2_1_0) (untouched m c main_arg11 inert_arg11).2.2.2.2.1)
  have e53 : V6 m c main_v53 = shapeCast S1x2 (m ((c : Thread nD τ).loc main_arg12)) shapeCasts_S2_S1x2 :=
    (h3_v53 (W5 m c)).trans (congrArg (fun z => shapeCast S1x2 z shapeCasts_S2_S1x2) (untouched m c main_arg12 inert_arg12).2.2.2.2.1)
  exact congr (congr (congrArg Cert.Val.cls eE) e51) e53

end Exact

end Cert.KernelIdeal.Hand

end
-- ==== Proof.LibRealValued.lean ====
/-
  Extended reals that are real numbers, and arrays of them.

  At the exact instance a float is an extended real. Most algebraic laws that a
  kernel and its reference differ by (here: how a log-sum-exp shift is
  re-associated) hold for real numbers and fail at an infinity, so a value proof
  first has to know that the numbers it meets are real. This module fixes the
  predicate `IsReal x` ("x is the coercion of a real"), its array form
  `AllReal v`, and their closure under the exact operations: sums, differences,
  products, finite sums, maxima over a nonempty finite set, the reciprocal of a
  nonzero real, the reciprocal square root of a positive real and the exponential.

  It also holds the one law used at the end: for a real `m`,
  `a - (m + L) = (a - m) - L` for ALL extended reals `a` and `L`. (For `m = ⊤`
  the two sides differ: with `L = ⊥` the left is `⊤` and the right `⊥`.)
-/
import Mathlib
import Idealize.ShloMosaic.PureOps.Ideal
import Idealize.ShloMosaic.PureOps.Ideal.Laws

noncomputable section

namespace Cert.RealValued

open Idealize.ShloMosaic

/-- `x` is a real number (neither infinity). -/
def IsReal (x : EReal) : Prop := ∃ r : ℝ, x = (r : EReal)

/-- `x` is a positive real number. -/
def IsPos (x : EReal) : Prop := ∃ r : ℝ, 0 < r ∧ x = (r : EReal)

theorem IsPos.isReal {x : EReal} (h : IsPos x) : IsReal x := let ⟨r, _, e⟩ := h; ⟨r, e⟩

theorem isReal_coe (r : ℝ) : IsReal (r : EReal) := ⟨r, rfl⟩
theorem isReal_zero : IsReal (0 : EReal) := ⟨0, by simp⟩
theorem isReal_one : IsReal (1 : EReal) := ⟨1, by simp⟩
theorem isPos_one : IsPos (1 : EReal) := ⟨1, one_pos, by simp⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem isReal_max {x y : EReal} (hx : IsReal x) (hy : IsReal y) : IsReal (max x y) := by
  rcases le_total x y with h | h
  · rwa [max_eq_right h]
  · rwa [max_eq_left h]

/-- A finite sum of real numbers is a real number. -/
theorem IsReal.sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A sum of a nonnegative real and finitely many nonnegative reals, plus a positive real, is positive: stated
    in the one form used (a count of ones plus one). -/
theorem IsPos.add_of_nonneg {x y : EReal} (hx : ∃ r : ℝ, 0 ≤ r ∧ x = (r : EReal)) (hy : IsPos y) : IsPos (x + y) := by
  obtain ⟨a, ha, rfl⟩ := hx; obtain ⟨b, hb, rfl⟩ := hy
  exact ⟨a + b, by linarith, (EReal.coe_add a b).symm⟩

/-- A finite sum of ones, from zero, is a nonnegative real. -/
theorem nonneg_zero_add_sum_one {ι : Type} (s : Finset ι) :
    ∃ r : ℝ, 0 ≤ r ∧ (0 : EReal) + ∑ _i ∈ s, (1 : EReal) = (r : EReal) := by
  refine ⟨(s.card : ℝ), Nat.cast_nonneg _, ?_⟩
  rw [Finset.sum_const, zero_add]
  simp [nsmul_eq_mul]

/-- The maximum of `⊥` and the values of a real-valued function over a NONEMPTY finite set is a real number. -/
theorem isReal_fold_max {ι : Type} (s : Finset ι) (f : ι → EReal) (hs : s.Nonempty) (h : ∀ i ∈ s, IsReal (f i)) :
    IsReal (s.fold max ⊥ f) := by
  classical
  induction s using Finset.induction_on with
  | empty => exact absurd hs (by simp)
  | insert a s ha ih =>
    rw [Finset.fold_insert ha]
    rcases s.eq_empty_or_nonempty with hse | hsn
    · subst hse
      rw [Finset.fold_empty, max_eq_left bot_le]
      exact h a (Finset.mem_insert_self a _)
    · exact isReal_max (h a (Finset.mem_insert_self a s)) (ih hsn fun i hi => h i (Finset.mem_insert_of_mem hi))

/-- The reciprocal square root of a positive real is a positive real. -/
theorem IsPos.rsqrt {x : EReal} (hx : IsPos x) : IsPos (Ideal.rsqrt x) := by
  obtain ⟨r, hr, rfl⟩ := hx
  refine ⟨(Real.sqrt r)⁻¹, inv_pos.mpr (Real.sqrt_pos.mpr hr), ?_⟩
  rw [Ideal.rsqrt_coe, if_neg (not_lt.mpr hr.le), if_neg hr.ne']

/-- One over a positive real is a real. -/
theorem IsPos.one_div {x : EReal} (hx : IsPos x) : IsReal (Ideal.div 1 x) := by
  obtain ⟨r, hr, rfl⟩ := hx
  rw [Ideal.div_coe hr.ne']
  exact isReal_one.mul (isReal_coe _)

/-- The exponential of a real is a real. -/
theorem IsReal.exp {x : EReal} (hx : IsReal x) : IsReal (Ideal.exp x) := by
  obtain ⟨r, rfl⟩ := hx; exact ⟨Real.exp r, Ideal.exp_coe r⟩

/-- The pattern of `-∞` denotes the bottom element. -/
theorem ofBits_neg_inf : Ideal.ofBits .f32 0xFF800000#32 = ⊥ := by simp [Ideal.ofBits, Ideal.ieee]

/-- THE LAW that joins the two spellings of a log-softmax: a REAL shift `m` moves across the difference,
    whatever `a` and `L` are. -/
theorem sub_add_real (a L : EReal) (m : ℝ) : a - ((m : EReal) + L) = (a - (m : EReal)) - L := by
  rw [sub_eq_add_neg, sub_eq_add_neg, sub_eq_add_neg,
    EReal.neg_add (Or.inl (EReal.coe_ne_bot m)) (Or.inl (EReal.coe_ne_top m)), sub_eq_add_neg, add_assoc]

/-- Every entry of the array is a real number. -/
def AllReal {ι : Type} (v : ι → EReal) : Prop := ∀ i, IsReal (v i)

/-- Every entry of the array is a positive real number. -/
def AllPos {ι : Type} (v : ι → EReal) : Prop := ∀ i, IsPos (v i)

theorem AllPos.allReal {ι : Type} {v : ι → EReal} (h : AllPos v) : AllReal v := fun i => (h i).isReal

/-- Reading a real-valued array through any index function gives a real-valued array (a broadcast, a reshape, a
    slice, a gather: each result element IS one operand element). -/
theorem AllReal.comp {ι κ : Type} {v : ι → EReal} (h : AllReal v) (g : κ → ι) : AllReal (fun j => v (g j)) :=
  fun j => h (g j)

theorem AllPos.comp {ι κ : Type} {v : ι → EReal} (h : AllPos v) (g : κ → ι) : AllPos (fun j => v (g j)) :=
  fun j => h (g j)

end Cert.RealValued

end
-- ==== Proof.LibRealHostOps.lean ====
/-
  Real-valued arrays stay real-valued under the host operations of a graph convolution, at the exact instance.

  A layout operation (broadcast, reshape, gather) makes each result element ONE operand element; a pointwise sum,
  difference or product combines two; a matrix product and a scatter-add are finite sums of products / of update
  elements on top of an operand element. So an array of real numbers goes to an array of real numbers through all
  of them, whatever the integer index arrays hold. Two operations need more than "real": a reciprocal square root
  and a reciprocal are real where their argument is a POSITIVE real, which is what a degree count plus one is
  (a scatter-add of ones into zeros, plus one).
-/
import proofs.«129360_j3092376453140_1_alg».proof.Proof.LibRealValued
import Idealize.ShloMosaic.PureOps.Ideal.Laws

noncomputable section

namespace Cert.RealValued

open Idealize.ShloMosaic

variable {s t u si sl sr so : Shape} {w : Nat}

/-- Every entry is a nonnegative real number. -/
def AllNonneg {ι : Type} (v : ι → EReal) : Prop := ∀ i, ∃ r : ℝ, 0 ≤ r ∧ v i = (r : EReal)

theorem AllNonneg.allReal {ι : Type} {v : ι → EReal} (h : AllNonneg v) : AllReal v := fun i => let ⟨r, _, e⟩ := h i; ⟨r, e⟩

theorem allReal_addf {x y : FVec Ideal s .f32} (hx : AllReal x) (hy : AllReal y) : AllReal (addf x y) :=
  fun i => (hx i).add (hy i)
theorem allReal_subf {x y : FVec Ideal s .f32} (hx : AllReal x) (hy : AllReal y) : AllReal (subf x y) :=
  fun i => (hx i).sub (hy i)
theorem allReal_mulf {x y : FVec Ideal s .f32} (hx : AllReal x) (hy : AllReal y) : AllReal (mulf x y) :=
  fun i => (hx i).mul (hy i)

theorem allReal_broadcastInDim {x : FVec Ideal s .f32} (hx : AllReal x) (dims : Fin s.rank → Fin t.rank) (h : s.BroadcastsInDim t dims) :
    AllReal (broadcastInDim t dims h x) := fun _ => hx _
theorem allPos_broadcastInDim {x : FVec Ideal s .f32} (hx : AllPos x) (dims : Fin s.rank → Fin t.rank) (h : s.BroadcastsInDim t dims) :
    AllPos (broadcastInDim t dims h x) := fun _ => hx _
theorem allReal_shapeCast {x : FVec Ideal s .f32} (hx : AllReal x) (h : s.ShapeCasts t) : AllReal (shapeCast t x h) := fun _ => hx _
theorem allReal_gather {x : FVec Ideal s .f32} (hx : AllReal x) (d : GatherDims s si t) (idx : IVec si w) :
    AllReal (Host.gather d x idx) := fun _ => hx _

/-- A constant array is real-valued when its pattern denotes a real. -/
theorem allReal_constant (b : BitVec 32) (hb : IsReal (Ideal.ofBits .f32 b)) : AllReal (constant (F := Ideal) s .f32 b) := fun _ => hb

/-- A scatter-add of real updates into a real operand. -/
theorem allReal_scatterAdd {x : FVec Ideal s .f32} {upd : FVec Ideal u .f32} (hx : AllReal x) (hu : AllReal upd)
    (d : ScatterDims s si u) (idx : IVec si w) : AllReal (Host.scatterAdd d x idx upd) := fun i => by
  show IsReal (x i + ∑ j ∈ Finset.univ.filter (fun j => d.resultIdx? j idx = some i), upd j)
  exact (hx i).add (IsReal.sum _ _ fun j _ => hu j)

/-- A matrix product of real operands. -/
theorem allReal_dotGeneral {l : FVec Ideal sl .f32} {r : FVec Ideal sr .f32} (hl : AllReal l) (hr : AllReal r)
    (d : DotDims sl sr so) (prec : Option ContractPrecision) : AllReal (Host.dotGeneral d prec l r) := fun j => by
  show IsReal (FloatOps.dotGeneral (F := Ideal) d prec .single l r j)
  rw [Ideal.dotGeneral_apply]
  exact IsReal.sum _ _ fun k _ => (hl _).mul (hr _)

/-- A count of ones scattered into zeros, plus one, is a positive real at every node. -/
theorem allPos_count_add_one {z o' : FVec Ideal s .f32} {o : FVec Ideal u .f32} (hz : ∀ i, z i = 0) (ho : ∀ j, o j = 1) (ho' : ∀ i, o' i = 1)
    (d : ScatterDims s si u) (idx : IVec si w) : AllPos (addf (Host.scatterAdd d z idx o) o') := fun i => by
  show IsPos ((z i + ∑ j ∈ Finset.univ.filter (fun j => d.resultIdx? j idx = some i), o j) + o' i)
  rw [hz, ho', Finset.sum_congr rfl (fun j _ => ho j)]
  exact IsPos.add_of_nonneg (nonneg_zero_add_sum_one _) isPos_one

/-- The reciprocal square root of a positive array. -/
theorem allPos_hostRsqrt {x : FVec Ideal s .f32} (hx : AllPos x) : AllPos (Host.rsqrt x) := fun i => (hx i).rsqrt

/-- One over a positive array. -/
theorem allReal_one_hostDivf {o x : FVec Ideal s .f32} (ho : ∀ i, o i = 1) (hx : AllPos x) : AllReal (Host.divf o x) := fun i => by
  show IsReal (Ideal.div (o i) (x i))
  rw [ho]
  exact (hx i).one_div

/-- A nonnegative array plus a positive constant is positive. -/
theorem allPos_add_const {x c : FVec Ideal s .f32} (hx : AllNonneg x) {e : EReal} (he : IsPos e) (hc : ∀ i, c i = e) : AllPos (addf x c) := fun i => by
  show IsPos (x i + c i)
  rw [hc]
  exact IsPos.add_of_nonneg (hx i) he

end Cert.RealValued

end
-- ==== Proof.Val.RealK.lean ====
/-
  The first layer's pre-activation is real-valued when the node features, the two weight matrices and the bias are.

  The in-degree count is a finite sum of ones from zero, so the larger of it and one is a positive real and its
  reciprocal is real; gathering rows, adding them up and scaling them keeps an array real-valued; a linear layer
  is finite sums of products of entries, plus a bias entry.
-/
import proofs.«129360_j3092376453140_1_alg».proof.Proof.Val.HostK
import proofs.«129360_j3092376453140_1_alg».proof.Proof.LibRealHostOps

noncomputable section

open scoped BigOperators

namespace Cert.KernelIdeal.HostK

open Cert.KernelIdeal Cert.KernelIdeal.Gen Idealize.ShloMosaic Cert.RealValued

/-- The larger of a count of ones (from zero) and one is a positive real. -/
theorem isPos_max_count {ι : Type} (s : Finset ι) (z o' : EReal) (o : ι → EReal) (hz : z = 0) (ho : ∀ j, o j = 1)
    (ho' : o' = 1) : IsPos (max (z + ∑ j ∈ s, o j) o') := by
  rw [hz, ho', Finset.sum_congr rfl (fun j _ => ho j)]
  obtain ⟨r, hr, e⟩ := nonneg_zero_add_sum_one s
  rw [e]
  rcases le_total r 1 with h | h
  · refine ⟨1, one_pos, ?_⟩
    rw [max_eq_right (by rw [← EReal.coe_one]; exact EReal.coe_le_coe_iff.mpr h), EReal.coe_one]
  · refine ⟨r, lt_of_lt_of_le one_pos h, ?_⟩
    rw [max_eq_left (by rw [← EReal.coe_one]; exact EReal.coe_le_coe_iff.mpr h)]

/-- The same for arrays: the larger of a scatter-add of ones into zeros and an array of ones. -/
theorem allPos_max_count {s u si : Shape} {w : Nat} {z o' : FVec Ideal s .f32} {o : FVec Ideal u .f32} (hz : ∀ i, z i = 0)
    (ho : ∀ j, o j = 1) (ho' : ∀ i, o' i = 1) (d : ScatterDims s si u) (idx : IVec si w) :
    AllPos (maximumf (F := Ideal) (Host.scatterAdd (F := Ideal) d z idx o) o') := fun i => by
  show IsPos (max (z i + ∑ j ∈ Finset.univ.filter (fun j => d.resultIdx? j idx = some i), o j) (o' i))
  exact isPos_max_count _ _ _ _ (hz i) ho (ho' i)

/-- The reciprocal of the clamped in-degree is real. -/
theorem allReal_dinvCol (dst : (⟨S1600000, .i32⟩ : BufTy).Contents (Elt Ideal)) : AllReal (dinvCol dst) := by
  unfold dinvCol
  refine allReal_broadcastInDim ?_ _ _
  refine allReal_one_hostDivf (fun i => Cert.Val.ofBits_one) ?_
  exact allPos_max_count (fun i => Ideal.ofBits_zero_f32) (fun j => Cert.Val.ofBits_one) (fun i => Cert.Val.ofBits_one) _ _

/-- Mean aggregation keeps an array real-valued. -/
theorem allReal_aggX {x : (⟨S100000x128, .f32⟩ : BufTy).Contents (Elt Ideal)} {dcol : (⟨S100000x1, .f32⟩ : BufTy).Contents (Elt Ideal)}
    (hx : AllReal x) (hd : AllReal dcol) (src dst : (⟨S1600000, .i32⟩ : BufTy).Contents (Elt Ideal)) :
    AllReal (aggX x src dst dcol) := by
  unfold aggX
  exact allReal_mulf
    (allReal_scatterAdd (allReal_broadcastInDim (allReal_constant _ ⟨0, Ideal.ofBits_zero_f32.trans EReal.coe_zero.symm⟩) _ _)
      (allReal_gather hx _ _) _ _)
    (allReal_broadcastInDim hd _ _)

/-- A linear layer of real-valued arrays is real-valued. -/
theorem allReal_lin1 {agg x : Cert.Val.S100000x128.Idx → EReal} {wl wr : Cert.Val.S128x64.Idx → EReal} {b : Cert.Val.S1x64.Idx → EReal}
    (ha : AllReal agg) (hx : AllReal x) (hwl : AllReal wl) (hwr : AllReal wr) (hb : AllReal b) :
    AllReal (Cert.Val.lin1 agg x wl wr b) := fun i =>
  ((IsReal.sum _ _ fun k _ => (ha _).mul (hwl _)).add (IsReal.sum _ _ fun k _ => (hx _).mul (hwr _))).add (hb _)

/-- The first layer's pre-activation is real-valued. -/
theorem allReal_kH (x0 : (⟨S100000x128, .f32⟩ : BufTy).Contents (Elt Ideal)) (x1 x2 : (⟨S1600000, .i32⟩ : BufTy).Contents (Elt Ideal))
    (x3 : (⟨S64x128, .f32⟩ : BufTy).Contents (Elt Ideal)) (x4 : (⟨S64, .f32⟩ : BufTy).Contents (Elt Ideal))
    (x5 : (⟨S64x128, .f32⟩ : BufTy).Contents (Elt Ideal))
    (h0 : ∀ i, IsReal (x0 i)) (h3 : ∀ i, IsReal (x3 i)) (h4 : ∀ i, IsReal (x4 i)) (h5 : ∀ i, IsReal (x5 i)) :
    ∀ i, IsReal (kH x0 x1 x2 x3 x4 x5 i) :=
  allReal_lin1 (allReal_aggX h0 (allReal_dinvCol x2) x1 x2) h0 (fun _ => h3 _) (fun _ => h5 _) (fun _ => h4 _)

end Cert.KernelIdeal.HostK

end
-- ==== Proof.Val.Ref.lean ====
/-
  The reference program is the specification: its arrays, read at an index, are the two-pass statistics and the
  linear layers with the bias added first, applied to the shared aggregation chains (which stay closed).
-/
import proofs.«129360_j3092376453140_1_alg».proof.Proof.Gen.ReferenceIdeal.Read
import proofs.«129360_j3092376453140_1_alg».proof.Proof.Val.Stats

noncomputable section

open scoped BigOperators

namespace Cert.ReferenceIdeal.RefV

open Cert.ReferenceIdeal Cert.ReferenceIdeal.Gen Cert.ReferenceIdeal.Read Idealize.ShloMosaic Idealize.ShloMosaic.ValueIdx Cert.Val

/-- A rank-2 index with the given coordinates is the index built from them. -/
theorem mk2_eq {n0 n1 : Nat} (f : (⟨2, ![n0, n1]⟩ : Shape).Idx) (a : Fin n0) (b : Fin n1) (h0 : f 0 = a) (h1 : f 1 = b) :
    f = ix2 a b := by
  funext d
  match d with
  | ⟨0, _⟩ => exact h0
  | ⟨1, _⟩ => exact h1

/-- A rank-1 index with the given coordinate is the index built from it. -/
theorem mk1_eq {n : Nat} (f : (⟨1, ![n]⟩ : Shape).Idx) (a : Fin n) (h0 : f 0 = a) : f = ix1 a := by
  funext d
  match d with
  | ⟨0, _⟩ => exact h0

variable (x0 : (⟨S100000x128, .f32⟩ : BufTy).Contents (Elt Ideal)) (x1 x2 : (⟨S1600000, .i32⟩ : BufTy).Contents (Elt Ideal))
  (x3 : (⟨S64x128, .f32⟩ : BufTy).Contents (Elt Ideal)) (x4 : (⟨S64, .f32⟩ : BufTy).Contents (Elt Ideal))
  (x5 : (⟨S64x128, .f32⟩ : BufTy).Contents (Elt Ideal)) (x6 x7 : (⟨S64, .f32⟩ : BufTy).Contents (Elt Ideal))
  (x8 : (⟨S16x64, .f32⟩ : BufTy).Contents (Elt Ideal)) (x9 : (⟨S16, .f32⟩ : BufTy).Contents (Elt Ideal))
  (x10 : (⟨S16x64, .f32⟩ : BufTy).Contents (Elt Ideal)) (x11 : (⟨S2x16, .f32⟩ : BufTy).Contents (Elt Ideal))
  (x12 : (⟨S2, .f32⟩ : BufTy).Contents (Elt Ideal))

/-- The first layer's pre-activation is the linear layer with the bias added first. -/
theorem v28_eq : val_main_v28 (F := Ideal) x0 x1 x2 x3 x4 x5
    = rlin1 (val_main_v20 (F := Ideal) x0 x1 x2) x0 (val_main_v21 (F := Ideal) x3) (val_main_v26 (F := Ideal) x5)
        (val_main_v23 (F := Ideal) x4) := by
  funext i
  rw [val_main_v28_apply, val_main_v25_apply, val_main_v22_apply, val_main_v27_apply, val_main_v24_apply]
  have e1 : ∀ k : Fin 128, lidx_main_v22 i k = ix2 (i 0) k := fun k => mk2_eq _ _ _ rfl rfl
  have e2 : ∀ k : Fin 128, ridx_main_v22 i k = ix2 k (i 1) := fun k => mk2_eq _ _ _ rfl rfl
  have e3 : ∀ k : Fin 128, lidx_main_v27 i k = ix2 (i 0) k := fun k => mk2_eq _ _ _ rfl rfl
  have e4 : ∀ k : Fin 128, ridx_main_v27 i k = ix2 k (i 1) := fun k => mk2_eq _ _ _ rfl rfl
  have e5 : idx_main_v24 i = ix2 (0 : Fin 1) (i 1) := mk2_eq _ _ _ rfl rfl
  simp only [e1, e2, e3, e4, e5]
  rfl

/-- The reference's batch mean of a column is the one sum over all rows, divided. -/
theorem v31_eq (a : Fin 64) : val_main_v31 (F := Ideal) x0 x1 x2 x3 x4 x5 (ix1 a)
    = rmean (val_main_v28 (F := Ideal) x0 x1 x2 x3 x4 x5) a := by
  rw [val_main_v31_apply, val_main_v29_apply, val_main_v30_apply, val_main_cst_5_apply, val_main_cst_6_apply]
  have e : ∀ k : Fin 100000, idx_main_v29 (ix1 a) k = ix2 k a := fun k => mk2_eq _ _ _ rfl rfl
  simp only [e, Ideal.ofBits_def, Ideal.hostDivf_def]
  unfold rmean
  with_reducible rfl

/-- One squared centred entry. -/
theorem v35_at (k : Fin 100000) (a : Fin 64) : val_main_v35 (F := Ideal) x0 x1 x2 x3 x4 x5 (ix2 k a)
    = (val_main_v28 (F := Ideal) x0 x1 x2 x3 x4 x5 (ix2 k a) - rmean (val_main_v28 (F := Ideal) x0 x1 x2 x3 x4 x5) a)
      * (val_main_v28 (F := Ideal) x0 x1 x2 x3 x4 x5 (ix2 k a) - rmean (val_main_v28 (F := Ideal) x0 x1 x2 x3 x4 x5) a) := by
  have e' : idx_main_v32 (idx_main_v33 (ix2 k a)) = ix1 a := mk1_eq _ _ rfl
  rw [val_main_v35_apply, val_main_v34_apply, val_main_v33_apply, val_main_v32_apply, e', v31_eq]
  rfl

/-- The reference's batch variance of a column is the two-pass variance. -/
theorem v38_eq (a : Fin 64) : val_main_v38 (F := Ideal) x0 x1 x2 x3 x4 x5 (ix1 a)
    = rvar (val_main_v28 (F := Ideal) x0 x1 x2 x3 x4 x5) a := by
  rw [val_main_v38_apply, val_main_v36_apply, val_main_v37_apply, val_main_cst_7_apply, val_main_cst_8_apply]
  unfold rvar
  refine congrArg₂ Ideal.div (congrArg (Ideal.ofBits .f32 0x00000000#32 + ·) (Finset.sum_congr rfl fun k _ => ?_)) rfl
  rw [show idx_main_v36 (ix1 a) k = ix2 k a from mk2_eq _ _ _ rfl rfl]
  exact v35_at x0 x1 x2 x3 x4 x5 k a

/-- The host's reciprocal square root is the exact one. -/
theorem hostUnary_rsqrt (x : EReal) : FloatOps.hostUnary (F := Ideal) (φ := .f32) .rsqrt x = Ideal.rsqrt x := rfl

/-- The scale row broadcast over the rows. -/
theorem v49_at (i : S100000x64.Idx) : val_main_v49 (F := Ideal) x6 i = x6 (ix1 (n := 64) (i 1)) := by
  rw [val_main_v49_apply, val_main_v48_apply]
  exact congrArg x6 (mk1_eq _ _ rfl)

/-- The shift row broadcast over the rows. -/
theorem v52_at (i : S100000x64.Idx) : val_main_v52 (F := Ideal) x7 i = x7 (ix1 (n := 64) (i 1)) := by
  rw [val_main_v52_apply, val_main_v51_apply]
  exact congrArg x7 (mk1_eq _ _ rfl)

/-- The centred pre-activation. -/
theorem v41_at (i : S100000x64.Idx) : val_main_v41 (F := Ideal) x0 x1 x2 x3 x4 x5 i
    = val_main_v28 (F := Ideal) x0 x1 x2 x3 x4 x5 i - rmean (val_main_v28 (F := Ideal) x0 x1 x2 x3 x4 x5) (i 1) := by
  have e : idx_main_v39 (idx_main_v40 i) = ix1 (n := 64) (i 1) := mk1_eq _ _ rfl
  rw [val_main_v41_apply, val_main_v40_apply, val_main_v39_apply, e, v31_eq x0 x1 x2 x3 x4 x5 (i 1)]
  rfl

/-- The reciprocal standard deviation broadcast over the rows. -/
theorem v46_at (i : S100000x64.Idx) : val_main_v46 (F := Ideal) x0 x1 x2 x3 x4 x5 i
    = Ideal.rsqrt (rvar (val_main_v28 (F := Ideal) x0 x1 x2 x3 x4 x5) (i 1) + Ideal.ofBits .f32 0x3727C5AC#32) := by
  have e : idx_main_v45 (idx_main_v46 i) = ix1 (n := 64) (i 1) := mk1_eq _ _ rfl
  rw [val_main_v46_apply, val_main_v45_apply, e, val_main_v44_apply, val_main_v43_apply, v38_eq x0 x1 x2 x3 x4 x5 (i 1), val_main_v42_apply,
    val_main_cst_9_apply]
  rfl

/-- The normalised, scaled, shifted and clamped first layer. -/
theorem v54_eq : val_main_v54 (F := Ideal) x0 x1 x2 x3 x4 x5 x6 x7
    = bnrelu (val_main_v28 (F := Ideal) x0 x1 x2 x3 x4 x5)
        (fun i => rmean (val_main_v28 (F := Ideal) x0 x1 x2 x3 x4 x5) (i 1))
        (fun i => rvar (val_main_v28 (F := Ideal) x0 x1 x2 x3 x4 x5) (i 1))
        (fun i => x6 (ix1 (n := 64) (i 1))) (fun i => x7 (ix1 (n := 64) (i 1))) := by
  funext i
  rw [val_main_v54_apply, val_main_v53_apply, val_main_v50_apply, val_main_v47_apply, v41_at, v46_at, v49_at, v52_at,
    val_main_call0_v0_apply, val_main_call0_cst_apply]
  unfold bnrelu
  show _ = max ((((val_main_v28 (F := Ideal) x0 x1 x2 x3 x4 x5 i - rmean (val_main_v28 (F := Ideal) x0 x1 x2 x3 x4 x5) (i 1))
      * Ideal.rsqrt (rvar (val_main_v28 (F := Ideal) x0 x1 x2 x3 x4 x5) (i 1) + Ideal.ofBits .f32 0x3727C5AC#32))
      * x6 (ix1 (n := 64) (i 1))) + x7 (ix1 (n := 64) (i 1))) 0
  rw [← Ideal.ofBits_zero_f32]
  rfl

/-- The embedding is the second linear layer with the bias added first. -/
theorem v74_eq : val_main_v74 (F := Ideal) x0 x1 x2 x3 x4 x5 x6 x7 x8 x9 x10
    = rlin2 (val_main_v66 (F := Ideal) x0 x1 x2 x3 x4 x5 x6 x7) (val_main_v54 (F := Ideal) x0 x1 x2 x3 x4 x5 x6 x7)
        (val_main_v67 (F := Ideal) x8) (val_main_v72 (F := Ideal) x10) (val_main_v69 (F := Ideal) x9) := by
  funext i
  rw [val_main_v74_apply, val_main_v71_apply, val_main_v68_apply, val_main_v73_apply, val_main_v70_apply]
  have e1 : ∀ k : Fin 64, lidx_main_v68 i k = ix2 (i 0) k := fun k => mk2_eq _ _ _ rfl rfl
  have e2 : ∀ k : Fin 64, ridx_main_v68 i k = ix2 k (i 1) := fun k => mk2_eq _ _ _ rfl rfl
  have e3 : ∀ k : Fin 64, lidx_main_v73 i k = ix2 (i 0) k := fun k => mk2_eq _ _ _ rfl rfl
  have e4 : ∀ k : Fin 64, ridx_main_v73 i k = ix2 k (i 1) := fun k => mk2_eq _ _ _ rfl rfl
  have e5 : idx_main_v70 i = ix2 (0 : Fin 1) (i 1) := mk2_eq _ _ _ rfl rfl
  simp only [e1, e2, e3, e4, e5]
  rfl

/-- The logits are the classifier of the embedding. -/
theorem v79_eq : val_main_v79 (F := Ideal) x0 x1 x2 x3 x4 x5 x6 x7 x8 x9 x10 x11 x12
    = cls (val_main_v74 (F := Ideal) x0 x1 x2 x3 x4 x5 x6 x7 x8 x9 x10) (val_main_v75 (F := Ideal) x11)
        (val_main_v77 (F := Ideal) x12) := by
  funext i
  rw [val_main_v79_apply, val_main_v76_apply, val_main_v78_apply]
  have e1 : ∀ k : Fin 16, lidx_main_v76 i k = ix2 (i 0) k := fun k => mk2_eq _ _ _ rfl rfl
  have e2 : ∀ k : Fin 16, ridx_main_v76 i k = ix2 k (i 1) := fun k => mk2_eq _ _ _ rfl rfl
  have e5 : idx_main_v78 i = ix2 (0 : Fin 1) (i 1) := mk2_eq _ _ _ rfl rfl
  simp only [e1, e2, e5]
  rfl

end Cert.ReferenceIdeal.RefV

end
-- ==== Proof.Val.Bridge.lean ====
/-
  THE BRIDGE: the kernel program's two results, as one term of its thirteen argument arrays, are the reference's.

  The shared chains (degree reciprocal, gather and scatter-add aggregation) and the transposed weights are the same
  terms on both sides.  The linear layers differ by the order of their three summands.  The batch mean is the same
  number whether the rows are added block by block or all at once.  The batch variance in its one-pass, clamped
  form is the two-pass variance because every entry of the first layer's pre-activation is a real number, which
  follows from the node features, the first layer's weights and its bias being real-valued.
-/
import proofs.«129360_j3092376453140_1_alg».proof.Proof.Val.RealK
import proofs.«129360_j3092376453140_1_alg».proof.Proof.Val.Ref
import Idealize.ShloMosaic.Lib.Pipeline.Value

noncomputable section

open scoped BigOperators

namespace Cert.Val.Bridge

open Cert.KernelIdeal Cert.KernelIdeal.Gen Cert.KernelIdeal.HostK Cert.ReferenceIdeal.Read Cert.ReferenceIdeal.RefV
  Idealize.ShloMosaic Idealize.ShloMosaic.ValueIdx Cert.Val Cert.RealValued

/-- A vector reshaped to a row reads, at (0, j), the vector at j. -/
theorem shapeCast_row {n : Nat} (x : (⟨1, ![n]⟩ : Shape).Idx → EReal) (h : (⟨1, ![n]⟩ : Shape).ShapeCasts ⟨2, ![1, n]⟩) :
    shapeCast ⟨2, ![1, n]⟩ x h = fun i => x (ix1 (i 1)) := by
  funext i
  refine shapeCast_apply x h i (ix1 (i 1)) ?_
  rw [Shape.rowMajor_val_two, Shape.rowMajor_val_one]
  show (i 1).val = (i 0).val * n + (i 1).val
  have h0 : (i 0).val = 0 := by have := idx2_lt0 i; omega
  rw [h0, Nat.zero_mul, Nat.zero_add]

variable (x0 : (⟨S100000x128, .f32⟩ : BufTy).Contents (Elt Ideal)) (x1 x2 : (⟨S1600000, .i32⟩ : BufTy).Contents (Elt Ideal))
  (x3 : (⟨S64x128, .f32⟩ : BufTy).Contents (Elt Ideal)) (x4 : (⟨S64, .f32⟩ : BufTy).Contents (Elt Ideal))
  (x5 : (⟨S64x128, .f32⟩ : BufTy).Contents (Elt Ideal)) (x6 x7 : (⟨S64, .f32⟩ : BufTy).Contents (Elt Ideal))
  (x8 : (⟨S16x64, .f32⟩ : BufTy).Contents (Elt Ideal)) (x9 : (⟨S16, .f32⟩ : BufTy).Contents (Elt Ideal))
  (x10 : (⟨S16x64, .f32⟩ : BufTy).Contents (Elt Ideal)) (x11 : (⟨S2x16, .f32⟩ : BufTy).Contents (Elt Ideal))
  (x12 : (⟨S2, .f32⟩ : BufTy).Contents (Elt Ideal))

/-- The reference's bias row (a broadcast of the vector) is the kernel's (a reshape of it). -/
theorem row64_eq (x : (⟨S64, .f32⟩ : BufTy).Contents (Elt Ideal)) :
    val_main_v23 (F := Ideal) x = shapeCast S1x64 x shapeCasts_S64_S1x64 := by
  rw [shapeCast_row]
  funext i
  rw [val_main_v23_apply]
  exact congrArg x (mk1_eq _ _ rfl)

theorem row16_eq (x : (⟨S16, .f32⟩ : BufTy).Contents (Elt Ideal)) :
    val_main_v69 (F := Ideal) x = shapeCast S1x16 x shapeCasts_S16_S1x16 := by
  rw [shapeCast_row]
  funext i
  rw [val_main_v69_apply]
  exact congrArg x (mk1_eq _ _ rfl)

theorem row2_eq (x : (⟨S2, .f32⟩ : BufTy).Contents (Elt Ideal)) :
    val_main_v77 (F := Ideal) x = shapeCast S1x2 x shapeCasts_S2_S1x2 := by
  rw [shapeCast_row]
  funext i
  rw [val_main_v77_apply]
  exact congrArg x (mk1_eq _ _ rfl)

/-- The shared aggregation of the node features is the same term in both programs. -/
theorem v20_eq : val_main_v20 (F := Ideal) x0 x1 x2 = aggX x0 x1 x2 (dinvCol x2) := rfl

/-- The shared aggregation of the hidden features is the same term in both programs. -/
theorem v66_eq : val_main_v66 (F := Ideal) x0 x1 x2 x3 x4 x5 x6 x7
    = aggH (val_main_v54 (F := Ideal) x0 x1 x2 x3 x4 x5 x6 x7) x1 x2 (dinvCol x2) := rfl

theorem v21_eq : val_main_v21 (F := Ideal) x3 = transpose S128x64 [1, 0] x3 transposes_S64x128_S128x64_1_0 := rfl
theorem v26_eq : val_main_v26 (F := Ideal) x5 = transpose S128x64 [1, 0] x5 transposes_S64x128_S128x64_1_0 := rfl
theorem v67_eq : val_main_v67 (F := Ideal) x8 = transpose S64x16 [1, 0] x8 transposes_S16x64_S64x16_1_0 := rfl
theorem v72_eq : val_main_v72 (F := Ideal) x10 = transpose S64x16 [1, 0] x10 transposes_S16x64_S64x16_1_0 := rfl
theorem v75_eq : val_main_v75 (F := Ideal) x11 = transpose S16x2 [1, 0] x11 transposes_S2x16_S16x2_1_0 := rfl

/-- The first layer's pre-activation: the two programs differ by the order of the three summands. -/
theorem h_eq : val_main_v28 (F := Ideal) x0 x1 x2 x3 x4 x5 = kH x0 x1 x2 x3 x4 x5 := by
  rw [v28_eq, rlin1_eq, row64_eq, v20_eq, v21_eq, v26_eq]
  unfold kH
  with_reducible rfl

/-- The first layer after normalisation: the statistics agree because the pre-activation is real-valued. -/
theorem hh_eq (h0 : ∀ i, IsReal (x0 i)) (h3 : ∀ i, IsReal (x3 i)) (h4 : ∀ i, IsReal (x4 i)) (h5 : ∀ i, IsReal (x5 i)) :
    val_main_v54 (F := Ideal) x0 x1 x2 x3 x4 x5 x6 x7 = kHH x0 x1 x2 x3 x4 x5 x6 x7 := by
  have hm : kmean (colsum (kH x0 x1 x2 x3 x4 x5)) = fun i => rmean (kH x0 x1 x2 x3 x4 x5) (i 1) :=
    funext fun i => kmean_colsum _ i
  have hv : kvar (colsum (kH x0 x1 x2 x3 x4 x5)) (colsumsq (kH x0 x1 x2 x3 x4 x5))
      = fun i => rvar (kH x0 x1 x2 x3 x4 x5) (i 1) :=
    funext fun i => kvar_colsum _ (allReal_kH x0 x1 x2 x3 x4 x5 h0 h3 h4 h5) i
  rw [v54_eq, h_eq]
  unfold kHH
  rw [hm, hv, shapeCast_row, shapeCast_row]

/-- The embedding. -/
theorem emb_eq (h0 : ∀ i, IsReal (x0 i)) (h3 : ∀ i, IsReal (x3 i)) (h4 : ∀ i, IsReal (x4 i)) (h5 : ∀ i, IsReal (x5 i)) :
    kEmb x0 x1 x2 x3 x4 x5 x6 x7 x8 x9 x10 = val_main_v74 (F := Ideal) x0 x1 x2 x3 x4 x5 x6 x7 x8 x9 x10 := by
  rw [v74_eq, rlin2_eq, row16_eq, v66_eq, v67_eq, v72_eq, hh_eq x0 x1 x2 x3 x4 x5 x6 x7 h0 h3 h4 h5]
  unfold kEmb
  with_reducible rfl

/-- The logits. -/
theorem logits_eq (h0 : ∀ i, IsReal (x0 i)) (h3 : ∀ i, IsReal (x3 i)) (h4 : ∀ i, IsReal (x4 i)) (h5 : ∀ i, IsReal (x5 i)) :
    kLogits x0 x1 x2 x3 x4 x5 x6 x7 x8 x9 x10 x11 x12
      = val_main_v79 (F := Ideal) x0 x1 x2 x3 x4 x5 x6 x7 x8 x9 x10 x11 x12 := by
  rw [v79_eq, ← emb_eq x0 x1 x2 x3 x4 x5 x6 x7 x8 x9 x10 h0 h3 h4 h5, row2_eq, v75_eq]
  unfold kLogits
  with_reducible rfl

end Cert.Val.Bridge

end
-- ==== Proof.Val.Finite.lean ====
/-
  From the precondition "every float input is finite" to "every entry of every float argument is a real number".

  The precondition is the conjunction, over the eleven float arguments, of "all entries have absolute value
  below +∞".  An extended real whose absolute value is below +∞ is neither infinity, so it is a real number.
-/
import proofs.«129360_j3092376453140_1_alg».proof.Proof.Gen.Pre_finite_inputs
import proofs.«129360_j3092376453140_1_alg».proof.Proof.LibRealValued
import Idealize.ShloMosaic.Lib.ReduceAll
import Idealize.ShloMosaic.Lib.ValueIdx

noncomputable section

namespace Cert.Val.Finite

open Cert.Pre_finite_inputs Cert.Pre_finite_inputs.Gen Idealize.ShloMosaic Cert.RealValued

instance : Subsingleton S_.Idx := ⟨fun a b => funext fun d => d.elim0⟩

/-- The float word of +∞ denotes the top element. -/
theorem ofBits_inf : Ideal.ofBits .f32 0x7F800000#32 = ⊤ := by simp [Ideal.ofBits, Ideal.ieee]

/-- An extended real whose absolute value is below +∞ is a real number. -/
theorem isReal_of_abs_lt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

/-- One conjunct of the precondition: all entries of `a` have absolute value below +∞, so all are real. -/
theorem allReal_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
          (constantI S_ 1 1#1) hr hu ValueIdx.ix0 = 1#1) : AllReal a := fun i => by
  have h := Host.reduce_andi_all _ _ hr hu _ e i
  refine isReal_of_abs_lt_top (a i) ?_
  rw [← ofBits_inf]
  exact h

theorem allReal_of_pre (a0 : FVec Ideal S100000x128 .f32) (a1 a2 : IVec S1600000 32) (a3 : FVec Ideal S64x128 .f32)
    (a4 : FVec Ideal S64 .f32) (a5 : FVec Ideal S64x128 .f32) (a6 a7 : FVec Ideal S64 .f32) (a8 : FVec Ideal S16x64 .f32)
    (a9 : FVec Ideal S16 .f32) (a10 : FVec Ideal S16x64 .f32) (a11 : FVec Ideal S2x16 .f32) (a12 : FVec Ideal S2 .f32)
    (h : Cert.Pre_finite_inputs.fn (F := Ideal) a0 a1 a2 a3 a4 a5 a6 a7 a8 a9 a10 a11 a12 = fun _ => 1#1) :
    AllReal a0 ∧ AllReal a3 ∧ AllReal a4 ∧ AllReal a5 ∧ AllReal a6 ∧ AllReal a7 ∧ AllReal a8 ∧ AllReal a9 ∧ AllReal a10
      ∧ AllReal a11 ∧ AllReal a12 := by
  have h0 := congrFun h ValueIdx.ix0
  dsimp only [fn, fn_part1, fn_part2, fn_part3] at h0
  obtain ⟨h0, r12⟩ := IntOp.andi_eq_one.mp h0
  obtain ⟨h0, r11⟩ := IntOp.andi_eq_one.mp h0
  obtain ⟨h0, r10⟩ := IntOp.andi_eq_one.mp h0
  obtain ⟨h0, r9⟩ := IntOp.andi_eq_one.mp h0
  obtain ⟨h0, r8⟩ := IntOp.andi_eq_one.mp h0
  obtain ⟨h0, r7⟩ := IntOp.andi_eq_one.mp h0
  obtain ⟨h0, r6⟩ := IntOp.andi_eq_one.mp h0
  obtain ⟨h0, r5⟩ := IntOp.andi_eq_one.mp h0
  obtain ⟨h0, r4⟩ := IntOp.andi_eq_one.mp h0
  obtain ⟨r0, r3⟩ := IntOp.andi_eq_one.mp h0
  exact ⟨allReal_of_all a0 _ _ _ r0, allReal_of_all a3 _ _ _ r3, allReal_of_all a4 _ _ _ r4, allReal_of_all a5 _ _ _ r5,
    allReal_of_all a6 _ _ _ r6, allReal_of_all a7 _ _ _ r7, allReal_of_all a8 _ _ _ r8, allReal_of_all a9 _ _ _ r9,
    allReal_of_all a10 _ _ _ r10, allReal_of_all a11 _ _ _ r11, allReal_of_all a12 _ _ _ r12⟩

end Cert.Val.Finite

end
-- ==== Proof.Algebraic.lean ====
/-
  The two idealized programs end with equal results. The kernel program's run leaves its two result arrays at one term
  of its thirteen argument arrays (the fold through its seven segments, read at the end); the reference's run leaves its
  two at the composed term of its host operations; and the two terms are one function of the arguments once the node
  features and the first layer's weights and bias are real-valued, which the precondition says of every float input:
  the only place the programs differ in more than the order of a sum is the batch variance, one-pass and clamped at zero
  against two-pass, and those agree on real numbers.
-/
import proofs.«129360_j3092376453140_1_alg».proof.Defs
import proofs.«129360_j3092376453140_1_alg».proof.Proof.KI.Results
import proofs.«129360_j3092376453140_1_alg».proof.Proof.Val.Bridge
import proofs.«129360_j3092376453140_1_alg».proof.Proof.Val.Finite
import proofs.«129360_j3092376453140_1_alg».proof.Proof.Gen.ReferenceIdeal.Run
import proofs.«129360_j3092376453140_1_alg».proof.Proof.Gen.ReferenceIdeal.Read
import proofs.«129360_j3092376453140_1_alg».proof.Proof.Gen.KernelIdeal
import proofs.«129360_j3092376453140_1_alg».proof.Proof.Gen.ReferenceIdeal
import proofs.«129360_j3092376453140_1_alg».proof.Proof.Gen.Pre_finite_inputs

set_option maxRecDepth 16384

noncomputable section

namespace Cert.Proof.AlgClaims

open Idealize.ShloMosaic Idealize.ShloMosaic.TcCoe Idealize.SL.Sem
open Cert.KernelIdeal.Hand Cert.KernelIdeal.HostK

/-- The kernel program's run, with its two results named: from any memory it ends, the logits at one term of the
    launch arguments, the embedding at another, every argument as launched. -/
theorem kernel_results (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v54_1) = kLogits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
      ∧ r.2.mem ((c.tc : Thread Cert.KernelIdeal.nD Cert.KernelIdeal.τ).loc Cert.KernelIdeal.main_v54_0) = kEmb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) :=
  (θ_run Cert.KernelIdeal.defs _ _).mono (fun r h c =>
    ⟨(h c _ (mem_uc Cert.KernelIdeal.main_v54_1 (by decide))).trans (logits_out m c),
      (h c _ (mem_uc Cert.KernelIdeal.main_v54_0 (by decide))).trans (emb_out m c),
      (h c _ (mem_uc Cert.KernelIdeal.main_arg0 (by decide))).trans (W7_main_arg0 m c),
      (h c _ (mem_uc Cert.KernelIdeal.main_arg1 (by decide))).trans (W7_main_arg1 m c),
      (h c _ (mem_uc Cert.KernelIdeal.main_arg2 (by decide))).trans (W7_main_arg2 m c),
      (h c _ (mem_uc Cert.KernelIdeal.main_arg3 (by decide))).trans (W7_main_arg3 m c),
      (h c _ (mem_uc Cert.KernelIdeal.main_arg4 (by decide))).trans (W7_main_arg4 m c),
      (h c _ (mem_uc Cert.KernelIdeal.main_arg5 (by decide))).trans (W7_main_arg5 m c),
      (h c _ (mem_uc Cert.KernelIdeal.main_arg6 (by decide))).trans (W7_main_arg6 m c),
      (h c _ (mem_uc Cert.KernelIdeal.main_arg7 (by decide))).trans (W7_main_arg7 m c),
      (h c _ (mem_uc Cert.KernelIdeal.main_arg8 (by decide))).trans (W7_main_arg8 m c),
      (h c _ (mem_uc Cert.KernelIdeal.main_arg9 (by decide))).trans (W7_main_arg9 m c),
      (h c _ (mem_uc Cert.KernelIdeal.main_arg10 (by decide))).trans (W7_main_arg10 m c),
      (h c _ (mem_uc Cert.KernelIdeal.main_arg11 (by decide))).trans (W7_main_arg11 m c),
      (h c _ (mem_uc Cert.KernelIdeal.main_arg12 (by decide))).trans (W7_main_arg12 m c)⟩)
    (Cert.KernelIdeal.Hand.run_all (F := Ideal) m ρ)

section Reference

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Where every float input is finite and the two memories agree on the arguments, the reference's logits are the
    kernel program's term. -/
theorem ref_logits (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) = fun _ => 1#1)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Value.res_main_v79 m' c = kLogits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  obtain ⟨r0, r3, r4, r5, -⟩ := Cert.Val.Finite.allReal_of_pre _ _ _ _ _ _ _ _ _ _ _ _ _ hpre
  obtain ⟨e0, e1, e2, e3, e4, e5, e6, e7, e8, e9, e10, e11, e12⟩ := hagree
  rw [Cert.ReferenceIdeal.Read.val_main_v79_eq, e0, e1, e2, e3, e4, e5, e6, e7, e8, e9, e10, e11, e12]
  exact (Cert.Val.Bridge.logits_eq _ _ _ _ _ _ _ _ _ _ _ _ _ r0 r3 r4 r5).symm

/-- The same of the embedding. -/
theorem ref_emb (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) = fun _ => 1#1)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Value.res_main_v74 m' c = kEmb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  obtain ⟨r0, r3, r4, r5, -⟩ := Cert.Val.Finite.allReal_of_pre _ _ _ _ _ _ _ _ _ _ _ _ _ hpre
  obtain ⟨e0, e1, e2, e3, e4, e5, e6, e7, e8, e9, e10, e11, e12⟩ := hagree
  rw [Cert.ReferenceIdeal.Read.val_main_v74_eq, e0, e1, e2, e3, e4, e5, e6, e7, e8, e9, e10]
  exact (Cert.Val.Bridge.emb_eq _ _ _ _ _ _ _ _ _ _ _ r0 r3 r4 r5).symm

end Reference

/-- From memories agreeing on the arguments, under the precondition, both programs run to their ends with the same
    logits and the same embedding, and leave their arguments as launched. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨_, _, kernel_results m ρ, ?_⟩
  exact (θ_run Cert.ReferenceIdeal.defs _ _).mono
    (fun r h c => ⟨(h c).1.trans (ref_logits m m' c (hpre c) (hagree c)), (h c).2.1.trans (ref_emb m m' c (hpre c) (hagree c)), (h c).2.2⟩)
    (Cert.ReferenceIdeal.Value.run (F := Ideal) m' ρ')

end Cert.Proof.AlgClaims

end
-- ==== Proof.lean ====
/-
  The certificate's five claims, assembled. Both kernel programs — the word-level one and its exact reading — are a
  chain of seven segments (three stretches of host operations, four kernel regions); their frames are the chain's run
  with everything but the arguments forgotten (the same proof at either instance, since a frame says nothing about
  values). The reference is host operations only, and its frame is its run. The exact reading rewrote no operation, so
  there is nothing to preserve. The two exact programs end with equal results because their results are one function of
  the arguments wherever every float input is finite.
-/
import proofs.«129360_j3092376453140_1_alg».proof.Defs
import proofs.«129360_j3092376453140_1_alg».proof.Proof.RefFrame
import proofs.«129360_j3092376453140_1_alg».proof.Proof.K.Run
import proofs.«129360_j3092376453140_1_alg».proof.Proof.KI.Run
import proofs.«129360_j3092376453140_1_alg».proof.Proof.Algebraic
import proofs.«129360_j3092376453140_1_alg».proof.Proof.Gen.Kernel
import proofs.«129360_j3092376453140_1_alg».proof.Proof.Gen.KernelIdeal
import proofs.«129360_j3092376453140_1_alg».proof.Proof.Gen.ReferenceIdeal
import proofs.«129360_j3092376453140_1_alg».proof.Proof.Gen.Pre_finite_inputs
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  RefClaims.frame_ri,
  trivial,
  AlgClaims.algebraic⟩

end Cert.Proof

end
